-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 999999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S1000000x64 : Shape := ⟨2, ![1000000, 64]⟩
abbrev S204800 : Shape := ⟨1, ![204800]⟩
abbrev S64x1000000 : Shape := ⟨2, ![64, 1000000]⟩
abbrev S1000000x128 : Shape := ⟨2, ![1000000, 128]⟩
abbrev S64x32768 : Shape := ⟨2, ![64, 32768]⟩
abbrev S32768x128 : Shape := ⟨2, ![32768, 128]⟩
abbrev S32768x64 : Shape := ⟨2, ![32768, 64]⟩
abbrev S204800x128 : Shape := ⟨2, ![204800, 128]⟩
abbrev S6400 : Shape := ⟨1, ![6400]⟩
abbrev S400x128 : Shape := ⟨2, ![400, 128]⟩
abbrev S_ : Shape := ⟨0, ![]⟩
abbrev S400 : Shape := ⟨1, ![400]⟩
abbrev S204800x64 : Shape := ⟨2, ![204800, 64]⟩
abbrev S4096x50x64 : Shape := ⟨3, ![4096, 50, 64]⟩

abbrev nBuf : Table → Nat
  | .hbm => 8
  | .local .tc .vmem => 4
  | .local .scVector .vmem => 3
  | _ => 0

abbrev bufTy : (tb : Table) → Fin (nBuf tb) → BufTy
  | .hbm, ⟨0, _⟩ => ⟨S4096x50, .i32⟩
  | .hbm, ⟨1, _⟩ => ⟨S1000000x64, .f32⟩
  | .hbm, ⟨2, _⟩ => ⟨S204800, .i32⟩
  | .hbm, ⟨3, _⟩ => ⟨S64x1000000, .f32⟩
  | .hbm, ⟨4, _⟩ => ⟨S1000000x128, .f32⟩
  | .hbm, ⟨5, _⟩ => ⟨S204800x128, .f32⟩
  | .hbm, ⟨6, _⟩ => ⟨S204800x64, .f32⟩
  | .hbm, ⟨7, _⟩ => ⟨S4096x50x64, .f32⟩
  | .local .tc .vmem, ⟨0, _⟩ => ⟨S64x32768, .f32⟩
  | .local .tc .vmem, ⟨1, _⟩ => ⟨S64x32768, .f32⟩
  | .local .tc .vmem, ⟨2, _⟩ => ⟨S32768x128, .f32⟩
  | .local .tc .vmem, ⟨3, _⟩ => ⟨S32768x128, .f32⟩
  | .local .scVector .vmem, ⟨0, _⟩ => ⟨S6400, .i32⟩
  | .local .scVector .vmem, ⟨1, _⟩ => ⟨S400x128, .f32⟩
  | .local .scVector .vmem, ⟨2, _⟩ => ⟨S400x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v9 : BitVec 32 := Scalar.addi v2 c0_i32_7
  let c0_i32_8 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x50_S204800 : S4096x50.ShapeCasts S204800
  transposes_S1000000x64_S64x1000000_1_0 : S1000000x64.Transposes [1, 0] S64x1000000
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  transposes_S64x32768_p1_0_S32768x64 : S64x32768.Transposes [1, 0] S32768x64
  inb_S32768x128_S32768x64_0_0 : ∀ a, (![0, 0] : Fin 2 → Nat) a + S32768x64.size a ≤ S32768x128.size a
  h_S32768x64 : 0 < S32768x64.numel
  inb_S6400_S400_0 : ∀ a, (![0] : Fin 1 → Nat) a + S400.size a ≤ S6400.size a
  inb_S1000000x128_S1000000x128_0_0 : ∀ a, (![0, 0] : Fin 2 → Nat) a + S1000000x128.size a ≤ S1000000x128.size a
  gathers_S1000000x128_S400x128 : S1000000x128.Gathers 0 S400x128
  inb_S6400_S400_400 : ∀ a, (![400] : Fin 1 → Nat) a + S400.size a ≤ S6400.size a
  inb_S6400_S400_800 : ∀ a, (![800] : Fin 1 → Nat) a + S400.size a ≤ S6400.size a
  inb_S6400_S400_1200 : ∀ a, (![1200] : Fin 1 → Nat) a + S400.size a ≤ S6400.size a
  inb_S6400_S400_1600 : ∀ a, (![1600] : Fin 1 → Nat) a + S400.size a ≤ S6400.size a
  inb_S6400_S400_2000 : ∀ a, (![2000] : Fin 1 → Nat) a + S400.size a ≤ S6400.size a
  inb_S6400_S400_2400 : ∀ a, (![2400] : Fin 1 → Nat) a + S400.size a ≤ S6400.size a
  inb_S6400_S400_2800 : ∀ a, (![2800] : Fin 1 → Nat) a + S400.size a ≤ S6400.size a
  inb_S6400_S400_3200 : ∀ a, (![3200] : Fin 1 → Nat) a + S400.size a ≤ S6400.size a
  inb_S6400_S400_3600 : ∀ a, (![3600] : Fin 1 → Nat) a + S400.size a ≤ S6400.size a
  inb_S6400_S400_4000 : ∀ a, (![4000] : Fin 1 → Nat) a + S400.size a ≤ S6400.size a
  inb_S6400_S400_4400 : ∀ a, (![4400] : Fin 1 → Nat) a + S400.size a ≤ S6400.size a
  inb_S6400_S400_4800 : ∀ a, (![4800] : Fin 1 → Nat) a + S400.size a ≤ S6400.size a
  inb_S6400_S400_5200 : ∀ a, (![5200] : Fin 1 → Nat) a + S400.size a ≤ S6400.size a
  inb_S6400_S400_5600 : ∀ a, (![5600] : Fin 1 → Nat) a + S400.size a ≤ S6400.size a
  inb_S6400_S400_6000 : ∀ a, (![6000] : Fin 1 → Nat) a + S400.size a ≤ S6400.size a
  slices_S204800x128_S204800x64_0_0 : S204800x128.Slices ![0, 0] S204800x64
  shapeCasts_S204800x64_S4096x50x64 : S204800x64.ShapeCasts S4096x50x64
  hcc1_scratch3 : 4 + S_.numel ≤ 9
  hcc1_scratch4 : 5 + S_.numel ≤ 9
  hcc1_scratch5 : 6 + S_.numel ≤ 9
  hcc1_scratch6 : 7 + S_.numel ≤ 9
  hcc1_scoped0 : 8 + S_.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32768x128.size a < S1000000x128.size a
  hwx0_1 : ∀ i : grid0.Coords, EltTy.bits .f32 = 32 ∨ (Rect.unit (s := S1000000x128) (fun a => cc0_transform_1 i a * S32768x128.size a) (fun a => (Pipeline.Clip.of (cc0_transform_1 i a) (S32768x128.size a) (S1000000x128.size a)).extent (S32768x128.size a)) fun a => Pipeline.Clip.inb (Pipeline.Clip.ok_of (hstart0_1 i a))).WholeWords (EltTy.packing .f32)
  hwxs0_1 : ∀ i : grid0.Coords, EltTy.bits .f32 = 32 ∨ (Rect.unit (s := S32768x128) (fun _ => 0) (fun a => (Pipeline.Clip.of (cc0_transform_1 i a) (S32768x128.size a) (S1000000x128.size a)).extent (S32768x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ a, (k1_off1 i) a + S6400.size a ≤ S204800.size a
  k1_off2_inb : ∀ i : grid1.Coords, ∀ (r : Fin 16), ∀ a, (k1_off2 i (BitVec.ofNat 32 (400 * r.val))) a + S400x128.size a ≤ S204800x128.size a

variable [Facts₀]

abbrev cc1_scratch3 : DmaSems sig S_ := SemArray.consecutive 4 S_ hcc1_scratch3
abbrev cc1_scratch4 : DmaSems sig S_ := SemArray.consecutive 5 S_ hcc1_scratch4
abbrev cc1_scratch5 : DmaSems sig S_ := SemArray.consecutive 6 S_ hcc1_scratch5
abbrev cc1_scratch6 : DmaSems sig S_ := SemArray.consecutive 7 S_ hcc1_scratch6
abbrev cc1_scoped0 : DmaSems sig S_ := SemArray.consecutive 8 S_ hcc1_scoped0

abbrev win0_0 : Pipeline.Window sig grid0 :=
  Pipeline.Window.ofSpecClip (Memref.whole main_v1) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v2) S32768x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x50 : Shape := ⟨2, ![4096, 50]⟩
abbrev S1000000x64 : Shape := ⟨2, ![1000000, 64]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x64, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x64, .f32⟩
  | .hbm, ⟨21, _⟩ => ⟨S4096x50x64, .i1⟩
  | .hbm, ⟨22, _⟩ => ⟨S_, .f32⟩
  | .hbm, ⟨23, _⟩ => ⟨S4096x50x64, .f32⟩
  | .hbm, ⟨24, _⟩ => ⟨S4096x50x64, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x64_0_1 : S4096x50.BroadcastsInDim S4096x50x64 (![0, 1] : Fin 2 → Fin S4096x50x64.rank)
  bcast_S_S4096x50x64 : S_.BroadcastsInDim S4096x50x64 (![] : Fin 0 → Fin S4096x50x64.rank)
  gather_S1000000x64_S4096x50x1_S4096x50x64_2_0_n_n_0_2_164_wf : GatherDims.WF S1000000x64 S4096x50x1 S4096x50x64 [2] [0] [] [0] [] 2 ![1, 64]

variable [Facts₀]

def gather_S1000000x64_S4096x50x1_S4096x50x64_2_0_n_n_0_2_164 : GatherDims S1000000x64 S4096x50x1 S4096x50x64 where
  offsetDims := [2]
  collapsedSliceDims := [0]
  operandBatchingDims := []
  startIndicesBatchingDims := []
  startIndexMap := [0]
  indexVectorDim := 2
  sliceSizes := ![1, 64]
  wf := gather_S1000000x64_S4096x50x1_S4096x50x64_2_0_n_n_0_2_164_wf

class Facts : Prop extends Facts₀ where

variable [Facts]
-- ==== Proof.Spec.lean ====
/-
  The specification of the embedding lookup, stated once for both programs, over no program's text.
  The index array `x` has 4096 × 50 words, the table 1000000 rows of 64 numbers, and the result has, at
  position (b, s, k), the table's entry (x[b, s], k). The row number is taken modulo the number of rows so that
  the function is total; where every index word names a row (`InRange`) the remainder is the word itself.
-/
import Idealize.ShloMosaic.PureOps.Ideal
import Idealize.ShloMosaic.Lib.ValueIdx

noncomputable section

namespace Cert.Proof.Spec

open Idealize.ShloMosaic Idealize.ShloMosaic.ValueIdx

/-- The index array's shape. -/
abbrev SX : Shape := ⟨2, ![4096, 50]⟩
/-- The table's shape. -/
abbrev ST : Shape := ⟨2, ![1000000, 64]⟩
/-- The result's shape. -/
abbrev SO : Shape := ⟨3, ![4096, 50, 64]⟩

/-- Every index word, read as a natural number, names a row of the table. -/
def InRange (x : IVec SX 32) : Prop := ∀ j : SX.Idx, (x j).toNat < 1000000

/-- The row of the table that position (b, s) of the index array names. -/
def rowOf (x : IVec SX 32) (b : Fin 4096) (s : Fin 50) : Fin 1000000 :=
  ⟨(x (ix2 b s)).toNat % 1000000, Nat.mod_lt _ (by decide)⟩

theorem rowOf_val {x : IVec SX 32} (hx : InRange x) (b : Fin 4096) (s : Fin 50) :
    (rowOf x b s).val = (x (ix2 b s)).toNat := Nat.mod_eq_of_lt (hx _)

/-- The lookup: the result at (b, s, k) is the table at (x[b, s], k). -/
def lookup {α : Type} (x : IVec SX 32) (t : ST.Idx → α) : SO.Idx → α :=
  fun j => t (ix2 (rowOf x (j 0) (j 1)) (j 2))

theorem lookup_apply {α : Type} (x : IVec SX 32) (t : ST.Idx → α) (b : Fin 4096) (s : Fin 50) (k : Fin 64) :
    lookup x t (ix3 b s k) = t (ix2 (rowOf x b s) k) := rfl

end Cert.Proof.Spec

end
-- ==== Proof.KI.Common.lean ====
/-
  The kernel's program as the SparseCore launch theorem sees it, the resource algebra of its proof, and the
  pure functions its buffers hold along the way. Everything here is generic in the float instance: the program only
  moves numbers. The lookup runs in four steps: the index array is flattened to 204800 words; the table, transposed on
  the host to 64 × 1000000, is transposed back block by block by a TensorCore kernel into the first 64 columns of a
  1000000 × 128 array (the other 64 columns are never written); the thirty-two vector subcores each gather 6400 rows
  of that array, named by their stretch of the flattened indices, into the matching rows of a 204800 × 128 array;
  and the host keeps the first 64 columns and folds the rows back to 4096 × 50.
-/
import proofs.«206427_g47785806135705_cont_8to1_c_687_25_alg».proof.KernelIdeal
import proofs.«206427_g47785806135705_cont_8to1_c_687_25_alg».proof.Proof.Gen.KernelIdeal
import proofs.«206427_g47785806135705_cont_8to1_c_687_25_alg».proof.Proof.Gen.KernelIdeal.Skeleton
import proofs.«206427_g47785806135705_cont_8to1_c_687_25_alg».proof.Proof.Gen.KernelIdeal.Launch
import proofs.«206427_g47785806135705_cont_8to1_c_687_25_alg».proof.Proof.Gen.KernelIdeal.Points
import proofs.«206427_g47785806135705_cont_8to1_c_687_25_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

abbrev xLoc (d : Dev nD) : Loc nD τ sig := (SparseCore.T d).loc main_arg0
abbrev tLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5

/-! ## What the buffers hold -/

/-- The TensorCore kernel's result where it is determined: the first 64 columns of `g` are `h` transposed. -/
def TransposedIn {α : Type} (h : S64x1000000.Idx → α) (g : S1000000x128.Idx → α) : Prop :=
  ∀ (v : Fin 1000000) (k : Fin 64), g (ix2 v ⟨k.val, by omega⟩) = h (ix2 k v)

/-- Every flattened index word names a row. -/
def FlatInRange (xf : S204800.Idx → BitVec 32) : Prop := ∀ j : S204800.Idx, (xf j).toNat < 1000000

/-- The rows the vector subcores gather: row `b` of the result is the row of `t2` that word `b` of the flattened
    indices names (modulo the number of rows, so that the function is total). -/
def gatherRows {α : Type} (xf : S204800.Idx → BitVec 32) (t2 : S1000000x128.Idx → α) : S204800x128.Idx → α :=
  fun j => t2 (ix2 (n0 := 1000000) (n1 := 128) ⟨(xf (ix1 (n := 204800) (j 0))).toNat % 1000000, Nat.mod_lt _ (by decide)⟩ (j 1))

/-- The SparseCore and the vector subcore that grid point `L` names. -/
abbrev cV (L : grid1.Coords) : Fin τ.nSC := (L 0).castLE hcore1
abbrev jV (L : grid1.Coords) : Fin τ.nSub := (L 1).castLE hsub1

/-- The first of the 6400 flattened positions vector subcore `L 1` of SparseCore `L 0` serves. -/
def base (L : grid1.Coords) : Nat := 12800 * (L 1).val + 6400 * (L 0).val

/-- The entries of the gathered array that vector subcore `L` writes: its 6400 rows, whole. -/
def oRows (L : grid1.Coords) : Finset S204800x128.Idx :=
  Finset.univ.filter fun j => base L ≤ (j 0).val ∧ (j 0).val < base L + 6400

end Cert.Proof.KI

end
-- ==== Proof.KI.Value.lean ====
/-
  The pure value algebra that joins the final memory of the program to the specification of the lookup. Nothing here
  runs a program or speaks of memory: every statement is an equation between functions on index sets.

  The gathered array has 204800 rows of 128 numbers. Row r is the row of the 1000000 × 128 array that word r of the
  flattened index array names, and the first 64 columns of that array are the table (held transposed, 64 × 1000000)
  transposed back; so entry (r, k) of the gathered array, for k below 64, is entry (k, word r) of the transposed table.
  `GatheredOn` says this on a set of entries; it passes to unions of pieces. Flat position r of the 4096 × 50 index
  array is (r / 50, r % 50), row r of the 204800 × 64 array folds to (r / 50, r % 50) as well, and the slice at offset
  zero reads the same coordinates: a fully gathered array, sliced and folded, is the lookup. The thirty-two row sets are
  the stretches [6400 (2 i + c), 6400 (2 i + c) + 6400) for subcore i of SparseCore c, which tile [0, 204800).
-/
import proofs.«206427_g47785806135705_cont_8to1_c_687_25_alg».proof.Proof.KI.Common
import Idealize.ShloMosaic.Lib.Pipeline.Value
import Idealize.ShloMosaic.Lib.ValueIdx
import Idealize.ShloMosaic.Lib.ValueLayout

noncomputable section

namespace Cert.Proof.KI

open Cert.KernelIdeal Cert.KernelIdeal.Gen

open Idealize.ShloMosaic
open Idealize.ShloMosaic.ValueIdx

variable {F : FTy → Type} [FloatOps F]

/-- On the index set I, the first 64 columns of row b of h are column (word b of xf, modulo the row count) of f1:
    what the vector subcores leave in the gathered array, read through the transposed table. -/
def GatheredOn {α : Type} (xf : S204800.Idx → BitVec 32) (f1 : S64x1000000.Idx → α) (I : Finset S204800x128.Idx) (h : S204800x128.Idx → α) : Prop :=
  ∀ j ∈ I, ∀ hk : (j 1).val < 64, h j = f1 (ix2 (n0 := 64) (n1 := 1000000) ⟨(j 1).val, hk⟩ ⟨(xf (ix1 (n := 204800) (j 0))).toNat % 1000000, Nat.mod_lt _ (by decide)⟩)

/-- A row gather from an array whose first 64 columns are f1 transposed is GatheredOn anywhere. -/
theorem gatheredOn_of_transposedIn {α : Type} (xf : S204800.Idx → BitVec 32) (f1 : S64x1000000.Idx → α) (t2 : S1000000x128.Idx → α)
    (ht : TransposedIn f1 t2) (I : Finset S204800x128.Idx) : GatheredOn xf f1 I (gatherRows xf t2) := by
  intro j _ hk
  -- the gathered entry is entry (row named by the word, column j 1) of t2, and that column is below 64
  exact ht ⟨(xf (ix1 (n := 204800) (j 0))).toNat % 1000000, Nat.mod_lt _ (by decide)⟩ ⟨(j 1).val, hk⟩

/-- GatheredOn on the pieces of a cover, each at its own function, is GatheredOn on the union at any function that agrees with each piece's on that piece. -/
theorem gatheredOn_biUnion {α ι : Type} [DecidableEq ι] (xf) (f1 : S64x1000000.Idx → α) (s : Finset ι) (I : ι → Finset S204800x128.Idx) (hs : ι → S204800x128.Idx → α) (g : S204800x128.Idx → α)
    (hg : ∀ i ∈ s, ∀ j ∈ I i, g j = hs i j) (h : ∀ i ∈ s, GatheredOn xf f1 (I i) (hs i)) : GatheredOn xf f1 (s.biUnion I) g := by
  intro j hj hk
  obtain ⟨i, hi, hji⟩ := Finset.mem_biUnion.1 hj
  rw [hg i hi j hji]
  exact h i hi j hji hk

/-- The flattened index array: the host reshape of x, as @main's first operation computes it. -/
abbrev flatOf (x : IVec S4096x50 32) : IVec S204800 32 := shapeCast S204800 x shapeCasts_S4096x50_S204800
/-- The host transpose of the table, as @main's second operation computes it. -/
abbrev transOf (tb : FVec F S1000000x64 .f32) : FVec F S64x1000000 .f32 := transpose S64x1000000 [1, 0] tb transposes_S1000000x64_S64x1000000_1_0

/-- Word r of the flattened index array is word (r / 50, r % 50) of the index array: both sit at row-major position r. -/
theorem flatOf_apply (x : IVec S4096x50 32) (b : Fin 4096) (s : Fin 50) (r : Fin 204800) (hr : r.val = 50 * b.val + s.val) :
    flatOf x (ix1 r) = x (ix2 b s) := by
  refine shapeCast_apply x shapeCasts_S4096x50_S204800 (ix1 r) (ix2 b s) ?_
  rw [Shape.rowMajor_val_two, Shape.rowMajor_val_one]
  show b.val * 50 + s.val = r.val
  omega

theorem flatInRange_of_inRange (x : IVec S4096x50 32) (hx : Cert.Proof.Spec.InRange x) : FlatInRange (flatOf x) := by
  intro j
  have hj : (j 0).val < 204800 := (j 0).isLt
  -- word r of the flattened array is word (r / 50, r % 50) of the index array
  have e : flatOf x j = x (ix2 (n0 := 4096) (n1 := 50) ⟨(j 0).val / 50, by omega⟩ ⟨(j 0).val % 50, Nat.mod_lt _ (by decide)⟩) := by
    refine shapeCast_apply x shapeCasts_S4096x50_S204800 j _ ?_
    rw [Shape.rowMajor_val_two, Shape.rowMajor_val_one]
    show (j 0).val / 50 * 50 + (j 0).val % 50 = (j 0).val
    omega
  rw [e]
  exact hx _

/-- The host's last two operations (keep the first 64 columns, fold the rows back to 4096 × 50) applied to a fully gathered array give the lookup. -/
theorem result_eq (x : IVec S4096x50 32) (tb : FVec F S1000000x64 .f32) (h : FVec F S204800x128 .f32)
    (hx : Cert.Proof.Spec.InRange x) (hh : GatheredOn (flatOf x) (transOf tb) Finset.univ h) :
    shapeCast S4096x50x64 (extractStridedSlice S204800x64 ![0, 0] h slices_S204800x128_S204800x64_0_0) shapeCasts_S204800x64_S4096x50x64 = Cert.Proof.Spec.lookup x tb := by
  funext j
  obtain ⟨b, s, k, rfl⟩ : ∃ (b : Fin 4096) (s : Fin 50) (k : Fin 64), j = ix3 b s k := ⟨j 0, j 1, j 2, eq_ix3 j⟩
  have hb : b.val < 4096 := b.isLt
  have hs : s.val < 50 := s.isLt
  have hk : k.val < 64 := k.isLt
  have hr : 50 * b.val + s.val < 204800 := by omega
  -- position (b, s, k) of the folded array is position (50 b + s, k) of the 204800 × 64 array
  refine (shapeCast_apply _ shapeCasts_S204800x64_S4096x50x64 (ix3 b s k)
    (ix2 (n0 := 204800) (n1 := 64) ⟨50 * b.val + s.val, hr⟩ k) ?_).trans ?_
  · rw [Shape.rowMajor_val_two, Shape.rowMajor_val_three]
    show (50 * b.val + s.val) * 64 + k.val = (b.val * 50 + s.val) * 64 + k.val
    omega
  -- which the slice reads at the same coordinates of the 204800 × 128 array
  refine (extractStridedSlice_apply ![0, 0] h slices_S204800x128_S204800x64_0_0 _
    (ix2 (n0 := 204800) (n1 := 128) ⟨50 * b.val + s.val, hr⟩ ⟨k.val, by omega⟩) fun a => ?_).trans ?_
  · match a with
    | ⟨0, _⟩ => show 50 * b.val + s.val = 0 + (50 * b.val + s.val); omega
    | ⟨1, _⟩ => show k.val = 0 + k.val; omega
  -- a gathered entry: the transposed table at (k, the word at flat position 50 b + s), and that word is x (b, s)
  refine (hh _ (Finset.mem_univ _) hk).trans ?_
  refine (transpose_ix2_apply tb transposes_S1000000x64_S64x1000000_1_0 _ _).trans ?_
  rw [Cert.Proof.Spec.lookup_apply]
  unfold Cert.Proof.Spec.rowOf
  have hw : flatOf x (ix1 (n := 204800) ⟨50 * b.val + s.val, hr⟩) = x (ix2 b s) := flatOf_apply x b s _ rfl
  exact congrArg tb (congrArg (fun r => ix2 r k) (Fin.ext (congrArg (fun w : BitVec 32 => w.toNat % 1000000) hw)))

/-- The thirty-two tiles' row sets are pairwise disjoint and cover the gathered array (coords c i is the grid point of SparseCore c, subcore i). -/
def coordsV (c : Fin 2) (i : Fin 16) : grid1.Coords := fun | 0 => c | 1 => i | ⟨_ + 2, h⟩ => absurd h (Nat.not_lt.2 (Nat.le_add_left _ _))

/-- The first position of the tile of SparseCore c, subcore i. -/
theorem base_coordsV (c : Fin 2) (i : Fin 16) : base (coordsV c i) = 12800 * i.val + 6400 * c.val := rfl

theorem mem_oRows_coordsV (c : Fin 2) (i : Fin 16) (j : S204800x128.Idx) :
    j ∈ oRows (coordsV c i) ↔ 12800 * i.val + 6400 * c.val ≤ (j 0).val ∧ (j 0).val < 12800 * i.val + 6400 * c.val + 6400 := by
  unfold oRows
  rw [Finset.mem_filter, base_coordsV]
  exact ⟨fun h => h.2, fun h => ⟨Finset.mem_univ _, h⟩⟩

theorem oRows_disjoint (a b : Fin 2 × Fin 16) (hab : a ≠ b) : Disjoint (oRows (coordsV a.1 a.2)) (oRows (coordsV b.1 b.2)) := by
  rw [Finset.disjoint_left]
  intro j hja hjb
  rw [mem_oRows_coordsV] at hja hjb
  -- the tiles' stretches are the 6400-blocks numbered 2 i + c: a common row forces the same block, hence the same tile
  have h1 : a.1.val < 2 := a.1.isLt
  have h2 : b.1.val < 2 := b.1.isLt
  apply hab
  refine Prod.ext (Fin.ext ?_) (Fin.ext ?_) <;> omega

theorem oRows_cover : (Finset.univ : Finset (Fin 2 × Fin 16)).biUnion (fun a => oRows (coordsV a.1 a.2)) = Finset.univ := by
  rw [Finset.eq_univ_iff_forall]
  intro j
  have hj : (j 0).val < 204800 := (j 0).isLt
  -- row r belongs to subcore r / 12800 of SparseCore (r % 12800) / 6400
  refine Finset.mem_biUnion.2 ⟨(⟨(j 0).val % 12800 / 6400, by omega⟩, ⟨(j 0).val / 12800, by omega⟩), Finset.mem_univ _, ?_⟩
  rw [mem_oRows_coordsV]
  show 12800 * ((j 0).val / 12800) + 6400 * ((j 0).val % 12800 / 6400) ≤ (j 0).val
    ∧ (j 0).val < 12800 * ((j 0).val / 12800) + 6400 * ((j 0).val % 12800 / 6400) + 6400
  omega

end Cert.Proof.KI

end
-- ==== Proof.KI.Pay.lean ====
/-
  What the launch of the SparseCore program deals and carries. The read-only arrays (the flattened indices, the table
  array) go to the thirty-two tasks as shares of the full share halved five times; the gathered array goes to them as
  its thirty-two stretches of 6400 rows, which are pairwise disjoint and cover it. A task hands back its rows with the
  fact that their first 64 columns are the table's rows its index words name; the facts join over the cover. The
  launch element funds the handshakes' cells and the TensorCore kernel's staging cells. The host operations of @main
  are stepped over the two arrays each of them names.
-/
import proofs.«206427_g47785806135705_cont_8to1_c_687_25_alg».proof.Proof.KI.Common
import proofs.«206427_g47785806135705_cont_8to1_c_687_25_alg».proof.Proof.KI.Value

noncomputable section

namespace Cert.Proof.KI

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}
local notation "𝕄" => MT nD τ sig (HIx 1) (Elt F) ℕ UU ℕ

/-! ## Shares: the full share halved -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- The share of the read-only arrays that subcore `i` of SparseCore `c` holds. -/
abbrev xq (c : Fin 2) (i : Fin 16) : PosShare TreeShare := leaf 4 (leaf 1 fullShare c) i

variable [FloatOps F]

/-! ## What the handshakes carry -/

variable (m : (ℓ : Loc nD τ sig) → Buf (Elt F) ℓ)

/-- The flattened indices and the transposed table on device `d`, as @main's first two operations leave them. -/
abbrev xfOf (d : Dev nD) : Buf (Elt F) (v0Loc d) := flatOf (m (xLoc d))
abbrev f1Of (d : Dev nD) : Buf (Elt F) (v1Loc d) := transOf (F := F) (m (tLoc d))

/-- What a task starts from: its shares of the flattened indices and of the table array (whose first 64 columns are
    the table), its own rows of the gathered array as the launch left them; -/
def goRes (d : Dev nD) (c : Fin 2) (i : Fin 16) : sProp 𝕄 :=
  iprop(∃ t2, ⌜TransposedIn (f1Of m d) t2⌝ ∗ (v0Loc d ↦{xq c i} xfOf m d) ∗ (v2Loc d ↦{xq c i} t2)
    ∗ (v3Loc d ↦[oRows (coordsV c i)]{fullShare} m (v3Loc d)))
/-- and what it hands back: its rows gathered. -/
def tdRes (d : Dev nD) (c : Fin 2) (i : Fin 16) : sProp 𝕄 :=
  iprop(∃ h, ⌜GatheredOn (xfOf m d) (f1Of m d) (oRows (coordsV c i)) h⌝ ∗ (v3Loc d ↦[oRows (coordsV c i)]{fullShare} h))

def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdRes m d (Fin.cast nCore_zero c) i
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance goRes_storable (d : Dev nD) (c : Fin 2) (i : Fin 16) : BI.Storable (upEmb : UEmb _ 𝕄) (goRes m d c i) := by
  unfold goRes; infer_instance
instance tdRes_storable (d : Dev nD) (c : Fin 2) (i : Fin 16) : BI.Storable (upEmb : UEmb _ 𝕄) (tdRes m d c i) := by
  unfold tdRes; infer_instance

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-- What the proof asks of the launch memory: every index word names a row of the table. -/
def PreOK : Prop := ∀ d : Dev nD, Cert.Proof.Spec.InRange (m (xLoc d))

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from besides what the launch deals: the TensorCore kernel's staging cells' launch state and
    its transfers' tokens. -/
abbrev G (d : Dev nD) : sProp 𝕄 :=
  iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have h0 : (BI.own ((embR : Emb (UP × Counters) 𝕄) (initOf (Pipeline.cells (nD := nD) (τ := τ) cfgs cellOf_inj) (Pipeline.launchToks (nD := nD) (τ := τ) cfgs cellOf_inj), (1 : Counters))) : sProp 𝕄)
      ⊢ BI.own (EP (F := F) (initOf (Pipeline.cells (nD := nD) (τ := τ) cfgs cellOf_inj) (Pipeline.launchToks (nD := nD) (τ := τ) cfgs cellOf_inj))) :=
    (own_pair_emb (embR : Emb (UP × Counters) 𝕄) _ _).trans sep_elim_left
  have h1 : (ownU (u₀ (F := F)) : sProp 𝕄) ⊢ iprop(BI.own (EH (F := F) (initOf (K (F := F)).hsCells (K (F := F)).hsToks))
      ∗ BI.own (EP (F := F) (initOf (Pipeline.cells (nD := nD) (τ := τ) cfgs cellOf_inj) (Pipeline.launchToks (nD := nD) (τ := τ) cfgs cellOf_inj)))) :=
    (ownU_pair _ _).trans (sep_mono .rfl h0)
  have h2 := Pipeline.fund_ghost (nD := nD) (τ := τ) cfgs (EP (F := F)) cellOf_inj
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c :=
    bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c :=
    bigSep_congr fun c _ => bigSep_univ_of_subsingleton (0 : Fin 1)
  rw [e1, e2] at h2
  iintro Hu
  ihave H := h1 $$ Hu
  icases H with ⟨HH, Hq⟩
  imod h2 $$ Hq with Hq
  icases Hq with ⟨Hg, Ht⟩
  imodintro
  isplitl [HH]; · iexact HH
  isplitl [Hg Ht]
  · simp only [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)
abbrev w4' : DevRef τ sig := Proc.devRef .tc (main_v4 : Ref sig .tc)
abbrev w5' : DevRef τ sig := Proc.devRef .tc (main_v5 : Ref sig .tc)

abbrev opR0 : HloOp τ sig (Elt F) := StableHlo.reshape main_arg0 main_v0 rfl shapeCasts_S4096x50_S204800
abbrev opT1 : HloOp τ sig (Elt F) := StableHlo.unary main_arg1 main_v1 ((transpose S64x1000000 [1, 0] · transposes_S1000000x64_S64x1000000_1_0) : (⟨S1000000x64, .f32⟩ : BufTy).Contents (Elt F) → (⟨S64x1000000, .f32⟩ : BufTy).Contents (Elt F))
abbrev opS4 : HloOp τ sig (Elt F) := StableHlo.unary main_v3 main_v4 ((extractStridedSlice S204800x64 ![0, 0] · slices_S204800x128_S204800x64_0_0) : (⟨S204800x128, .f32⟩ : BufTy).Contents (Elt F) → (⟨S204800x64, .f32⟩ : BufTy).Contents (Elt F))
abbrev opR5 : HloOp τ sig (Elt F) := StableHlo.reshape main_v4 main_v5 rfl shapeCasts_S204800x64_S4096x50x64

omit [FloatOps F] in
theorem held_pair (d : Dev nD) (a b : DevRef τ sig) (hab : a ∉ ({b} : Finset (DevRef τ sig))) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' hab, bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (v0Loc d ↦{fullShare} W main_v0)
          ∗ (v1Loc d ↦{fullShare} W main_v1) ∗ (v2Loc d ↦{fullShare} W main_v2) ∗ (v3Loc d ↦{fullShare} W main_v3)
          ∗ (v4Loc d ↦{fullShare} W main_v4) ∗ (v5Loc d ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

omit [FloatOps F] in
theorem tcSt_open (d : Dev nD) (n : ℕ) :
    ((K (F := F)).tcSt (EH (F := F)) d n : sProp 𝕄)
      ⊢ iprop((∃ W, ⌜(K (F := F)).WBelow (T d) W (8 * n)⌝ ∗ owes (T d) ((K (F := F)).Otc d n) W)
          ∗ ((∃ W, ⌜(K (F := F)).WBelow (T d) W (8 * n)⌝ ∗ owes (T d) ((K (F := F)).Otc d n) W) -∗ (K (F := F)).tcSt (EH (F := F)) d n)) := by
  unfold SparseCore.Cfg.tcSt
  iintro ⟨H1, H2⟩
  isplitl [H1]; · iexact H1
  iintro H1
  isplitl [H1]; · iexact H1
  iexact H2

section HloSteps
variable {Λ' : Labels} {defs' : Defs nD τ sig (Elt F) Λ'} {α : Type}

/-- A host operation `y = f x` stepped over the two arrays held whole: `x` kept, `y` at `f` of `x`'s contents. -/
theorem unary_step (d : Dev nD) (x y : Ref sig .tc) (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (hxy : (Proc.devRef .tc x : DevRef τ sig) ∉ ({(Proc.devRef .tc y : DevRef τ sig)} : Finset (DevRef τ sig)))
    (fx : Buf (Elt F) ((SparseCore.T d).loc x)) (fy : Buf (Elt F) ((SparseCore.T d).loc y))
    {k : ((b : (StableHlo.unary (τ := τ) x y f hx hy).writes) → b.1.ty.Contents (Elt F)) → Prog (TpuEff nD τ sig (Elt F) Λ' .tc) α} {Q : α → sProp 𝕄} :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx) ∗ ((SparseCore.T d).loc y ↦{fullShare} f fx))
            -∗ wp frame (wpE defs' 𝒱 (SparseCore.T d) none) Set.univ (k ((StableHlo.unary (τ := τ) x y f hx hy).fn fun b => (Function.update (Function.update (V0 m d) (Proc.devRef .tc x) fx) (Proc.devRef .tc y) fy) b.1)) Q)
        -∗ wp frame (wpE defs' 𝒱 (SparseCore.T d) none) Set.univ (hlo rfl (StableHlo.unary (τ := τ) x y f hx hy) k) Q) := by
  have hne : (Proc.devRef .tc y : DevRef τ sig) ≠ Proc.devRef .tc x := fun e => hxy (Finset.mem_singleton.mpr e.symm)
  have epre : (held (SparseCore.T d) {(Proc.devRef .tc x : DevRef τ sig), (Proc.devRef .tc y : DevRef τ sig)} (Function.update (Function.update (V0 m d) (Proc.devRef .tc x) fx) (Proc.devRef .tc y) fy) : sProp 𝕄)
      = iprop(((SparseCore.T d).loc x ↦{fullShare} fx) ∗ ((SparseCore.T d).loc y ↦{fullShare} fy)) := by
    rw [held_pair d _ _ hxy, Function.update_self, Function.update_of_ne hne.symm, Function.update_self]
  have epost : (held (SparseCore.T d) {(Proc.devRef .tc x : DevRef τ sig), (Proc.devRef .tc y : DevRef τ sig)} ((StableHlo.unary (τ := τ) x y f hx hy).result (Function.update (Function.update (V0 m d) (Proc.devRef .tc x) fx) (Proc.devRef .tc y) fy)) : sProp 𝕄)
      = iprop(((SparseCore.T d).loc x ↦{fullShare} fx) ∗ ((SparseCore.T d).loc y ↦{fullShare} f fx)) := by
    rw [held_pair d _ _ hxy, StableHlo.unary_result, (StableHlo.unary (τ := τ) x y f hx hy).result_of_not_mem _ hxy,
      Function.update_of_ne hne.symm, Function.update_self]
  iintro ⟨Hb, Hx, Hy⟩ Hk
  iapply (wp_hlo_within 𝒱 (SparseCore.T d) none Set.univ (op := StableHlo.unary (τ := τ) x y f hx hy) (S := {(Proc.devRef .tc x : DevRef τ sig), (Proc.devRef .tc y : DevRef τ sig)})
      (Finset.Subset.refl _) (V := Function.update (Function.update (V0 m d) (Proc.devRef .tc x) fx) (Proc.devRef .tc y) fy)) $$ [Hb Hx Hy]
  · isplitl [Hb]; · iexact Hb
    iapply (Entails.of_eq epre.symm)
    isplitl [Hx] <;> iassumption
  iintro ⟨Hb, Hh⟩
  iapply Hk
  isplitl [Hb]; · iexact Hb
  iapply (Entails.of_eq epost); iexact Hh

/-- A host reshape stepped over the two arrays held whole. -/
theorem reshape_step (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : (Proc.devRef .tc x : DevRef τ sig) ∉ ({(Proc.devRef .tc y : DevRef τ sig)} : Finset (DevRef τ sig)))
    (fx : Buf (Elt F) ((SparseCore.T d).loc x)) (fy : Buf (Elt F) ((SparseCore.T d).loc y))
    {k : ((b : (StableHlo.reshape (τ := τ) (Val := Elt F) x y he hn hx hy).writes) → b.1.ty.Contents (Elt F)) → Prog (TpuEff nD τ sig (Elt F) Λ' .tc) α} {Q : α → sProp 𝕄} :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx) ∗ ((SparseCore.T d).loc y ↦{fullShare} fun i => he ▸ shapeCast y.ty.shape fx hn i))
            -∗ wp frame (wpE defs' 𝒱 (SparseCore.T d) none) Set.univ (k ((StableHlo.reshape (τ := τ) (Val := Elt F) x y he hn hx hy).fn fun b => (Function.update (Function.update (V0 m d) (Proc.devRef .tc x) fx) (Proc.devRef .tc y) fy) b.1)) Q)
        -∗ wp frame (wpE defs' 𝒱 (SparseCore.T d) none) Set.univ (hlo rfl (StableHlo.reshape (τ := τ) (Val := Elt F) x y he hn hx hy) k) Q) := by
  have hne : (Proc.devRef .tc y : DevRef τ sig) ≠ Proc.devRef .tc x := fun e => hxy (Finset.mem_singleton.mpr e.symm)
  have epre : (held (SparseCore.T d) {(Proc.devRef .tc x : DevRef τ sig), (Proc.devRef .tc y : DevRef τ sig)} (Function.update (Function.update (V0 m d) (Proc.devRef .tc x) fx) (Proc.devRef .tc y) fy) : sProp 𝕄)
      = iprop(((SparseCore.T d).loc x ↦{fullShare} fx) ∗ ((SparseCore.T d).loc y ↦{fullShare} fy)) := by
    rw [held_pair d _ _ hxy, Function.update_self, Function.update_of_ne hne.symm, Function.update_self]
  have epost : (held (SparseCore.T d) {(Proc.devRef .tc x : DevRef τ sig), (Proc.devRef .tc y : DevRef τ sig)} ((StableHlo.reshape (τ := τ) (Val := Elt F) x y he hn hx hy).result (Function.update (Function.update (V0 m d) (Proc.devRef .tc x) fx) (Proc.devRef .tc y) fy)) : sProp 𝕄)
      = iprop(((SparseCore.T d).loc x ↦{fullShare} fx) ∗ ((SparseCore.T d).loc y ↦{fullShare} fun i => he ▸ shapeCast y.ty.shape fx hn i)) := by
    rw [held_pair d _ _ hxy, StableHlo.reshape_result, (StableHlo.reshape (τ := τ) (Val := Elt F) x y he hn hx hy).result_of_not_mem _ hxy,
      Function.update_of_ne hne.symm, Function.update_self]
  iintro ⟨Hb, Hx, Hy⟩ Hk
  iapply (wp_hlo_within 𝒱 (SparseCore.T d) none Set.univ (op := StableHlo.reshape (τ := τ) (Val := Elt F) x y he hn hx hy) (S := {(Proc.devRef .tc x : DevRef τ sig), (Proc.devRef .tc y : DevRef τ sig)})
      (Finset.Subset.refl _) (V := Function.update (Function.update (V0 m d) (Proc.devRef .tc x) fx) (Proc.devRef .tc y) fy)) $$ [Hb Hx Hy]
  · isplitl [Hb]; · iexact Hb
    iapply (Entails.of_eq epre.symm)
    isplitl [Hx] <;> iassumption
  iintro ⟨Hb, Hh⟩
  iapply Hk
  isplitl [Hb]; · iexact Hb
  iapply (Entails.of_eq epost); iexact Hh
end HloSteps

/-! ## The arrays dealt to the thirty-two tasks, and their rows gathered back -/

omit [FloatOps F] in
theorem share_split (ℓ : Loc nD τ sig) (f : Buf (Elt F) ℓ) :
    (ℓ ↦{fullShare} f : sProp 𝕄) = bigSep Finset.univ fun c : Fin 2 => bigSep Finset.univ fun i : Fin 16 => ℓ ↦{xq c i} f := by
  rw [pointsTo_leaves Finset.univ f 1 fullShare]
  exact bigSep_congr fun c _ => pointsTo_leaves Finset.univ f 4 (leaf 1 fullShare c)

omit [FloatOps F] in
theorem rows_split (d : Dev nD) (f : Buf (Elt F) (v3Loc d)) :
    (v3Loc d ↦{fullShare} f : sProp 𝕄)
      = bigSep Finset.univ fun c : Fin 2 => bigSep Finset.univ fun i : Fin 16 => v3Loc d ↦[oRows (coordsV c i)]{fullShare} f := by
  rw [← bigSep_univ_prod (fun a : Fin 2 × Fin 16 => (v3Loc d ↦[oRows (coordsV a.1 a.2)]{fullShare} f : sProp 𝕄)),
    ← pointsTo_biUnion Finset.univ (ℓ := v3Loc d) (fun a : Fin 2 × Fin 16 => oRows (coordsV a.1 a.2))
      (fun a _ b _ hab => oRows_disjoint a b hab), oRows_cover]

/-- The call's operands, from the three arrays whole: every task its shares and its rows. -/
theorem st_intro (d : Dev nD) (t2 : Buf (Elt F) (v2Loc d)) (ht2 : TransposedIn (f1Of m d) t2) :
    iprop((v0Loc d ↦{fullShare} xfOf m d) ∗ (v2Loc d ↦{fullShare} t2) ∗ (v3Loc d ↦{fullShare} m (v3Loc d)))
      ⊢ bigSep Finset.univ fun c : Fin ((K (F := F)).nCore 0) => (P m).st 0 d c := by
  show _ ⊢ bigSep (Finset.univ : Finset (Fin 2)) fun c => bigSep Finset.univ fun i : Fin 16 => goRes m d c i
  rw [share_split (v0Loc d), share_split (v2Loc d), rows_split d, ← bigSep_sep', ← bigSep_sep']
  refine bigSep_mono fun c _ => ?_
  rw [← bigSep_sep', ← bigSep_sep']
  refine bigSep_mono fun i _ => ?_
  unfold goRes
  show iprop((v0Loc d ↦{xq c i} xfOf m d) ∗ (v2Loc d ↦{xq c i} t2) ∗ (v3Loc d ↦[oRows (coordsV c i)]{fullShare} m (v3Loc d))) ⊢ iprop(∃ t2, ⌜TransposedIn (f1Of m d) t2⌝ ∗ (v0Loc d ↦{xq c i} xfOf m d) ∗ (v2Loc d ↦{xq c i} t2)
    ∗ (v3Loc d ↦[oRows (coordsV c i)]{fullShare} m (v3Loc d)))
  iintro ⟨H0, H2, H3⟩
  iexists t2
  isplitr; · ipureintro; exact ht2
  isplitl [H0]; · iexact H0
  isplitl [H2] <;> iassumption

/-- The call's results: the gathered array whole, every row gathered. -/
theorem dn_elim (d : Dev nD) :
    (bigSep Finset.univ fun c : Fin ((K (F := F)).nCore 0) => (P m).dn 0 d c)
      ⊢ (iprop(∃ h, ⌜GatheredOn (xfOf m d) (f1Of m d) Finset.univ h⌝ ∗ (v3Loc d ↦{fullShare} h)) : sProp 𝕄) := by
  show (bigSep (Finset.univ : Finset (Fin 2)) fun c => bigSep Finset.univ fun i : Fin 16 => tdRes m d c i) ⊢ _
  rw [← bigSep_univ_prod (fun a : Fin 2 × Fin 16 => tdRes m d a.1 a.2)]
  unfold tdRes
  refine (bigSep_exists_pi Finset.univ (fun (a : Fin 2 × Fin 16) (h : Buf (Elt F) (v3Loc d)) =>
    iprop(⌜GatheredOn (xfOf m d) (f1Of m d) (oRows (coordsV a.1 a.2)) h⌝ ∗ (v3Loc d ↦[oRows (coordsV a.1 a.2)]{fullShare} h)))).trans ?_
  iintro ⟨%hs, H⟩
  ihave H' := (bigSep_pure_sep Finset.univ (fun a : Fin 2 × Fin 16 => GatheredOn (xfOf m d) (f1Of m d) (oRows (coordsV a.1 a.2)) (hs a))
    (fun a : Fin 2 × Fin 16 => (v3Loc d ↦[oRows (coordsV a.1 a.2)]{fullShare} hs a : sProp 𝕄))) $$ H
  icases H' with ⟨%hg, H⟩
  ihave H'' := (pointsTo_biUnion_join (ℓ := v3Loc d) (q := fullShare) (Val := Elt F) Finset.univ (fun a : Fin 2 × Fin 16 => oRows (coordsV a.1 a.2)) hs (hs (0, 0))
    (fun a _ b _ hab => oRows_disjoint a b hab)) $$ H
  icases H'' with ⟨%g, %hgg, Hg⟩
  rw [oRows_cover]
  iexists g
  isplitr
  · ipureintro
    have := gatheredOn_biUnion (xfOf m d) (f1Of m d) Finset.univ (fun a : Fin 2 × Fin 16 => oRows (coordsV a.1 a.2)) hs g hgg hg
    rwa [oRows_cover] at this
  · iexact Hg

end Cert.Proof.KI

end
-- ==== Proof.KI.RegionBody.lean ====
/-
  The TensorCore kernel that transposes the table back, block by block: its body at one grid point, the windows'
  geometry in closed form, the relational proof data of its pipeline, and what that data says of the result array.

  Grid point `t` (of 31) stages columns `32768 t …` of the 64 × 1000000 transposed table — all 64 rows; at the
  last point only the 16960 columns that lie inside the array, the staging block's other columns keeping whatever
  they held —, the body transposes the WHOLE staged block and stores it over columns 0‥63 of the 32768 × 128 output
  staging block (columns 64‥127 are never written), and the write-back of point `t` puts the rows of that block
  that lie inside the 1000000 × 128 result onto its rows `32768 t …`. So a row `v` of the result, with
  `t = v / 32768`, ends in its first 64 columns at
      result (v, k) = staged_out_t (v − 32768 t, k) = staged_in_t (k, v − 32768 t) = table_T (k, v),
  because `v` lies inside the array and so inside the part the fetch filled. The output staging block is only
  partly overwritten per point, so the pipeline's proof data is relational: per point it says of the output block
  only that, on the rows inside the array, its first 64 columns are the input block transposed (`OutRel`); the
  result array then has, after the write-backs of the points below `n`, its rows below `32768 n` done
  (`arrAt_done`), and the 31 points cover every row.
-/
import proofs.«206427_g47785806135705_cont_8to1_c_687_25_alg».proof.Proof.KI.Common
import Idealize.ShloMosaic.Lib.Pipeline.Value

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

namespace Tp

/-! ## The body at one grid point -/

/-- The staged output block's first 64 columns are the staged input block transposed. -/
def TrBlock {α : Type} (Y : S64x32768.Idx → α) (X : S32768x128.Idx → α) : Prop :=
  ∀ (r : Fin 32768) (k : Fin 64), X (ix2 r ⟨k.val, by omega⟩) = Y (ix2 k r)

/-- Storing the transposed input block over the leading 64 columns of an output block leaves those columns at the
    transpose, whatever the block held. -/
theorem trBlock_updateSlice (f0 : S64x32768.Idx → Elt F .f32) (f1 : S32768x128.Idx → Elt F .f32)
    (h : S32768x128.Slices ![0, 0] S32768x64) : TrBlock f0 (updateSlice f1 (k0_pay1 f0) ![0, 0] h) := by
  intro r k
  unfold updateSlice
  rw [dif_pos (fun a => by
    match a with
    | ⟨0, _⟩ => exact ⟨Nat.zero_le _, by show r.val < 0 + 32768; omega⟩
    | ⟨1, _⟩ => exact ⟨Nat.zero_le _, by show k.val < 0 + 64; omega⟩)]
  unfold k0_pay1
  refine (transpose_apply [1, 0] _ _ _ (ix2 k r) fun b => ?_).trans ?_
  · match b with
    | ⟨0, _⟩ => rfl
    | ⟨1, _⟩ => rfl
  · rw [shapeCast_self]

/-- One case of the body's run: the input block staged in buffer `b0`, the output block in buffer `b1`. -/
local macro "tp_case " b0:term ", " b1:term : tactic => `(tactic| (
  have hz : (![0, 0] : Fin 2 → Nat) = fun _ => 0 := funext fun a => by fin_cases a <;> rfl
  simp only [owns_whole_eq, cc0__tp_body_eq_skeleton]; unfold cc0__tp_body_skel
  simp only [Prog.lift, Prog.bind_op, Prog.bind_ret]
  iintro ⟨⟨⟨%f0, %hf0, H0⟩, ⟨%f1, %hf1, H1⟩⟩, Hk⟩
  sl_steps
  iapply Hk
  have hr0 : (Memref.whole $b0 : Memref sig .tc _ _ _).view.readAt (Elt F) (Rect.unit (s := S64x32768) ![0, 0] S64x32768.size
      inb_S64x32768_S64x32768_0_0).toLoadRect = id := funext (Memref.readAt_unit_zero (Elt F) $b0 hz _)
  have hw1 : ∀ f w, (((Memref.whole $b1).access (Rect.unit (s := S32768x128) ![0, 0] S32768x64.size inb_S32768x128_S32768x64_0_0)) :
      View sig .tc _ _ _).write (Elt F) f w Finset.univ = updateSlice f w ![0, 0] ⟨rfl, inb_S32768x128_S32768x64_0_0⟩ :=
    fun f w => View.write_whole_slice_unit $b1 ![0, 0] S32768x64.size inb_S32768x128_S32768x64_0_0 f w
  rw [hr0, hw1]
  isplitl [H0]
  · iexists f0; isplitr; · ipureintro; exact hf0
    iexact H0
  · iexists (updateSlice f1 (k0_pay1 (id f0)) ![0, 0] ⟨rfl, inb_S32768x128_S32768x64_0_0⟩)
    isplitr; · ipureintro; rw [← hf0]; exact trBlock_updateSlice f0 f1 _
    iexists _; isplitr; · ipureintro; rfl
    iexact H1))

theorem sound_body (c : Dev nD) (E : Set ℕ) (i : grid0.Coords) (s0 s1 : Fin 2)
    (Y0 : S64x32768.Idx → Elt F .f32) (Y1 : S32768x128.Idx → Elt F .f32) (K : PUnit → sProp 𝕄) :
    iprop((owns (T c) (stage0_0 s0) fullShare Y0 ∗ owns (T c) (stage0_1 s1) fullShare Y1)
          ∗ (iprop(owns (T c) (stage0_0 s0) fullShare Y0 ∗ ∃ X, ⌜TrBlock Y0 X⌝ ∗ owns (T c) (stage0_1 s1) fullShare X) -∗ K ⟨⟩))
      ⊢ wp frame (wpE (defs₀ (F := F)) 𝒱₀ (T c) none) E
          (cc0__tp_body i (stage0_0 s0) (hstage0_0 s0) (stage0_1 s1) (hstage0_1 s1)) K := by
  fin_cases s0 <;> fin_cases s1
  · tp_case cc0_stg0_0, cc0_stg1_0
  · tp_case cc0_stg0_0, cc0_stg1_1
  · tp_case cc0_stg0_1, cc0_stg1_0
  · tp_case cc0_stg0_1, cc0_stg1_1

/-! ## The windows' geometry in closed form -/

theorem coords0 (t : Fin grid0.N) : ((grid0.coords t) 0).val = t.val := by
  revert t; decide +kernel

theorem geo_in (t : Fin grid0.N) :
    win0_0.index t 0 = 0 ∧ win0_0.index t 1 = t.val ∧ win0_0.xsize (grid0.coords t) 0 = 64
      ∧ win0_0.xsize (grid0.coords t) 1 = min 32768 (1000000 - 32768 * t.val) := by
  revert t; decide +kernel

theorem geo_out (t : Fin grid0.N) :
    win0_1.index t 0 = t.val ∧ win0_1.index t 1 = 0 ∧ win0_1.xsize (grid0.coords t) 0 = min 32768 (1000000 - 32768 * t.val)
      ∧ win0_1.xsize (grid0.coords t) 1 = 128 := by
  revert t; decide +kernel

/-! ## The proof data -/

/-- The pairs the core's waits may have recorded during the region: those recorded before it, and any at the index
    of a thread's own transfers. -/
def recB (W : Waits sig (HIx 1)) : Set (SemLoc sig × HIx 1) := {p | p ∈ W ∨ p.2 = none}

/-- What the output staging block holds after the body at point `t`: on the rows that lie inside the array, its
    first 64 columns are the table's columns `32768 t …` transposed. -/
def OutRel {α : Type} (f1 : S64x1000000.Idx → α) (t : Nat) (X : S32768x128.Idx → α) : Prop :=
  ∀ (r : Fin 32768) (k : Fin 64) (h : 32768 * t + r.val < 1000000),
    X (ix2 r ⟨k.val, by omega⟩) = f1 (ix2 k ⟨32768 * t + r.val, h⟩)

/-- The proof data of the transposing pipeline on device `d`: the transposed table at `f1` and the result array at
    `f2` on entry; the body leaves its input block as it found it and its output block at `OutRel`; no invariant;
    the core owes `O` throughout. -/
def rdat (d : Dev nD) (f1 : Buf (Elt F) (v1Loc d)) (f2 : Buf (Elt F) (v2Loc d)) (O : CellTallies nD τ sig (HIx 1))
    (W : Waits sig (HIx 1)) : Pipeline.RDat τ (Elt F) (HIx 1) ℕ UU ℕ cfg0 d where
  A w := match w with
    | ⟨0, _⟩ => f1
    | ⟨1, _⟩ => f2
  after w t Y X := match w with
    | ⟨0, _⟩ => X = Y
    | ⟨1, _⟩ => OutRel f1 t.val X
  Φ _ := iprop(emp)
  q _ := fullShare
  owed _ := O
  recorded _ := recB W

variable (d : Dev nD) (f1 : Buf (Elt F) (v1Loc d)) (f2 : Buf (Elt F) (v2Loc d)) (O : CellTallies nD τ sig (HIx 1))
  (W : Waits sig (HIx 1))

/-- What the body finds in the input staging block at point `t`: on the columns inside the array, the table's. -/
theorem finds_in (t : Fin cfg0.N) (Y : S64x32768.Idx → Elt F .f32) (h : (rdat d f1 f2 O W).Finds (0 : Fin 2) t Y)
    (k : Fin 64) (r : Fin 32768) (hr : 32768 * t.val + r.val < 1000000) :
    Y (ix2 k r) = f1 (ix2 k ⟨32768 * t.val + r.val, hr⟩) := by
  rw [Pipeline.RDat.finds_of_fetch _ (fetch0_0 t)] at h
  obtain ⟨dd, rfl⟩ := h
  have hm : win0_0.moved (grid0.coords t) (ix2 k r) = true := (win0_0.moved_iff _ _).mpr fun a => by
    match a with
    | ⟨0, _⟩ => show k.val < win0_0.xsize (grid0.coords t) 0; rw [(geo_in t).2.2.1]; omega
    | ⟨1, _⟩ => show r.val < win0_0.xsize (grid0.coords t) 1; rw [(geo_in t).2.2.2]; omega
  unfold Pipeline.RDat.fetched
  show win0_0.fill (grid0.coords t) dd _ (ix2 k r) = _
  unfold Pipeline.Window.fill
  rw [dif_pos hm]
  unfold Pipeline.RDat.blockOf
  rw [View.read_apply]
  refine (show _ = f1 _ from rfl).trans (congrArg f1 (funext fun a => Fin.ext ?_))
  refine (Pipeline.Window.rect_emb_val win0_0 t _ a).trans ?_
  match a with
  | ⟨0, _⟩ => show win0_0.index t 0 * 64 + k.val = k.val; rw [(geo_in t).1]; omega
  | ⟨1, _⟩ => show win0_0.index t 1 * 32768 + r.val = 32768 * t.val + r.val; rw [(geo_in t).2.1]; omega

/-- Rows of the result array below `32768 n` hold, in their first 64 columns, the table transposed. -/
def DoneBelow {α : Type} (f1 : S64x1000000.Idx → α) (n : Nat) (G : S1000000x128.Idx → α) : Prop :=
  ∀ (v : Fin 1000000) (k : Fin 64), v.val < 32768 * n → G (ix2 v ⟨k.val, by omega⟩) = f1 (ix2 k v)

/-- After the write-backs of the points below `n` the rows below `32768 n` are done: point `n`'s write-back puts
    rows `32768 n …` of the array (those inside it) at the output block's rows, which `OutRel` names, and leaves
    the rows before them as they were. -/
theorem arrAt_done : ∀ (n : Nat) (G : S1000000x128.Idx → Elt F .f32), (rdat d f1 f2 O W).ArrAt (1 : Fin 2) n G → DoneBelow f1 n G
  | 0, _, _ => fun v k h => absurd h (by omega)
  | n + 1, G, h => by
    by_cases hn : n < cfg0.N
    · have h' : (rdat d f1 f2 O W).ArrStep (1 : Fin 2) ⟨n, hn⟩ ((rdat d f1 f2 O W).ArrAt (1 : Fin 2) n) G := by
        simpa only [Pipeline.RDat.ArrAt, dif_pos hn, if_pos (flush0_1 ⟨n, hn⟩)] using h
      obtain ⟨G₀, X, hG₀, ⟨Y, -, hX⟩, rfl⟩ := h'
      have ih := arrAt_done n G₀ hG₀
      have hX' : OutRel f1 n X := hX
      intro v k hv
      have e0 : win0_1.index ⟨n, hn⟩ 0 = n := (geo_out ⟨n, hn⟩).1
      have e1 : win0_1.index ⟨n, hn⟩ 1 = 0 := (geo_out ⟨n, hn⟩).2.1
      have x0 : win0_1.xsize (grid0.coords ⟨n, hn⟩) 0 = min 32768 (1000000 - 32768 * n) := (geo_out ⟨n, hn⟩).2.2.1
      have x1 : win0_1.xsize (grid0.coords ⟨n, hn⟩) 1 = 128 := (geo_out ⟨n, hn⟩).2.2.2
      have hvlt : v.val < 1000000 := v.isLt
      have hw := View.write_whole_slice_unit (Val := Elt F) main_v2 (fun a => win0_1.index ⟨n, hn⟩ a * win0_1.size a)
        (win0_1.xsize (grid0.coords ⟨n, hn⟩)) (fun a => Pipeline.Clip.inb (win0_1.hclip (grid0.coords ⟨n, hn⟩) a)) G₀
        (win0_1.cut (grid0.coords ⟨n, hn⟩) X)
      refine (congrFun hw _).trans ?_
      unfold updateSlice
      by_cases hvn : 32768 * n ≤ v.val
      · rw [dif_pos (fun a => by
          match a with
          | ⟨0, _⟩ =>
            show win0_1.index ⟨n, hn⟩ 0 * 32768 ≤ v.val ∧ v.val < win0_1.index ⟨n, hn⟩ 0 * 32768 + win0_1.xsize (grid0.coords ⟨n, hn⟩) 0
            rw [e0, x0]; omega
          | ⟨1, _⟩ =>
            show win0_1.index ⟨n, hn⟩ 1 * 128 ≤ k.val ∧ k.val < win0_1.index ⟨n, hn⟩ 1 * 128 + win0_1.xsize (grid0.coords ⟨n, hn⟩) 1
            rw [e1, x1]; omega)]
        have hr : v.val - 32768 * n < 32768 := by omega
        have hrow : 32768 * n + (⟨v.val - 32768 * n, hr⟩ : Fin 32768).val < 1000000 := by show 32768 * n + (v.val - 32768 * n) < 1000000; omega
        refine Eq.trans (congrArg X (funext fun a => Fin.ext ?_)) ((hX' ⟨v.val - 32768 * n, hr⟩ k hrow).trans (congrArg f1 (funext fun a => Fin.ext ?_)))
        · match a with
          | ⟨0, _⟩ => show v.val - win0_1.index ⟨n, hn⟩ 0 * 32768 = v.val - 32768 * n; rw [e0]; omega
          | ⟨1, _⟩ => show k.val - win0_1.index ⟨n, hn⟩ 1 * 128 = k.val; rw [e1]; omega
        · match a with
          | ⟨0, _⟩ => rfl
          | ⟨1, _⟩ => show 32768 * n + (v.val - 32768 * n) = v.val; omega
      · rw [dif_neg (fun hin => hvn (by
          have h0 := (hin ⟨0, by decide⟩).1
          have h0' : win0_1.index ⟨n, hn⟩ 0 * 32768 ≤ v.val := h0
          rw [e0] at h0'; omega))]
        exact ih v k (by omega)
    · have h' : (rdat d f1 f2 O W).ArrAt (1 : Fin 2) n G := by
        simpa only [Pipeline.RDat.ArrAt, dif_neg hn] using h
      have ih := arrAt_done n G h'
      have hN : cfg0.N = 31 := N_0
      intro v k _
      exact ih v k (by have := v.isLt; omega)

end Tp

end Cert.Proof.KI

end
-- ==== Proof.KI.Region.lean ====
/-
  The TensorCore transposing kernel as ONE region rule: from the region boundary, the transposed table whole at
  `f1`, the result array whole at anything, what the TensorCore then owes (nothing at the index of a thread's own
  transfers), the level facts and the pipeline's staging cells' launch ghost state and duty tokens, the custom call
  runs, and its continuation receives the boundary back, the table unchanged, the result array at some contents
  whose first 64 columns are the table transposed — `result (v, k) = f1 (k, v)` for every row `v` and `k < 64`;
  columns 64‥127 are whatever the staging buffers held, since the body never writes them —, and the core owing the
  same, with only waits at the index of its own transfers recorded besides.

  The pipeline's proof data is relational (the module imported here): the body leaves the input block as it found it
  and the output block's first 64 columns, on the rows inside the array, at the table's columns transposed. The body
  obligation joins the body's run at one point with what the fetch put in the input block; the wait evidence is that
  the pipeline's waits sit at the index of a thread's own transfers, below everything the core owes the SparseCores;
  and at the exit the result array's contents after all 31 write-backs have every row done, since the points' blocks
  cover the rows.
-/
import proofs.«206427_g47785806135705_cont_8to1_c_687_25_alg».proof.Proof.KI.RegionBody

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

namespace Tp

section Data

variable (d : Dev nD) (f1 : Buf (Elt F) (v1Loc d)) (f2 : Buf (Elt F) (v2Loc d)) (O : CellTallies nD τ sig (HIx 1))
  (W : Waits sig (HIx 1))

/-- The library's body obligation: the input block arrives just fetched, the output block holding anything; the body
    leaves the first as it was and the second at the transpose, which on the rows inside the array is the table's
    columns (`finds_in`). Nothing is owed anew and no wait is recorded. -/
theorem body_obligation : (rdat d f1 f2 O W).BodyObligation (defs₀ (F := F)) 𝒱₀ none Set.univ := fun t Y hY => by
  rw [bigSep_W0, bigSep_W0]
  rw [show (rdat d f1 f2 O W).Φ t.succ = (rdat d f1 f2 O W).Φ t.castSucc from rfl,
    show (rdat d f1 f2 O W).owesAt none t.succ = (rdat d f1 f2 O W).owesAt none t.castSucc from rfl]
  iintro ⟨HΦ, Ho, H0, H1⟩
  iapply (sound_body (F := F) d Set.univ (grid0.coords t) (cfg0.slots t 0) (cfg0.slots t 1) (Y 0) (Y 1) _)
  isplitl [H0 H1]
  · isplitl [H0]
    · iexact H0
    · iexact H1
  iintro ⟨H0, ⟨%X, %hX, H1⟩⟩
  isplitl [HΦ]; · iexact HΦ
  isplitl [Ho]; · iexact Ho
  isplitl [H0]
  · iexists (Y 0); isplitr; · ipureintro; exact (rfl : Y 0 = Y 0)
    iexact H0
  · iexists X; isplitr
    · ipureintro
      show OutRel f1 t.val X
      intro r k h
      exact (hX r k).trans (finds_in d f1 f2 O W t (Y 0) (hY 0) k r h)
    iexact H1

/-! ## The region -/

/-- The pipeline has no prefetched table: its one admissible table contents. -/
abbrev adm : (p : Fin 1) → (pcfgs (F := F) p).Adm := fun q => (cfgs q).toPCfg_adm

/-- What the region is entered from, on device `d`: the transposed table and the result array whole, and what the
    core owes. -/
def preAt : sProp 𝕄 := iprop((v1Loc d ↦{fullShare} f1) ∗ (v2Loc d ↦{fullShare} f2) ∗ owes (T d) O W)

/-- What it leaves: the table unchanged, the result array's first 64 columns the table transposed, and the core owing
    the same with only waits at the index of its own transfers recorded besides. -/
def postAt : sProp 𝕄 :=
  iprop((v1Loc d ↦{fullShare} f1) ∗ (∃ g, ⌜TransposedIn f1 g⌝ ∗ (v2Loc d ↦{fullShare} g))
    ∗ ∃ W', ⌜∀ p ∈ W', p ∈ W ∨ p.2 = none⌝ ∗ owes (T d) O W')

theorem share_full (w : Fin cfg0.W) : (rdat d f1 f2 O W).share w = fullShare :=
  Pipeline.RDat.share_full _ (fun _ => rfl) w

theorem entry_at :
    iprop(preAt d f1 f2 O W ∗ Pipeline.ownSems0 (fun k : PEmpty => k.elim) d ∗ levAts (K (F := F)).L (K (F := F)).lev)
      ⊢ |={Set.univ}=> iprop((rdat d f1 f2 O W).arrays (rdat d f1 f2 O W).A
          ∗ Pipeline.prefHeld (pcfgs (F := F) 0).pre d (fun _ => fullShare) (adm (F := F) 0).1
          ∗ (rdat d f1 f2 O W).owesAt none 0 ∗ (BI.emp : sProp 𝕄) ∗ (BI.emp : sProp 𝕄)) := by
  unfold preAt Pipeline.RDat.arrays
  rw [bigSep_W0, share_full, share_full, (launch0.arr_whole 0).set_eq_univ, (launch0.arr_whole 1).set_eq_univ]
  iintro ⟨⟨H1, H2, Ho⟩, -, -⟩
  imodintro
  isplitl [H1 H2]
  · isplitl [H1]
    · iexact H1
    · iexact H2
  isplitr
  · unfold Pipeline.prefHeld; rw [show (Finset.univ : Finset (Fin 0)) = ∅ from rfl, BI.bigSep_empty]; iempintro
  isplitl [Ho]
  · unfold Pipeline.RDat.owesAt Pipeline.owesWithin
    iexists W; isplitr
    · ipureintro; exact fun p hp => Or.inl (Or.inl (Finset.mem_coe.mp hp))
    iexact Ho
  isplitr <;> iempintro

theorem exit_at :
    iprop((rdat d f1 f2 O W).arraysAt cfg0.N ∗ (rdat d f1 f2 O W).owesAt none (Fin.last cfg0.N) ∗ (BI.emp : sProp 𝕄) ∗ (BI.emp : sProp 𝕄))
      ⊢ |={Set.univ}=> postAt d f1 O W := by
  unfold postAt Pipeline.RDat.arraysAt
  rw [bigSep_W0, share_full, share_full, (launch0.arr_whole 0).set_eq_univ, (launch0.arr_whole 1).set_eq_univ]
  unfold Pipeline.RDat.owesAt Pipeline.owesWithin
  iintro ⟨⟨⟨%F0, %hF0, H1⟩, ⟨%F1, %hF1, H2⟩⟩, ⟨%W', %hW', Ho⟩, -, -⟩
  imodintro
  have e0 : F0 = f1 := by rw [(rdat d f1 f2 O W).ArrAt_in (0 : Fin 2) rfl] at hF0; exact hF0
  subst e0
  isplitl [H1]; · iexact H1
  isplitl [H2]
  · iexists F1; isplitr
    · ipureintro
      intro v k
      exact arrAt_done d _ f2 O W cfg0.N F1 hF1 v k (by have := v.isLt; have hN : cfg0.N = 31 := N_0; rw [hN]; omega)
    iexact H2
  · iexists W'; isplitr
    · ipureintro
      intro p hp
      rcases hW' (Finset.mem_coe.mpr hp) with h | ⟨w, s, rfl⟩
      · exact h
      · exact Or.inr rfl
    iexact Ho

/-- The mesh has one device. -/
theorem dev_eq (d c : Dev nD) : d = c := Subsingleton.elim d c

/-- The table's and the result array's entry contents, named on whichever device is asked for. -/
def f1At (c : Dev nD) : Buf (Elt F) (v1Loc c) := dev_eq d c ▸ f1
def f2At (c : Dev nD) : Buf (Elt F) (v2Loc c) := dev_eq d c ▸ f2

/-- The proof data of the program's one pipeline, per device. -/
def rdats : (p : Fin 1) → (c : Dev nD) → Pipeline.RDat τ (Elt F) (HIx 1) ℕ UU ℕ (Pipeline.pin (pcfgs (F := F)) adm p) c :=
  fun _ c => rdat c (f1At d f1 c) (f2At d f2 c) O W

set_option backward.isDefEq.respectTransparency.types false in
/-- The region's record: the generated layout, no semaphore of the kernel's own, the body obligation, the wait evidence
    (the pipeline's waits are at the index of a thread's own transfers, below everything the core owes the
    SparseCores), and the four entailments around `preAt` / `postAt`. -/
def reg (hO : ∀ g, O g none = 0) :
    Pipeline.RDat.RegionSeg (pcfgs (F := F)) adm (rdats d f1 f2 O W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation c (f1At d f1 c) (f2At d f2 c) O W
  hwaits c := Pipeline.RDat.cellsWaits_intro _ _ none 0 c fun _ _ _ => (K (F := F)).mayWait_none _ hO
  pre c := preAt c (f1At d f1 c) (f2At d f2 c) O W
  post c := postAt c (f1At d f1 c) O W
  X _ := BI.emp
  Y _ := BI.emp
  Z _ := BI.emp
  hentry c := entry_at c (f1At d f1 c) (f2At d f2 c) O W
  hin c := by
    rw [scopedRest0_eq]; iintro ⟨-, -, -⟩; iempintro
  hout c := by
    rw [Pipeline.ownSems0_none, scopedRest0_eq]; iintro -
    isplitr; · iempintro
    isplitr <;> iempintro
  hexit c := exit_at c (f1At d f1 c) (f2At d f2 c) O W

end Data

end Tp

open Tp

set_option backward.isDefEq.respectTransparency.types false in
theorem region_wp [∀ e, Nonempty (Elt F e)] (d : Dev nD) (f1 : Buf (Elt F) (v1Loc d))
    (O : CellTallies nD τ sig (HIx 1)) (W : Waits sig (HIx 1)) (hO : ∀ g, O g none = 0)
    {α : Type} (k : PUnit → Prog (TpuEff nD τ sig (Elt F) (ΛP (F := F)) .tc) α) (Q : α → sProp 𝕄) :
    iprop((iprop(boundary (T d) ∗ (v1Loc d ↦{fullShare} f1) ∗ (∃ g, ⌜TransposedIn f1 g⌝ ∗ (v2Loc d ↦{fullShare} g))
            ∗ ∃ W', ⌜∀ p ∈ W', p ∈ W ∨ p.2 = none⌝ ∗ owes (T d) O W')
          -∗ wp frame (wpE (D (F := F)) 𝒱 (T d) none) Set.univ (k ⟨⟩) Q)
        ∗ boundary (T d) ∗ (v1Loc d ↦{fullShare} f1) ∗ (∃ f2, v2Loc d ↦{fullShare} f2) ∗ owes (T d) O W
        ∗ levAts (K (F := F)).L (K (F := F)).lev
        ∗ Pipeline.cellsGhost (cfgs) (EP (F := F)) 0 d ∗ Pipeline.toksInit (cfgs) (EP (F := F)) 0 d)
      ⊢ wp frame (wpE (D (F := F)) 𝒱 (T d) none) Set.univ (.op (.customCall (Pipeline.entry 0) ()) k) Q := by
  iintro ⟨Hk, Hb, H1, ⟨%f2, H2⟩, Ho, Hlv, Hg, Ht⟩
  iapply (Pipeline.RDat.RegionSeg.wp (pcfgs (F := F)) adm (rdats d f1 f2 O W) none cellOf_inj (EP (F := F)) defs₀ 𝒱₀
    (K (F := F)).L (K (F := F)).lev (reg d f1 f2 O W hO) d none (fun _ h => nomatch h) k Q)
  rw [show (reg d f1 f2 O W hO).post d = postAt d f1 O W from rfl,
    show (reg d f1 f2 O W hO).pre d = preAt d f1 f2 O W from rfl]
  unfold preAt postAt
  isplitl [Hk]
  · iintro ⟨Hb, Hpost⟩
    iapply Hk
    isplitl [Hb]; · iexact Hb
    iexact Hpost
  isplitl [Hb]; · iexact Hb
  isplitl [H1 H2 Ho]
  · isplitl [H1]; · iexact H1
    isplitl [H2]; · iexact H2
    iexact Ho
  isplitl [Hlv]; · iexact Hlv
  isplitl [Hg]; · iexact Hg
  iexact Ht

end Cert.Proof.KI
end
-- ==== Proof.KI.Main.lean ====
/-
  @main on the TensorCore of a device, step by step: the host flattens the index array and transposes the table; the
  TensorCore kernel's region writes the table back, row by row, into the first 64 of the 128 columns of a wider array;
  the SparseCore call hands every vector subcore its shares of those two arrays and its 6400 rows of the gathered
  array and gets the rows back gathered; the host keeps the first 64 columns and folds the 204800 rows back to
  4096 × 50. What is left is the two arguments as launched and the result at the lookup.
-/
import proofs.«206427_g47785806135705_cont_8to1_c_687_25_alg».proof.Proof.KI.Pay
import proofs.«206427_g47785806135705_cont_8to1_c_687_25_alg».proof.Proof.KI.Region

noncomputable section

namespace Cert.Proof.KI

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}
local notation "𝕄" => MT nD τ sig (HIx 1) (Elt F) ℕ UU ℕ

variable [FloatOps F]
variable (m : (ℓ : Loc nD τ sig) → Buf (Elt F) ℓ) (ρ : Dev nD → PrngReg)

/-- What @main leaves the claim: the arguments as launched, the result at the lookup. -/
abbrev FIN (d : Dev nD) : sProp 𝕄 :=
  iprop((xLoc d ↦{fullShare} m (xLoc d)) ∗ (tLoc d ↦{fullShare} m (tLoc d))
    ∗ (v5Loc d ↦{fullShare} Cert.Proof.Spec.lookup (m (xLoc d)) (m (tLoc d))))

omit [FloatOps F] in
theorem lift_entry :
    (SparseCore.liftProg (Q := 1) (Prog.lift (TpuEff.customCall (nD := nD) (τ := τ) (sig := sig) (Val := Elt F) (Λ := ΛP (F := F)) (p := .tc) (Pipeline.entry 0) ()))
      : Prog (TpuEff nD τ sig (Elt F) (SparseCore.Sig (ΛP (F := F)) 1) .tc) PUnit)
      = Prog.lift (.customCall (SparseCore.inner (Pipeline.entry 0)) ()) := rfl

/-- The TensorCore kernel's region as @main meets it, in the SparseCore program's own signature. -/
theorem region_step [∀ e, Nonempty (Elt F e)] (d : Dev nD) (f1 : Buf (Elt F) (v1Loc d))
    (O : CellTallies nD τ sig (HIx 1)) (W : Waits sig (HIx 1)) (hO : ∀ g, O g none = 0) (Φ : PUnit.{1} → sProp 𝕄) :
    iprop((iprop(boundary (SparseCore.T d) ∗ (v1Loc d ↦{fullShare} f1) ∗ (∃ g, ⌜TransposedIn f1 g⌝ ∗ (v2Loc d ↦{fullShare} g))
            ∗ ∃ W', ⌜∀ p ∈ W', p ∈ W ∨ p.2 = none⌝ ∗ owes (SparseCore.T d) O W') -∗ Φ PUnit.unit)
        ∗ boundary (SparseCore.T d) ∗ (v1Loc d ↦{fullShare} f1) ∗ (∃ f2, v2Loc d ↦{fullShare} f2) ∗ owes (SparseCore.T d) O W
        ∗ levAts (K (F := F)).L (K (F := F)).lev
        ∗ Pipeline.cellsGhost (cfgs) (EP (F := F)) 0 d ∗ Pipeline.toksInit (cfgs) (EP (F := F)) 0 d)
      ⊢ wp frame (wpE ((K (F := F)).defs (D (F := F))) 𝒱 (SparseCore.T d) none) Set.univ
          (Prog.lift (.customCall (SparseCore.inner (Pipeline.entry 0)) ())) Φ := by
  rw [← lift_entry]
  refine BI.Entails.trans ?_ ((K (F := F)).wp_liftProg (D (F := F)) 𝒱 (SparseCore.T d) Set.univ none _ Φ)
  refine BI.Entails.trans ?_ (region_wp (F := F) d f1 O W hO (α := PUnit) (fun _ => .ret PUnit.unit) Φ)
  show (_ : sProp 𝕄) ⊢ _
  iintro ⟨Hk, H⟩
  isplitl [Hk]
  · iintro Hres
    rw [wp_ret]; imodintro
    iapply Hk; iexact Hres
  · iexact H

set_option maxHeartbeats 1600000 in
/-- @main on device `d`'s TensorCore: the two host operations, the TensorCore kernel's region, the SparseCore call,
    the two host operations after it. -/
theorem hmain [∀ e, Nonempty (Elt F e)] (hpre : PreOK m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4, Hv5⟩, -, -⟩, ⟨Hcg, Hti⟩⟩
  -- the indices flattened
  iapply (reshape_step m d main_arg0 main_v0 rfl shapeCasts_S4096x50_S204800 ⟨by decide, rfl⟩ ⟨by decide, rfl⟩ (by decide) (m (xLoc d)) (m (v0Loc d))) $$ [Hb Ha0 Hv0]
  · isplitl [Hb]; · iexact Hb
    isplitl [Ha0] <;> iassumption
  iintro ⟨Hb, Ha0, Hv0⟩
  rw [wp_ret]; imodintro
  -- the table transposed
  iapply (unary_step m d main_arg1 main_v1 _ ⟨by decide, rfl⟩ ⟨by decide, rfl⟩ (by decide) (m (tLoc d)) (m (v1Loc d))) $$ [Hb Ha1 Hv1]
  · isplitl [Hb]; · iexact Hb
    isplitl [Ha1] <;> iassumption
  iintro ⟨Hb, Ha1, Hv1⟩
  rw [wp_ret]; imodintro
  -- the TensorCore kernel: the table transposed back into the first 64 of 128 columns
  ihave Hlv := (show (K (F := F)).ctx EH (P m) κ ⊢ levAts (K (F := F)).L (K (F := F)).lev from by unfold SparseCore.Cfg.ctx; exact sep_elim_left) $$ Hctx
  ihave Hst' := (tcSt_open (F := F) d 0) $$ Hst
  icases Hst' with ⟨⟨%W, %hW, HO⟩, Hclose⟩
  iapply (region_step (F := F) d (f1Of m d) ((K (F := F)).Otc d 0) W (Otc_none d 0) _) $$ [Hb Hv1 Hv2 HO Hlv Hcg Hti Hclose Ha0 Ha1 Hv0 Hv3 Hv4 Hv5]
  isplitr [Hb Hv1 Hv2 HO Hlv Hcg Hti]
  swap
  · isplitl [Hb]; · iexact Hb
    isplitl [Hv1]; · iexact Hv1
    isplitl [Hv2]; · iexists _; iexact Hv2
    isplitl [HO]; · iexact HO
    isplitl [Hlv]; · iexact Hlv
    isplitl [Hcg] <;> iassumption
  iintro ⟨Hb, Hv1, ⟨%t2, %ht2, Hv2⟩, %W', %hW', HO⟩
  -- the SparseCore call: every task its shares and rows; the rows back, gathered
  ihave Hst := Hclose $$ [HO]
  · iexists W'; isplitr
    · ipureintro; intro p hp
      rcases hW' p hp with h | h
      · exact hW p h
      · rw [h, SparseCore.Cfg.lev_none]
    · iexact HO
  iapply ((K (F := F)).wp_run (D (F := F)) 𝒱 (EH := EH) (P := P m) κ d 0) $$ [Hst Hv0 Hv2 Hv3 Hb Ha0 Ha1 Hv1 Hv4 Hv5]
  isplitr; · iexact Hctx
  isplitl [Hst]; · iexact Hst
  isplitl [Hv0 Hv2 Hv3]
  · iapply (st_intro m d t2 ht2)
    isplitl [Hv0]; · iexact Hv0
    isplitl [Hv2] <;> iassumption
  iintro ⟨Hst, Hdn⟩
  ihave Hdn' := (dn_elim m d) $$ Hdn
  icases Hdn' with ⟨%h, %hh, Hv3⟩
  -- the first 64 columns kept, the rows folded back
  iapply (unary_step m d main_v3 main_v4 _ ⟨by decide, rfl⟩ ⟨by decide, rfl⟩ (by decide) h (m (v4Loc d))) $$ [Hb Hv3 Hv4]
  · isplitl [Hb]; · iexact Hb
    isplitl [Hv3] <;> iassumption
  iintro ⟨Hb, Hv3, Hv4⟩
  rw [wp_ret]; imodintro
  iapply (reshape_step m d main_v4 main_v5 rfl shapeCasts_S204800x64_S4096x50x64 ⟨by decide, rfl⟩ ⟨by decide, rfl⟩ (by decide) _ (m (v5Loc d))) $$ [Hb Hv4 Hv5]
  · isplitl [Hb]; · iexact Hb
    isplitl [Hv4] <;> iassumption
  iintro ⟨Hb, Hv4, Hv5⟩
  rw [wp_ret]; imodintro; imodintro
  isplitl [Hst]; · iexact Hst
  isplitl [Ha0]; · iexact Ha0
  isplitl [Ha1]; · iexact Ha1
  iapply (Entails.of_eq (congrArg (fun f => (v5Loc d ↦{fullShare} f : sProp 𝕄)) (result_eq (F := F) (m (xLoc d)) (m (tLoc d)) h (hpre d) hh)))
  iexact Hv5

def fq (d : Dev nD) (s' : Phys nD τ sig (Elt F)) : Prop :=
  s'.mem.mem (v5Loc d) = Cert.Proof.Spec.lookup (m (xLoc d)) (m (tLoc d)) ∧ s'.mem.mem (xLoc d) = m (xLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := v5Loc d) (I := Finset.univ) (q := fullShare) (f := Cert.Proof.Spec.lookup (m (xLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.Proof.KI

end
-- ==== Proof.KI.Tile.lean ====
/-
  One vector subcore's task of the lookup, at a symbolic grid point: it copies its 6400 index words into its index
  scratch, then, sixteen times, gathers the 400 rows of the table those words name into one of two row scratches and
  copies that scratch out to its 400 rows of the result, the next gather already under way while a chunk is copied out.
  Everything is generic in the float instance: the task only moves numbers.
-/
import proofs.«206427_g47785806135705_cont_8to1_c_687_25_alg».proof.Proof.KI.Common

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S204800 EltTy.i32)
local notation "tV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S204800x128 EltTy.f32)
local notation "sV" => (Memref.whole Cert.KernelIdeal.cc1_scratch0 : Memref Cert.KernelIdeal.sig Kind.scVector Space.vmem Cert.KernelIdeal.S6400 EltTy.i32)
local notation "rA" => (Memref.whole Cert.KernelIdeal.cc1_scratch1 : Memref Cert.KernelIdeal.sig Kind.scVector Space.vmem Cert.KernelIdeal.S400x128 EltTy.f32)
local notation "rB" => (Memref.whole Cert.KernelIdeal.cc1_scratch2 : Memref Cert.KernelIdeal.sig Kind.scVector Space.vmem Cert.KernelIdeal.S400x128 EltTy.f32)

/-! Everything but the task's theorem lives in the sub-namespace `Tl`. -/
namespace Tl

section Tile

variable (d : Dev nD) (L : grid1.Coords)

/-- The five DMA semaphores of the subcore: the two gathers', the two write-backs', the index fetch's. -/
abbrev gAcell (d : Dev nD) (c : Fin τ.nSC) (i : Fin τ.nSub) : GSem nD τ sig := (V d c i, .dma cc1_scratch3.sem)
abbrev gBcell (d : Dev nD) (c : Fin τ.nSC) (i : Fin τ.nSub) : GSem nD τ sig := (V d c i, .dma cc1_scratch4.sem)
abbrev wAcell (d : Dev nD) (c : Fin τ.nSC) (i : Fin τ.nSub) : GSem nD τ sig := (V d c i, .dma cc1_scratch5.sem)
abbrev wBcell (d : Dev nD) (c : Fin τ.nSC) (i : Fin τ.nSub) : GSem nD τ sig := (V d c i, .dma cc1_scratch6.sem)
abbrev fcell (d : Dev nD) (c : Fin τ.nSC) (i : Fin τ.nSub) : GSem nD τ sig := (V d c i, .dma cc1_scoped0.sem)

theorem ownSems0_V :
    (ownSems0 (V d (cV L) (jV L)) : sProp 𝕄)
      = iprop(semVal (gAcell d (cV L) (jV L)) 0 ∗ semVal (gBcell d (cV L) (jV L)) 0 ∗ semVal (wAcell d (cV L) (jV L)) 0
          ∗ semVal (wBcell d (cV L) (jV L)) 0 ∗ semVal (fcell d (cV L) (jV L)) 0
          ∗ bigSep (((((ownCells (V d (cV L) (jV L))).erase (gAcell d (cV L) (jV L))).erase (gBcell d (cV L) (jV L))).erase (wAcell d (cV L) (jV L))).erase
              (wBcell d (cV L) (jV L)) |>.erase (fcell d (cV L) (jV L))) fun g => semVal g 0) := by
  unfold SparseCore.Cfg.ownSems0
  rw [SparseCore.bigSep_erase' ((mem_ownCells (g := gAcell d (cV L) (jV L))).mpr ⟨rfl, by
      show (SemLoc.dma cc1_scratch3.sem : SemLoc sig).isScoped .scVector = true; decide⟩),
    SparseCore.bigSep_erase' (Finset.mem_erase.mpr ⟨by simp [gAcell, gBcell]; decide, (mem_ownCells (g := gBcell d (cV L) (jV L))).mpr ⟨rfl, by
      show (SemLoc.dma cc1_scratch4.sem : SemLoc sig).isScoped .scVector = true; decide⟩⟩),
    SparseCore.bigSep_erase' (Finset.mem_erase.mpr ⟨by simp [gBcell, wAcell]; decide, Finset.mem_erase.mpr ⟨by simp [gAcell, wAcell]; decide,
      (mem_ownCells (g := wAcell d (cV L) (jV L))).mpr ⟨rfl, by show (SemLoc.dma cc1_scratch5.sem : SemLoc sig).isScoped .scVector = true; decide⟩⟩⟩),
    SparseCore.bigSep_erase' (Finset.mem_erase.mpr ⟨by simp [wAcell, wBcell]; decide, Finset.mem_erase.mpr ⟨by simp [gBcell, wBcell]; decide,
      Finset.mem_erase.mpr ⟨by simp [gAcell, wBcell]; decide,
      (mem_ownCells (g := wBcell d (cV L) (jV L))).mpr ⟨rfl, by show (SemLoc.dma cc1_scratch6.sem : SemLoc sig).isScoped .scVector = true; decide⟩⟩⟩⟩),
    SparseCore.bigSep_erase' (Finset.mem_erase.mpr ⟨by simp [wBcell, fcell]; decide, Finset.mem_erase.mpr ⟨by simp [wAcell, fcell]; decide,
      Finset.mem_erase.mpr ⟨by simp [gBcell, fcell]; decide, Finset.mem_erase.mpr ⟨by simp [gAcell, fcell]; decide,
      (mem_ownCells (g := fcell d (cV L) (jV L))).mpr ⟨rfl, by show (SemLoc.dma cc1_scoped0.sem : SemLoc sig).isScoped .scVector = true; decide⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The views the task addresses -/

/-- The subcore's 6400 words of the flattened indices, as the task slices them. -/
abbrev xWin (L : grid1.Coords) : Memref sig .scVector .hbm S6400 .i32 :=
  (xV).slice (Rect.unit (s := S204800) (k1_off1 L) S6400.size (k1_off1_inb L)) (fun _ => rfl)
/-- The 400 words of the index scratch from word `o` on. -/
abbrev sWin (o : ℕ) (ho : ∀ a, (![o] : Fin 1 → ℕ) a + S400.size a ≤ S6400.size a) : Memref sig .scVector .vmem S400 .i32 :=
  (sV).slice (Rect.unit (s := S6400) ![o] S400.size ho) (fun _ => rfl)
/-- All of the table, as the task slices it. -/
abbrev tAll : Memref sig .scVector .hbm S1000000x128 .f32 :=
  (tV).slice (Rect.unit (s := S1000000x128) ![0, 0] S1000000x128.size inb_S1000000x128_S1000000x128_0_0) (fun _ => rfl)
/-- The 400 rows of the result the chunk at word offset `c` is copied out to. -/
abbrev oWin (L : grid1.Coords) (c : BitVec 32) (hc : ∀ a, (k1_off2 L c) a + S400x128.size a ≤ S204800x128.size a) :
    Memref sig .scVector .hbm S400x128 .f32 :=
  (oV).slice (Rect.unit (s := S204800x128) (k1_off2 L c) S400x128.size hc) (fun _ => rfl)

local notation "θ" => (V d (cV L) (jV L))

section Steps

variable (xf : Buf (Elt F) (v0Loc d))

/-- What the index fetch leaves in the index scratch: the subcore's stretch of the flattened indices. -/
def idxBuf : Buf (Elt F) ((V d (cV L) (jV L)).loc cc1_scratch0) := (xWin L).view.read (Elt F) xf

theorem xf_read (j : S6400.Idx) : (xWin L).view.read (Elt F) xf j = xf ((xWin L).view.emb j) := (View.read_apply _ _).trans (cast_eq _ _)

/-- Every word of a window of the index scratch names a row of the table. -/
theorem idx_inb (hxf : FlatInRange xf) (o : ℕ) (ho : ∀ a, (![o] : Fin 1 → ℕ) a + S400.size a ≤ S6400.size a) :
    ∀ x, ((sWin o ho).view.read (Elt F) (idxBuf d L xf) x).toNat < S1000000x128.size gathers_S1000000x128_S400x128.axis := by
  intro x
  rw [show (sWin o ho).view.read (Elt F) (idxBuf d L xf) x = idxBuf d L xf ((sWin o ho).view.emb x) from (View.read_apply _ _).trans (cast_eq _ _)]
  unfold idxBuf
  rw [xf_read]
  exact hxf _

variable [FloatOps F] (t2 : Buf (Elt F) (v2Loc d))

/-- What a gather over the window at word `o` lands in its row scratch: row `r` is the table's row named by word `o + r`
    of the subcore's stretch. -/
def rowsBuf (hxf : FlatInRange xf) (o : ℕ) (ho : ∀ a, (![o] : Fin 1 → ℕ) a + S400.size a ≤ S6400.size a) : S400x128.Idx → Elt F .f32 :=
  SparseCore.gatherPayload gathers_S1000000x128_S400x128 ((tAll).view.read (Elt F) t2)
    (SparseCore.rows ((sWin o ho).view.read (Elt F) (idxBuf d L xf)) rfl (idx_inb d L xf hxf o ho))

/-- A gather under way: what its wait will deliver, and the parts of the table's and the index scratch's shares it did
    not borrow. -/
def GFl (hxf : FlatInRange xf) (dst : Memref sig .scVector .vmem S400x128 .f32) (sem : DmaSem sig) (o : ℕ)
    (ho : ∀ a, (![o] : Fin 1 → ℕ) a + S400.size a ≤ S6400.size a) (qt qs : PosShare TreeShare)
    (fd' : Buf (Elt F) (dst.view.loc θ)) : sProp 𝕄 :=
  iprop(Transfers.Flight countersEmb θ (.dma sem) (default : HIx 1) dst.view.dmaCredit
          iprop((dst.view.loc θ ↦{fullShare} fd') ∗ ((tV).view.loc θ ↦[(tAll).view.set]{qt} t2)
            ∗ ((sV).view.loc θ ↦[(sWin o ho).view.set]{qs} idxBuf d L xf))
        ∗ ((tV).view.loc θ ↦[Finset.univ \ (tAll).view.set]{qt} t2)
        ∗ ((sV).view.loc θ ↦[Finset.univ \ (sWin o ho).view.set]{qs} idxBuf d L xf))

theorem gather_issue (hxf : FlatInRange xf) (dst : Memref sig .scVector .vmem S400x128 .f32) (hdst : dst.view.set = Finset.univ) (sem : DmaSem sig)
    (o : ℕ) (ho : ∀ a, (![o] : Fin 1 → ℕ) a + S400.size a ≤ S6400.size a) (qt qs : PosShare TreeShare)
    (fd fd' : Buf (Elt F) (dst.view.loc θ))
    (hfd' : dst.view.write (Elt F) fd (rowsBuf d L xf t2 hxf o ho) Finset.univ = fd')
    {α : Type} (k : PUnit → Prog (TpuEff nD τ sig (Elt F) Λ₀ (.scVector (cV L) (jV L))) α) (Q : α → sProp 𝕄)
    (hp : (Proc.scVector (τ := τ) (cV L) (jV L)).kind = .scVector) (hn : S400.numel = S400x128.size gathers_S1000000x128_S400x128.axis')
    (hsrc : (tAll).view.WordExact) (he : EltTy.f32.bits = 32) (hsp : Space.hbm = .hbm ∨ Space.hbm = .shared) (hr : S1000000x128.StreamRows 0) :
    iprop(((tV).view.loc θ ↦{qt} t2) ∗ (dst.view.loc θ ↦{fullShare} fd) ∗ ((sV).view.loc θ ↦{qs} idxBuf d L xf) ∗ semVal (θ, SemLoc.dma sem) 0)
      ⊢ iprop((GFl d L xf t2 hxf dst sem o ho qt qs fd' -∗ wp frame (wpE (defs₀ (F := F)) 𝒱₀ θ none) Set.univ (k ⟨⟩) Q)
          -∗ wp frame (wpE (defs₀ (F := F)) 𝒱₀ θ none) Set.univ
          (SparseCore.enqueueIndirectGather hp tAll dst gathers_S1000000x128_S400x128 (sWin o ho) hn sem hsrc he hsp hr >>= k) Q) := by
  subst hfd'
  iintro ⟨Ht, Hd, Hs, Hv⟩ Hk
  ihave Hts := (pointsTo_split_subset (q := qt) (f := t2) (S := Finset.univ) (Finset.subset_univ (tAll).view.set)).1 $$ Ht
  icases Hts with ⟨Hts, Htr⟩
  ihave Hss := (pointsTo_split_subset (q := qs) (f := idxBuf d L xf) (S := Finset.univ) (Finset.subset_univ (sWin o ho).view.set)).1 $$ Hs
  icases Hss with ⟨Hss, Hsr⟩
  ihave Hd' := (Entails.of_eq (show (dst.view.loc θ ↦{fullShare} fd : sProp 𝕄) = dst.view.loc θ ↦[dst.view.set]{fullShare} fd by rw [hdst])) $$ Hd
  iapply (SparseCore.wp_indirectGatherLocal countersEmb 𝒱₀ θ none (hg := gathers_S1000000x128_S400x128) (default : HIx 1)
      dst.view.dmaCredit (SparseCore.sum_rowCredit_eq_dmaCredit dst _ (fun _ => rfl)) (by decide) (idx_inb d L xf hxf o ho)) $$ [Hts Hd' Hss Hv]
  · isplitl [Hts]; · iexact Hts
    isplitl [Hd']; · iexact Hd'
    isplitl [Hss]; · iexact Hss
    iexact Hv
  iintro Hfl
  iapply Hk
  unfold GFl
  isplitl [Hfl]
  · iapply (Transfers.Flight_mono countersEmb θ (by
      iintro ⟨Hd, Hs, Ho⟩
      isplitl [Hd]
      · iapply (Entails.of_eq (show (dst.view.loc θ ↦[dst.view.set]{fullShare} _ : sProp 𝕄) = dst.view.loc θ ↦{fullShare} _ by rw [hdst])); iexact Hd
      isplitl [Hs]; · iexact Hs
      iexact Ho)) $$ Hfl
  isplitl [Htr]; · iexact Htr
  iexact Hsr

theorem gather_wait (hxf : FlatInRange xf) (dst : Memref sig .scVector .vmem S400x128 .f32) (sem : DmaSem sig)
    (o : ℕ) (ho : ∀ a, (![o] : Fin 1 → ℕ) a + S400.size a ≤ S6400.size a) (qt qs : PosShare TreeShare)
    (fd' : Buf (Elt F) (dst.view.loc θ)) (O : CellTallies nD τ sig (HIx 1)) (W : Waits sig (HIx 1))
    {α : Type} (k : PUnit → Prog (TpuEff nD τ sig (Elt F) Λ₀ (.scVector (cV L) (jV L))) α) (Q : α → sProp 𝕄)
    {s' : Shape} {e' : EltTy} {sp' : Space} (srcw : Memref sig .scVector sp' s' e') (hsrc : srcw.view.WordExact) (hdstw : dst.view.WordExact) :
    iprop(GFl d L xf t2 hxf dst sem o ho qt qs fd' ∗ owes θ O W ∗ Transfers.MayWaits θ (default : HIx 1) O)
      ⊢ iprop((iprop((dst.view.loc θ ↦{fullShare} fd') ∗ ((tV).view.loc θ ↦{qt} t2) ∗ ((sV).view.loc θ ↦{qs} idxBuf d L xf)
            ∗ semVal (θ, SemLoc.dma sem) 0 ∗ owes θ O (insert (SemLoc.dma sem, (default : HIx 1)) W))
          -∗ wp frame (wpE (defs₀ (F := F)) 𝒱₀ θ none) Set.univ (k ⟨⟩) Q)
        -∗ wp frame (wpE (defs₀ (F := F)) 𝒱₀ θ none) Set.univ (.op (.waitDma2 sem srcw dst hsrc hdstw) k) Q) := by
  unfold GFl
  iintro ⟨⟨Hfl, Htr, Hsr⟩, HO, #Hmw⟩ Hk
  iapply (Transfers.wp_waitLocalO countersEmb 𝒱₀ θ none (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hts, Hss⟩, Hv, HO⟩
  iapply Hk
  isplitl [Hd]; · iexact Hd
  isplitl [Hts Htr]
  · iapply (pointsTo_split_subset (q := qt) (f := t2) (S := Finset.univ) (Finset.subset_univ (tAll).view.set)).2
    isplitl [Hts]; · iexact Hts
    iexact Htr
  isplitl [Hss Hsr]
  · iapply (pointsTo_split_subset (q := qs) (f := idxBuf d L xf) (S := Finset.univ) (Finset.subset_univ (sWin o ho).view.set)).2
    isplitl [Hss]; · iexact Hss
    iexact Hsr
  isplitl [Hv]; · iexact Hv
  iexact HO

end Steps

section Split

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-- The elements of the result chunk `r` of the subcore is copied out to. -/
abbrev oSet (L : grid1.Coords) (r : Fin 16) : Finset S204800x128.Idx :=
  (oWin L (BitVec.ofNat 32 (400 * r.val)) (k1_off2_inb L r)).view.set

theorem oSet_eq (r : Fin 16) :
    oSet L r = (Rect.unit (s := S204800x128) (k1_off2 L (BitVec.ofNat 32 (400 * r.val))) S400x128.size (k1_off2_inb L r)).set := by
  show ((View.whole (main_v3_scv : Ref sig .scVector)).slice _).set = _
  exact View.set_slice_whole _ _

/-- Chunk `r`'s elements are the rows `base L + 400 r` … `base L + 400 r + 399`, whole. -/
theorem mem_oSet (r : Fin 16) (j : S204800x128.Idx) :
    j ∈ oSet L r ↔ base L + 400 * r.val ≤ (j 0).val ∧ (j 0).val < base L + 400 * r.val + 400 := by
  rw [oSet_eq, Rect.mem_set_unit, k1_off2_eq L r, Fin.forall_fin_two]
  have h1 : ((j 1 : Fin _) : ℕ) < 128 := (j 1).isLt
  simp only [base, Matrix.cons_val_zero, Matrix.cons_val_one, Matrix.head_cons]
  constructor
  · rintro ⟨⟨a, b⟩, -⟩; exact ⟨a, b⟩
  · rintro ⟨a, b⟩; exact ⟨⟨a, b⟩, Nat.zero_le _, by omega⟩

theorem oRows_cover : oRows L = Finset.univ.biUnion (oSet L) := by
  ext j
  simp only [oRows, Finset.mem_filter, Finset.mem_univ, true_and, Finset.mem_biUnion, mem_oSet]
  constructor
  · rintro ⟨h1, h2⟩
    refine ⟨⟨((j 0).val - base L) / 400, by omega⟩, ?_, ?_⟩ <;> simp only [] <;> omega
  · rintro ⟨r, h1, h2⟩
    have := r.isLt
    constructor <;> omega

theorem oSet_disjoint : ∀ r ∈ (Finset.univ : Finset (Fin 16)), ∀ r' ∈ (Finset.univ : Finset (Fin 16)), r ≠ r' → Disjoint (oSet L r) (oSet L r') := by
  intro r _ r' _ h
  rw [Finset.disjoint_left]
  intro j hj hj'
  rw [mem_oSet] at hj hj'
  have : r.val ≠ r'.val := fun e => h (Fin.ext e)
  omega

/-- The subcore's rows of the result are the sixteen chunks' rows. -/
theorem oRows_split (f : Buf (Elt F) (v3Loc d)) :
    (v3Loc d ↦[oRows L]{fullShare} f : sProp 𝕄)
      = iprop(((oWin L 0#32 (k1_off2_inb L 0)).view.loc θ ↦[(oWin L 0#32 (k1_off2_inb L 0)).view.set]{fullShare} f)
          ∗ ((oWin L 400#32 (k1_off2_inb L 1)).view.loc θ ↦[(oWin L 400#32 (k1_off2_inb L 1)).view.set]{fullShare} f)
          ∗ ((oWin L 800#32 (k1_off2_inb L 2)).view.loc θ ↦[(oWin L 800#32 (k1_off2_inb L 2)).view.set]{fullShare} f)
          ∗ ((oWin L 1200#32 (k1_off2_inb L 3)).view.loc θ ↦[(oWin L 1200#32 (k1_off2_inb L 3)).view.set]{fullShare} f)
          ∗ ((oWin L 1600#32 (k1_off2_inb L 4)).view.loc θ ↦[(oWin L 1600#32 (k1_off2_inb L 4)).view.set]{fullShare} f)
          ∗ ((oWin L 2000#32 (k1_off2_inb L 5)).view.loc θ ↦[(oWin L 2000#32 (k1_off2_inb L 5)).view.set]{fullShare} f)
          ∗ ((oWin L 2400#32 (k1_off2_inb L 6)).view.loc θ ↦[(oWin L 2400#32 (k1_off2_inb L 6)).view.set]{fullShare} f)
          ∗ ((oWin L 2800#32 (k1_off2_inb L 7)).view.loc θ ↦[(oWin L 2800#32 (k1_off2_inb L 7)).view.set]{fullShare} f)
          ∗ ((oWin L 3200#32 (k1_off2_inb L 8)).view.loc θ ↦[(oWin L 3200#32 (k1_off2_inb L 8)).view.set]{fullShare} f)
          ∗ ((oWin L 3600#32 (k1_off2_inb L 9)).view.loc θ ↦[(oWin L 3600#32 (k1_off2_inb L 9)).view.set]{fullShare} f)
          ∗ ((oWin L 4000#32 (k1_off2_inb L 10)).view.loc θ ↦[(oWin L 4000#32 (k1_off2_inb L 10)).view.set]{fullShare} f)
          ∗ ((oWin L 4400#32 (k1_off2_inb L 11)).view.loc θ ↦[(oWin L 4400#32 (k1_off2_inb L 11)).view.set]{fullShare} f)
          ∗ ((oWin L 4800#32 (k1_off2_inb L 12)).view.loc θ ↦[(oWin L 4800#32 (k1_off2_inb L 12)).view.set]{fullShare} f)
          ∗ ((oWin L 5200#32 (k1_off2_inb L 13)).view.loc θ ↦[(oWin L 5200#32 (k1_off2_inb L 13)).view.set]{fullShare} f)
          ∗ ((oWin L 5600#32 (k1_off2_inb L 14)).view.loc θ ↦[(oWin L 5600#32 (k1_off2_inb L 14)).view.set]{fullShare} f)
          ∗ ((oWin L 6000#32 (k1_off2_inb L 15)).view.loc θ ↦[(oWin L 6000#32 (k1_off2_inb L 15)).view.set]{fullShare} f)) := by
  rw [oRows_cover L, pointsTo_biUnion Finset.univ (ℓ := v3Loc d) (oSet L) (oSet_disjoint L), bigSep_fin16]
  rfl
end Split

section Value

variable (xf : Buf (Elt F) (v0Loc d)) [FloatOps F] (t2 : Buf (Elt F) (v2Loc d))

omit d in
theorem ix2_at0 {n0 n1 : ℕ} (a : Fin n0) (b : Fin n1) : ix2 a b 0 = a := rfl
omit d in
theorem ix2_at1 {n0 n1 : ℕ} (a : Fin n0) (b : Fin n1) : ix2 a b 1 = b := rfl
omit d in
theorem idx1_ext {n : ℕ} (A B : (⟨1, ![n]⟩ : Shape).Idx) (h : (A 0).val = (B 0).val) : A = B :=
  funext fun a => match a with | 0 => Fin.ext h
omit d in
theorem idx2_ext {n0 n1 : ℕ} (A B : (⟨2, ![n0, n1]⟩ : Shape).Idx) (h0 : (A 0).val = (B 0).val) (h1 : (A 1).val = (B 1).val) : A = B :=
  funext fun a => match a with | 0 => Fin.ext h0 | 1 => Fin.ext h1

omit [FloatOps F] in
/-- The row a window's word `k` names: the word at position `base L + o + k` of the flattened indices. -/
theorem rows_val (hxf : FlatInRange xf) (o : ℕ) (ho : ∀ a, (![o] : Fin 1 → ℕ) a + S400.size a ≤ S6400.size a)
    (hn : S400.numel = S400x128.size gathers_S1000000x128_S400x128.axis')
    (k : Fin (S400x128.size gathers_S1000000x128_S400x128.axis')) :
    ∃ j : S204800.Idx, (j 0).val = base L + o + k.val ∧
      (SparseCore.rows ((sWin o ho).view.read (Elt F) (idxBuf d L xf)) hn (idx_inb d L xf hxf o ho) k).val = (xf j).toNat := by
  refine ⟨(xWin L).view.emb ((sWin o ho).view.emb (S400.rowMajor.symm (k.cast hn.symm))), ?_, ?_⟩
  · have hz : ((S400.rowMajor.symm (k.cast hn.symm)) 0).val = k.val := by
      have h1 := Shape.rowMajor_val_one (d := ![400]) (S400.rowMajor.symm (k.cast hn.symm))
      rw [Equiv.apply_symm_apply] at h1
      exact h1.symm
    have e1 : ∀ w : S6400.Idx, (((xWin L).view.emb w 0 : Fin _) : ℕ) = k1_off1 L 0 + 1 * (w 0).val := fun w => rfl
    have e2 : ∀ z : S400.Idx, (((sWin o ho).view.emb z 0 : Fin _) : ℕ) = o + 1 * (z 0).val := fun z => rfl
    rw [e1, e2, hz, k1_off1_eq]
    simp only [base, Matrix.cons_val_zero]
    omega
  · unfold SparseCore.rows
    show ((sWin o ho).view.read (Elt F) (idxBuf d L xf) (S400.rowMajor.symm (k.cast hn.symm))).toNat = _
    rw [show (sWin o ho).view.read (Elt F) (idxBuf d L xf) (S400.rowMajor.symm (k.cast hn.symm))
        = idxBuf d L xf ((sWin o ho).view.emb (S400.rowMajor.symm (k.cast hn.symm))) from (View.read_apply _ _).trans (cast_eq _ _)]
    unfold idxBuf
    rw [xf_read]

/-- What chunk `r`'s write-back leaves in its rows of the result is the gathered rows. -/
theorem wb_value (hxf : FlatInRange xf) (r : Fin 16) (ho : ∀ a, (![400 * r.val] : Fin 1 → ℕ) a + S400.size a ≤ S6400.size a)
    (f3 : Buf (Elt F) (v3Loc d)) :
    ∀ i ∈ oSet L r, (oWin L (BitVec.ofNat 32 (400 * r.val)) (k1_off2_inb L r)).view.writes (Elt F) f3
        [⟨Rect.whole S400x128, rowsBuf d L xf t2 hxf (400 * r.val) ho⟩] i = gatherRows xf t2 i := by
  intro i hi
  obtain ⟨x, -, rfl⟩ := Finset.mem_map.mp hi
  have hr : ∀ (g : Buf (Elt F) (v3Loc d)) (y : S400x128.Idx), g ((oWin L (BitVec.ofNat 32 (400 * r.val)) (k1_off2_inb L r)).view.emb y) = (oWin L (BitVec.ofNat 32 (400 * r.val)) (k1_off2_inb L r)).view.read (Elt F) g y :=
    fun g y => ((View.read_apply (v := (oWin L (BitVec.ofNat 32 (400 * r.val)) (k1_off2_inb L r)).view) g y).trans (cast_eq _ _)).symm
  refine (hr _ x).trans ?_
  have e := View.read_writes_cons_emb (oWin L (BitVec.ofNat 32 (400 * r.val)) (k1_off2_inb L r)).view f3 (Rect.whole S400x128)
    (rowsBuf d L xf t2 hxf (400 * r.val) ho) [] x
  rw [Rect.emb_whole_apply] at e
  rw [e]
  unfold rowsBuf SparseCore.gatherPayload gatherRows
  rw [show ∀ y, (tAll).view.read (Elt F) t2 y = t2 ((tAll).view.emb y) from fun y => (View.read_apply _ _).trans (cast_eq _ _)]
  obtain ⟨j, hj0, hj⟩ := rows_val d L xf hxf (400 * r.val) ho rfl (x gathers_S1000000x128_S400x128.axis')
  have hax : ((gathers_S1000000x128_S400x128.idx
      (SparseCore.rows ((sWin (400 * r.val) ho).view.read (Elt F) (idxBuf d L xf)) rfl (idx_inb d L xf hxf (400 * r.val) ho)) x 0 : Fin _) : ℕ)
      = (xf j).toNat :=
    (congrArg Fin.val (Shape.Gathers.idx_axis gathers_S1000000x128_S400x128
      (SparseCore.rows ((sWin (400 * r.val) ho).view.read (Elt F) (idxBuf d L xf)) rfl (idx_inb d L xf hxf (400 * r.val) ho)) x)).trans hj
  have hj0' : (j 0).val = base L + 400 * r.val + (x 0).val := hj0
  have eo : ∀ (y : S400x128.Idx) (a : Fin 2), (((oWin L (BitVec.ofNat 32 (400 * r.val)) (k1_off2_inb L r)).view.emb y a : Fin _) : ℕ)
      = k1_off2 L (BitVec.ofNat 32 (400 * r.val)) a + 1 * (y a).val := fun y a => rfl
  have et : ∀ (Y : S1000000x128.Idx) (a : Fin 2), (((tAll).view.emb Y a : Fin _) : ℕ) = (![0, 0] : Fin 2 → ℕ) a + 1 * (Y a).val := fun Y a => rfl
  have hx0 : (((oWin L (BitVec.ofNat 32 (400 * r.val)) (k1_off2_inb L r)).view.emb x 0 : Fin _) : ℕ) = base L + 400 * r.val + (x 0).val := by
    rw [eo, k1_off2_eq L r]
    simp only [base, Matrix.cons_val_zero]
    omega
  have hjx : j = ix1 ((oWin L (BitVec.ofNat 32 (400 * r.val)) (k1_off2_inb L r)).view.emb x 0) := idx1_ext (n := 204800) _ _ (hj0'.trans hx0.symm)
  refine congrArg t2 (idx2_ext (n0 := 1000000) (n1 := 128) _ _ ?_ ?_)
  · rw [et, hax]
    refine Eq.trans ?_ (show (xf j).toNat % 1000000 = _ from congrArg (fun z : S204800.Idx => (xf z).toNat % 1000000) hjx)
    rw [Nat.mod_eq_of_lt (hxf j)]
    simp only [Matrix.cons_val_zero]
    omega
  · rw [et]
    refine Eq.trans ?_ (eo x 1).symm
    rw [k1_off2_eq L r, Shape.Gathers.idx_of_ne gathers_S1000000x128_S400x128 _ x 1 (by decide)]
    simp only [Matrix.cons_val_one, Matrix.cons_val_zero, Matrix.head_cons]
    rfl

end Value

section WbPts
variable (xf : Buf (Elt F) (v0Loc d)) [FloatOps F] (t2 : Buf (Elt F) (v2Loc d))
/-- Chunk `r`'s rows of the result, once written back, are held at the gathered rows. -/
theorem wb_pts (hxf : FlatInRange xf) (r : Fin 16) (c : BitVec 32) (hc : ∀ a, (k1_off2 L c) a + S400x128.size a ≤ S204800x128.size a)
    (hcr : c = BitVec.ofNat 32 (400 * r.val)) (o : ℕ) (ho : ∀ a, (![o] : Fin 1 → ℕ) a + S400.size a ≤ S6400.size a) (hor : o = 400 * r.val)
    (f3 : Buf (Elt F) (v3Loc d)) :
    ((oWin L c hc).view.loc θ ↦[(oWin L c hc).view.set]{fullShare}
        (oWin L c hc).view.writes (Elt F) f3 [⟨Rect.whole S400x128, rowsBuf d L xf t2 hxf o ho⟩] : sProp 𝕄)
      = ((oWin L c hc).view.loc θ ↦[(oWin L c hc).view.set]{fullShare} gatherRows xf t2) := by
  subst hcr hor
  exact pointsTo_congr (wb_value d L xf t2 hxf r ho f3)
end WbPts

end Tile

end Tl

open Tl

variable [FloatOps F]

set_option maxHeartbeats 4000000 in
/-- The task on vector subcore `(L 0, L 1)` of device `d`: from shares of the flattened indices and of the table, its own
    6400 rows of the result, its scratch and its semaphores at zero, the body runs and gives all of it back, its rows of
    the result at the gathered rows, every wait it recorded at the launch's own index. -/
theorem tile_body (hF : (K (F := F)).Facts) (d : Dev nD) (L : grid1.Coords) (xf : Buf (Elt F) (v0Loc d)) (hxf : FlatInRange xf) (t2 : Buf (Elt F) (v2Loc d)) (f3 : Buf (Elt F) (v3Loc d))
    (q0 q2 : PosShare TreeShare)
    (O : CellTallies nD τ sig (HIx 1)) (W : Waits sig (HIx 1)) (hO : ∀ g, O g none = 0) :
    (iprop(levAts (K (F := F)).L (K (F := F)).lev ∗ emp
        ∗ ((v0Loc d ↦{q0} xf) ∗ (v2Loc d ↦{q2} t2) ∗ (v3Loc d ↦[oRows L]{fullShare} f3))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__emb_body L (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            cc1_scratch3 cc1_scratch4 cc1_scratch5 cc1_scratch6 cc1_scoped0)
          fun _ => iprop(((v0Loc d ↦{q0} xf) ∗ (v2Loc d ↦{q2} t2) ∗ (v3Loc d ↦[oRows L]{fullShare} gatherRows xf t2))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__emb_body_eq_skeleton]; unfold cc1__emb_body_skel
  rw [(K (F := F)).scopedBufs_V hF d (cV L) (jV L), SparseCore.Cfg.scopedSems0_V (Val := Elt F) d (cV L) (jV L), ownSems0_V, ownBufs_V,
    oRows_split d L f3, oRows_split d L (gatherRows xf t2)]
  iintro ⟨#Hlv, -, ⟨Hx, Ht, Ho0, Ho1, Ho2, Ho3, Ho4, Ho5, Ho6, Ho7, Ho8, Ho9, Ho10, Ho11, Ho12, Ho13, Ho14, Ho15⟩, ⟨⟨%fs, Hs⟩, ⟨%fa, Ha⟩, ⟨%fb, Hb⟩, Hbufs⟩, ⟨HgA, HgB, HwA, HwB, Hf, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (v0Loc d ↦{q0} xf : sProp 𝕄) = ((xV).view.loc (V d (cV L) (jV L)) ↦{q0} xf) from rfl)) $$ Hx
  ihave Ht' := (Entails.of_eq (show (v2Loc d ↦{q2} t2 : sProp 𝕄) = ((tV).view.loc (V d (cV L) (jV L)) ↦{q2} t2) from rfl)) $$ Ht
  ihave Hs' := (Entails.of_eq (show ((V d (cV L) (jV L)).loc cc1_scratch0 ↦{fullShare} fs : sProp 𝕄) = ((sV).view.loc (V d (cV L) (jV L)) ↦{fullShare} fs) from rfl)) $$ Hs
  ihave Ha' := (Entails.of_eq (show ((V d (cV L) (jV L)).loc cc1_scratch1 ↦{fullShare} fa : sProp 𝕄) = ((rA).view.loc (V d (cV L) (jV L)) ↦{fullShare} fa) from rfl)) $$ Ha
  ihave Hb' := (Entails.of_eq (show ((V d (cV L) (jV L)).loc cc1_scratch2 ↦{fullShare} fb : sProp 𝕄) = ((rB).view.loc (V d (cV L) (jV L)) ↦{fullShare} fb) from rfl)) $$ Hb
  sl_exec
  -- the index scratch now holds the subcore's stretch of the flattened indices; its share and the table's are halved, one
  -- half for the gathers into each row scratch
  ihave Hs1 := (Entails.of_eq (show ((sV).view.loc (V d (cV L) (jV L)) ↦{fullShare} View.write (Elt F) (sV).view fs (tile_body.sl.dma0 d L xf) Finset.univ : sProp 𝕄)
      = ((sV).view.loc (V d (cV L) (jV L)) ↦{fullShare} idxBuf d L xf) by rw [View.write_whole_univ]; rfl)) $$ Hs'
  ihave Hs2 := (pointsTo_share (PosShare.mem_left_op_right (fullShare : PosShare TreeShare))).1 $$ Hs1
  icases Hs2 with ⟨HsL, HsR⟩
  ihave Ht2 := (pointsTo_share (PosShare.mem_left_op_right q2)).1 $$ Ht'
  icases Ht2 with ⟨HtL, HtR⟩
  -- the gather of chunk 0 is issued, over words 0 … 399 of the index scratch
  iapply (gather_issue d L xf t2 hxf rA (View.set_whole _) _ 0 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the gather of chunk 1 is issued, over words 400 … 799 of the index scratch
  iapply (gather_issue d L xf t2 hxf rB (View.set_whole _) _ 400 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 0's gather: its row scratch holds the rows its window's words name
  iapply (gather_wait d L xf t2 hxf rA _ 0 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 2 is issued, over words 800 … 1199 of the index scratch
  iapply (gather_issue d L xf t2 hxf rA (View.set_whole _) _ 800 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 1's gather: its row scratch holds the rows its window's words name
  iapply (gather_wait d L xf t2 hxf rB _ 400 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 3 is issued, over words 1200 … 1599 of the index scratch
  iapply (gather_issue d L xf t2 hxf rB (View.set_whole _) _ 1200 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 2's gather: its row scratch holds the rows its window's words name
  iapply (gather_wait d L xf t2 hxf rA _ 800 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 4 is issued, over words 1600 … 1999 of the index scratch
  iapply (gather_issue d L xf t2 hxf rA (View.set_whole _) _ 1600 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 3's gather: its row scratch holds the rows its window's words name
  iapply (gather_wait d L xf t2 hxf rB _ 1200 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 5 is issued, over words 2000 … 2399 of the index scratch
  iapply (gather_issue d L xf t2 hxf rB (View.set_whole _) _ 2000 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 4's gather: its row scratch holds the rows its window's words name
  iapply (gather_wait d L xf t2 hxf rA _ 1600 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 6 is issued, over words 2400 … 2799 of the index scratch
  iapply (gather_issue d L xf t2 hxf rA (View.set_whole _) _ 2400 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 5's gather: its row scratch holds the rows its window's words name
  iapply (gather_wait d L xf t2 hxf rB _ 2000 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 7 is issued, over words 2800 … 3199 of the index scratch
  iapply (gather_issue d L xf t2 hxf rB (View.set_whole _) _ 2800 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 6's gather: its row scratch holds the rows its window's words name
  iapply (gather_wait d L xf t2 hxf rA _ 2400 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 8 is issued, over words 3200 … 3599 of the index scratch
  iapply (gather_issue d L xf t2 hxf rA (View.set_whole _) _ 3200 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 7's gather: its row scratch holds the rows its window's words name
  iapply (gather_wait d L xf t2 hxf rB _ 2800 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 9 is issued, over words 3600 … 3999 of the index scratch
  iapply (gather_issue d L xf t2 hxf rB (View.set_whole _) _ 3600 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 8's gather: its row scratch holds the rows its window's words name
  iapply (gather_wait d L xf t2 hxf rA _ 3200 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 10 is issued, over words 4000 … 4399 of the index scratch
  iapply (gather_issue d L xf t2 hxf rA (View.set_whole _) _ 4000 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 9's gather: its row scratch holds the rows its window's words name
  iapply (gather_wait d L xf t2 hxf rB _ 3600 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 11 is issued, over words 4400 … 4799 of the index scratch
  iapply (gather_issue d L xf t2 hxf rB (View.set_whole _) _ 4400 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 10's gather: its row scratch holds the rows its window's words name
  iapply (gather_wait d L xf t2 hxf rA _ 4000 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 12 is issued, over words 4800 … 5199 of the index scratch
  iapply (gather_issue d L xf t2 hxf rA (View.set_whole _) _ 4800 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 11's gather: its row scratch holds the rows its window's words name
  iapply (gather_wait d L xf t2 hxf rB _ 4400 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 13 is issued, over words 5200 … 5599 of the index scratch
  iapply (gather_issue d L xf t2 hxf rB (View.set_whole _) _ 5200 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 12's gather: its row scratch holds the rows its window's words name
  iapply (gather_wait d L xf t2 hxf rA _ 4800 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 14 is issued, over words 5600 … 5999 of the index scratch
  iapply (gather_issue d L xf t2 hxf rA (View.set_whole _) _ 5600 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 13's gather: its row scratch holds the rows its window's words name
  iapply (gather_wait d L xf t2 hxf rB _ 5200 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 15 is issued, over words 6000 … 6399 of the index scratch
  iapply (gather_issue d L xf t2 hxf rB (View.set_whole _) _ 6000 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 14's gather: its row scratch holds the rows its window's words name
  iapply (gather_wait d L xf t2 hxf rA _ 5600 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the wait for chunk 15's gather: its row scratch holds the rows its window's words name
  iapply (gather_wait d L xf t2 hxf rB _ 6000 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  sl_step
  -- the halves of the table's and the index scratch's shares rejoin
  ihave Ht' := (pointsTo_share (PosShare.mem_left_op_right q2)).2 $$ [HtL HtR]
  · isplitl [HtL]; · iexact HtL
    iexact HtR
  ihave Hs1 := (pointsTo_share (PosShare.mem_left_op_right (fullShare : PosShare TreeShare))).2 $$ [HsL HsR]
  · isplitl [HsL]; · iexact HsL
    iexact HsR
  isplitl [Hx' Ht' Ho0 Ho1 Ho2 Ho3 Ho4 Ho5 Ho6 Ho7 Ho8 Ho9 Ho10 Ho11 Ho12 Ho13 Ho14 Ho15]
  · isplitl [Hx']; · iexact Hx'
    isplitl [Ht']; · iexact Ht'
    isplitl [Ho0]; · iapply (Entails.of_eq (wb_pts d L xf t2 hxf 0 0#32 _ rfl 0 _ rfl f3)); iexact Ho0
    isplitl [Ho1]; · iapply (Entails.of_eq (wb_pts d L xf t2 hxf 1 400#32 _ rfl 400 _ rfl f3)); iexact Ho1
    isplitl [Ho2]; · iapply (Entails.of_eq (wb_pts d L xf t2 hxf 2 800#32 _ rfl 800 _ rfl f3)); iexact Ho2
    isplitl [Ho3]; · iapply (Entails.of_eq (wb_pts d L xf t2 hxf 3 1200#32 _ rfl 1200 _ rfl f3)); iexact Ho3
    isplitl [Ho4]; · iapply (Entails.of_eq (wb_pts d L xf t2 hxf 4 1600#32 _ rfl 1600 _ rfl f3)); iexact Ho4
    isplitl [Ho5]; · iapply (Entails.of_eq (wb_pts d L xf t2 hxf 5 2000#32 _ rfl 2000 _ rfl f3)); iexact Ho5
    isplitl [Ho6]; · iapply (Entails.of_eq (wb_pts d L xf t2 hxf 6 2400#32 _ rfl 2400 _ rfl f3)); iexact Ho6
    isplitl [Ho7]; · iapply (Entails.of_eq (wb_pts d L xf t2 hxf 7 2800#32 _ rfl 2800 _ rfl f3)); iexact Ho7
    isplitl [Ho8]; · iapply (Entails.of_eq (wb_pts d L xf t2 hxf 8 3200#32 _ rfl 3200 _ rfl f3)); iexact Ho8
    isplitl [Ho9]; · iapply (Entails.of_eq (wb_pts d L xf t2 hxf 9 3600#32 _ rfl 3600 _ rfl f3)); iexact Ho9
    isplitl [Ho10]; · iapply (Entails.of_eq (wb_pts d L xf t2 hxf 10 4000#32 _ rfl 4000 _ rfl f3)); iexact Ho10
    isplitl [Ho11]; · iapply (Entails.of_eq (wb_pts d L xf t2 hxf 11 4400#32 _ rfl 4400 _ rfl f3)); iexact Ho11
    isplitl [Ho12]; · iapply (Entails.of_eq (wb_pts d L xf t2 hxf 12 4800#32 _ rfl 4800 _ rfl f3)); iexact Ho12
    isplitl [Ho13]; · iapply (Entails.of_eq (wb_pts d L xf t2 hxf 13 5200#32 _ rfl 5200 _ rfl f3)); iexact Ho13
    isplitl [Ho14]; · iapply (Entails.of_eq (wb_pts d L xf t2 hxf 14 5600#32 _ rfl 5600 _ rfl f3)); iexact Ho14
    iapply (Entails.of_eq (wb_pts d L xf t2 hxf 15 6000#32 _ rfl 6000 _ rfl f3)); iexact Ho15
  isplitl [Hs1 Ha' Hb' Hbufs]
  · isplitl [Hs1]; · iexists _; iexact Hs1
    isplitl [Ha']; · iexists _; iexact Ha'
    isplitl [Hb']; · iexists _; iexact Hb'
    iexact Hbufs
  isplitl [HgA HgB HwA HwB Hf Hsems]
  · isplitl [HgA]; · iexact HgA
    isplitl [HgB]; · iexact HgB
    isplitl [HwA]; · iexact HwA
    isplitl [HwB]; · iexact HwB
    isplitl [Hf]; · iexact Hf
    iexact Hsems
  iexists _; isplitr
  swap; · iexact HO
  ipureintro; intro p hp
  repeat (rcases Finset.mem_insert.mp hp with hp | hp; · exact .inr (hp ▸ rfl))
  exact .inl hp

end Cert.Proof.KI

end
-- ==== Proof.KI.Launch.lean ====
/-
  The kernel's run. A vector subcore's task is the body's run from its operands (the existential table array opened,
  the gathered rows read through the transposed table); the call's operands are already the tasks' side by side; the
  launch theorem of the SparseCore program turns the tasks' proofs and @main's into the run of all thirty-five
  threads: every weakly fair execution ends, the arguments unchanged, the result at the lookup.
-/
import proofs.«206427_g47785806135705_cont_8to1_c_687_25_alg».proof.Proof.KI.Main
import proofs.«206427_g47785806135705_cont_8to1_c_687_25_alg».proof.Proof.KI.Tile

noncomputable section

namespace Cert.Proof.KI

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}
local notation "𝕄" => MT nD τ sig (HIx 1) (Elt F) ℕ UU ℕ

variable [FloatOps F]
variable (m : (ℓ : Loc nD τ sig) → Buf (Elt F) ℓ) (ρ : Dev nD → PrngReg)

/-! ## The task's obligation -/

section Tile

variable (d : Dev nD)

theorem defs₀_vector (c : Fin τ.nSC) (s : Fin τ.nSub) :
    defs₀ (F := F) (.scVector c s) 1 ()
      = SparseCore.onTile hcore1 hsub1 (fun c s => cc1__emb_body (fun | 0 => c | 1 => s | ⟨_ + 2, h⟩ => absurd h (Nat.not_lt.2 (Nat.le_add_left _ _)))
          (Memref.whole main_v0_scv) (Memref.isWhole_whole _) (Memref.whole main_v2_scv) (Memref.isWhole_whole _)
          (Memref.whole main_v3_scv) (Memref.isWhole_whole _) (Memref.whole cc1_scratch0) (Memref.isWhole_whole _)
          (Memref.whole cc1_scratch1) (Memref.isWhole_whole _) (Memref.whole cc1_scratch2) (Memref.isWhole_whole _)
          cc1_scratch3 cc1_scratch4 cc1_scratch5 cc1_scratch6 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task at grid point (c, i): the body from the task's operands, its post the task's results. -/
theorem tile_task (hF : (K (F := F)).Facts) (hpre : PreOK m) (c : Fin 2) (i : Fin 16)
    (O : CellTallies nD τ sig (HIx 1)) (W : Waits sig (HIx 1)) (hO : ∀ g, O g none = 0) :
    (iprop(levAts (K (F := F)).L (K (F := F)).lev ∗ emp ∗ goRes m d c i
        ∗ scopedBufs (V d (cV (coordsV c i)) (jV (coordsV c i))) ∗ scopedSems0 (V d (cV (coordsV c i)) (jV (coordsV c i)))
        ∗ owes (V d (cV (coordsV c i)) (jV (coordsV c i))) O W) : sProp 𝕄)
      ⊢ wp frame (wpE (defs₀ (F := F)) 𝒱₀ (V d (cV (coordsV c i)) (jV (coordsV c i))) none) Set.univ
          (cc1__emb_body (coordsV c i) (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            cc1_scratch3 cc1_scratch4 cc1_scratch5 cc1_scratch6 cc1_scoped0)
          fun _ => iprop(tdRes m d c i
            ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  unfold goRes
  iintro ⟨#Hlv, -, ⟨%t2, %ht2, H0, H2, H3⟩, Hsb, Hss, HO⟩
  iapply (wp_wand_r frame _ Set.univ)
  isplitl [H0 H2 H3 Hsb Hss HO]
  · iapply (tile_body (F := F) hF d (coordsV c i) (xfOf m d) (flatInRange_of_inRange _ (hpre d)) t2 (m (v3Loc d)) (xq c i) (xq c i) O W hO)
    isplitr; · iexact Hlv
    isplitr; · iempintro
    isplitl [H0 H2 H3]
    · isplitl [H0]; · iexact H0
      isplitl [H2]; · iexact H2
      iexact H3
    isplitl [Hsb]; · iexact Hsb
    isplitl [Hss]; · iexact Hss
    iexact HO
  · iintro %_ ⟨⟨-, -, H3⟩, Hsb, Hss, HO⟩
    isplitl [H3]
    · unfold tdRes
      iexists (gatherRows (xfOf m d) t2)
      isplitr
      · ipureintro; exact gatheredOn_of_transposedIn _ _ _ ht2 _
      · iexact H3
    isplitl [Hsb]; · iexact Hsb
    isplitl [Hss]; · iexact Hss
    iexact HO

end Tile

section Obl
set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d hF hpre (Fin.cast nCore_zero c) (Fin.cast nSub_zero i) O W hO).trans (wp_mono frame _ _ fun _ => obl_post)

theorem vecSplit : (K (F := F)).VecSplit' (P m) 0 := by
  intro d c
  show (bigSep Finset.univ fun i : Fin 16 => goRes m d (Fin.cast nCore_zero c) i) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun i : Fin 16 => tdRes m d (Fin.cast nCore_zero c) i))
  iintro H; imodintro
  isplitl [H]; · iexact H
  iintro H; iexact H
end Obl

/-! ## The program's run -/

/-- Every final memory has the result array at the lookup and the two arguments as launched. -/
def QC : PUnit × MemSt nD τ sig (Elt F) → Prop := fun r => ∀ c : Dev nD,
  r.2.mem (v5Loc c) = Cert.Proof.Spec.lookup (m (xLoc c)) (m (tLoc c)) ∧ r.2.mem (xLoc c) = m (xLoc c) ∧ r.2.mem (tLoc c) = m (tLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ hpre) (fq m) (hfin m) (QC m) (fun _ h => h)

end Cert.Proof.KI

end
-- ==== Proof.KB.Common.lean ====
/-
  The kernel's program as the SparseCore launch theorem sees it, the resource algebra of its proof, and the
  pure functions its buffers hold along the way. Everything here is generic in the float instance: the program only
  moves numbers. The lookup runs in four steps: the index array is flattened to 204800 words; the table, transposed on
  the host to 64 × 1000000, is transposed back block by block by a TensorCore kernel into the first 64 columns of a
  1000000 × 128 array (the other 64 columns are never written); the thirty-two vector subcores each gather 6400 rows
  of that array, named by their stretch of the flattened indices, into the matching rows of a 204800 × 128 array;
  and the host keeps the first 64 columns and folds the rows back to 4096 × 50.
-/
import proofs.«206427_g47785806135705_cont_8to1_c_687_25_alg».proof.Kernel
import proofs.«206427_g47785806135705_cont_8to1_c_687_25_alg».proof.Proof.Gen.Kernel
import proofs.«206427_g47785806135705_cont_8to1_c_687_25_alg».proof.Proof.Gen.Kernel.Skeleton
import proofs.«206427_g47785806135705_cont_8to1_c_687_25_alg».proof.Proof.Gen.Kernel.Launch
import proofs.«206427_g47785806135705_cont_8to1_c_687_25_alg».proof.Proof.Gen.Kernel.Points
import proofs.«206427_g47785806135705_cont_8to1_c_687_25_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

abbrev xLoc (d : Dev nD) : Loc nD τ sig := (SparseCore.T d).loc main_arg0
abbrev tLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5

/-! ## What the buffers hold -/

/-- The TensorCore kernel's result where it is determined: the first 64 columns of `g` are `h` transposed. -/
def TransposedIn {α : Type} (h : S64x1000000.Idx → α) (g : S1000000x128.Idx → α) : Prop :=
  ∀ (v : Fin 1000000) (k : Fin 64), g (ix2 v ⟨k.val, by omega⟩) = h (ix2 k v)

/-- Every flattened index word names a row. -/
def FlatInRange (xf : S204800.Idx → BitVec 32) : Prop := ∀ j : S204800.Idx, (xf j).toNat < 1000000

/-- The rows the vector subcores gather: row `b` of the result is the row of `t2` that word `b` of the flattened
    indices names (modulo the number of rows, so that the function is total). -/
def gatherRows {α : Type} (xf : S204800.Idx → BitVec 32) (t2 : S1000000x128.Idx → α) : S204800x128.Idx → α :=
  fun j => t2 (ix2 (n0 := 1000000) (n1 := 128) ⟨(xf (ix1 (n := 204800) (j 0))).toNat % 1000000, Nat.mod_lt _ (by decide)⟩ (j 1))

/-- The SparseCore and the vector subcore that grid point `L` names. -/
abbrev cV (L : grid1.Coords) : Fin τ.nSC := (L 0).castLE hcore1
abbrev jV (L : grid1.Coords) : Fin τ.nSub := (L 1).castLE hsub1

/-- The first of the 6400 flattened positions vector subcore `L 1` of SparseCore `L 0` serves. -/
def base (L : grid1.Coords) : Nat := 12800 * (L 1).val + 6400 * (L 0).val

/-- The entries of the gathered array that vector subcore `L` writes: its 6400 rows, whole. -/
def oRows (L : grid1.Coords) : Finset S204800x128.Idx :=
  Finset.univ.filter fun j => base L ≤ (j 0).val ∧ (j 0).val < base L + 6400

end Cert.Proof.KB

end
-- ==== Proof.KB.Value.lean ====
/-
  The pure value algebra that joins the final memory of the program to the specification of the lookup. Nothing here
  runs a program or speaks of memory: every statement is an equation between functions on index sets.

  The gathered array has 204800 rows of 128 numbers. Row r is the row of the 1000000 × 128 array that word r of the
  flattened index array names, and the first 64 columns of that array are the table (held transposed, 64 × 1000000)
  transposed back; so entry (r, k) of the gathered array, for k below 64, is entry (k, word r) of the transposed table.
  `GatheredOn` says this on a set of entries; it passes to unions of pieces. Flat position r of the 4096 × 50 index
  array is (r / 50, r % 50), row r of the 204800 × 64 array folds to (r / 50, r % 50) as well, and the slice at offset
  zero reads the same coordinates: a fully gathered array, sliced and folded, is the lookup. The thirty-two row sets are
  the stretches [6400 (2 i + c), 6400 (2 i + c) + 6400) for subcore i of SparseCore c, which tile [0, 204800).
-/
import proofs.«206427_g47785806135705_cont_8to1_c_687_25_alg».proof.Proof.KB.Common
import Idealize.ShloMosaic.Lib.Pipeline.Value
import Idealize.ShloMosaic.Lib.ValueIdx
import Idealize.ShloMosaic.Lib.ValueLayout

noncomputable section

namespace Cert.Proof.KB

open Cert.Kernel Cert.Kernel.Gen

open Idealize.ShloMosaic
open Idealize.ShloMosaic.ValueIdx

variable {F : FTy → Type} [FloatOps F]

/-- On the index set I, the first 64 columns of row b of h are column (word b of xf, modulo the row count) of f1:
    what the vector subcores leave in the gathered array, read through the transposed table. -/
def GatheredOn {α : Type} (xf : S204800.Idx → BitVec 32) (f1 : S64x1000000.Idx → α) (I : Finset S204800x128.Idx) (h : S204800x128.Idx → α) : Prop :=
  ∀ j ∈ I, ∀ hk : (j 1).val < 64, h j = f1 (ix2 (n0 := 64) (n1 := 1000000) ⟨(j 1).val, hk⟩ ⟨(xf (ix1 (n := 204800) (j 0))).toNat % 1000000, Nat.mod_lt _ (by decide)⟩)

/-- A row gather from an array whose first 64 columns are f1 transposed is GatheredOn anywhere. -/
theorem gatheredOn_of_transposedIn {α : Type} (xf : S204800.Idx → BitVec 32) (f1 : S64x1000000.Idx → α) (t2 : S1000000x128.Idx → α)
    (ht : TransposedIn f1 t2) (I : Finset S204800x128.Idx) : GatheredOn xf f1 I (gatherRows xf t2) := by
  intro j _ hk
  -- the gathered entry is entry (row named by the word, column j 1) of t2, and that column is below 64
  exact ht ⟨(xf (ix1 (n := 204800) (j 0))).toNat % 1000000, Nat.mod_lt _ (by decide)⟩ ⟨(j 1).val, hk⟩

/-- GatheredOn on the pieces of a cover, each at its own function, is GatheredOn on the union at any function that agrees with each piece's on that piece. -/
theorem gatheredOn_biUnion {α ι : Type} [DecidableEq ι] (xf) (f1 : S64x1000000.Idx → α) (s : Finset ι) (I : ι → Finset S204800x128.Idx) (hs : ι → S204800x128.Idx → α) (g : S204800x128.Idx → α)
    (hg : ∀ i ∈ s, ∀ j ∈ I i, g j = hs i j) (h : ∀ i ∈ s, GatheredOn xf f1 (I i) (hs i)) : GatheredOn xf f1 (s.biUnion I) g := by
  intro j hj hk
  obtain ⟨i, hi, hji⟩ := Finset.mem_biUnion.1 hj
  rw [hg i hi j hji]
  exact h i hi j hji hk

/-- The flattened index array: the host reshape of x, as @main's first operation computes it. -/
abbrev flatOf (x : IVec S4096x50 32) : IVec S204800 32 := shapeCast S204800 x shapeCasts_S4096x50_S204800
/-- The host transpose of the table, as @main's second operation computes it. -/
abbrev transOf (tb : FVec F S1000000x64 .f32) : FVec F S64x1000000 .f32 := transpose S64x1000000 [1, 0] tb transposes_S1000000x64_S64x1000000_1_0

/-- Word r of the flattened index array is word (r / 50, r % 50) of the index array: both sit at row-major position r. -/
theorem flatOf_apply (x : IVec S4096x50 32) (b : Fin 4096) (s : Fin 50) (r : Fin 204800) (hr : r.val = 50 * b.val + s.val) :
    flatOf x (ix1 r) = x (ix2 b s) := by
  refine shapeCast_apply x shapeCasts_S4096x50_S204800 (ix1 r) (ix2 b s) ?_
  rw [Shape.rowMajor_val_two, Shape.rowMajor_val_one]
  show b.val * 50 + s.val = r.val
  omega

theorem flatInRange_of_inRange (x : IVec S4096x50 32) (hx : Cert.Proof.Spec.InRange x) : FlatInRange (flatOf x) := by
  intro j
  have hj : (j 0).val < 204800 := (j 0).isLt
  -- word r of the flattened array is word (r / 50, r % 50) of the index array
  have e : flatOf x j = x (ix2 (n0 := 4096) (n1 := 50) ⟨(j 0).val / 50, by omega⟩ ⟨(j 0).val % 50, Nat.mod_lt _ (by decide)⟩) := by
    refine shapeCast_apply x shapeCasts_S4096x50_S204800 j _ ?_
    rw [Shape.rowMajor_val_two, Shape.rowMajor_val_one]
    show (j 0).val / 50 * 50 + (j 0).val % 50 = (j 0).val
    omega
  rw [e]
  exact hx _

/-- The host's last two operations (keep the first 64 columns, fold the rows back to 4096 × 50) applied to a fully gathered array give the lookup. -/
theorem result_eq (x : IVec S4096x50 32) (tb : FVec F S1000000x64 .f32) (h : FVec F S204800x128 .f32)
    (hx : Cert.Proof.Spec.InRange x) (hh : GatheredOn (flatOf x) (transOf tb) Finset.univ h) :
    shapeCast S4096x50x64 (extractStridedSlice S204800x64 ![0, 0] h slices_S204800x128_S204800x64_0_0) shapeCasts_S204800x64_S4096x50x64 = Cert.Proof.Spec.lookup x tb := by
  funext j
  obtain ⟨b, s, k, rfl⟩ : ∃ (b : Fin 4096) (s : Fin 50) (k : Fin 64), j = ix3 b s k := ⟨j 0, j 1, j 2, eq_ix3 j⟩
  have hb : b.val < 4096 := b.isLt
  have hs : s.val < 50 := s.isLt
  have hk : k.val < 64 := k.isLt
  have hr : 50 * b.val + s.val < 204800 := by omega
  -- position (b, s, k) of the folded array is position (50 b + s, k) of the 204800 × 64 array
  refine (shapeCast_apply _ shapeCasts_S204800x64_S4096x50x64 (ix3 b s k)
    (ix2 (n0 := 204800) (n1 := 64) ⟨50 * b.val + s.val, hr⟩ k) ?_).trans ?_
  · rw [Shape.rowMajor_val_two, Shape.rowMajor_val_three]
    show (50 * b.val + s.val) * 64 + k.val = (b.val * 50 + s.val) * 64 + k.val
    omega
  -- which the slice reads at the same coordinates of the 204800 × 128 array
  refine (extractStridedSlice_apply ![0, 0] h slices_S204800x128_S204800x64_0_0 _
    (ix2 (n0 := 204800) (n1 := 128) ⟨50 * b.val + s.val, hr⟩ ⟨k.val, by omega⟩) fun a => ?_).trans ?_
  · match a with
    | ⟨0, _⟩ => show 50 * b.val + s.val = 0 + (50 * b.val + s.val); omega
    | ⟨1, _⟩ => show k.val = 0 + k.val; omega
  -- a gathered entry: the transposed table at (k, the word at flat position 50 b + s), and that word is x (b, s)
  refine (hh _ (Finset.mem_univ _) hk).trans ?_
  refine (transpose_ix2_apply tb transposes_S1000000x64_S64x1000000_1_0 _ _).trans ?_
  rw [Cert.Proof.Spec.lookup_apply]
  unfold Cert.Proof.Spec.rowOf
  have hw : flatOf x (ix1 (n := 204800) ⟨50 * b.val + s.val, hr⟩) = x (ix2 b s) := flatOf_apply x b s _ rfl
  exact congrArg tb (congrArg (fun r => ix2 r k) (Fin.ext (congrArg (fun w : BitVec 32 => w.toNat % 1000000) hw)))

/-- The thirty-two tiles' row sets are pairwise disjoint and cover the gathered array (coords c i is the grid point of SparseCore c, subcore i). -/
def coordsV (c : Fin 2) (i : Fin 16) : grid1.Coords := fun | 0 => c | 1 => i | ⟨_ + 2, h⟩ => absurd h (Nat.not_lt.2 (Nat.le_add_left _ _))

/-- The first position of the tile of SparseCore c, subcore i. -/
theorem base_coordsV (c : Fin 2) (i : Fin 16) : base (coordsV c i) = 12800 * i.val + 6400 * c.val := rfl

theorem mem_oRows_coordsV (c : Fin 2) (i : Fin 16) (j : S204800x128.Idx) :
    j ∈ oRows (coordsV c i) ↔ 12800 * i.val + 6400 * c.val ≤ (j 0).val ∧ (j 0).val < 12800 * i.val + 6400 * c.val + 6400 := by
  unfold oRows
  rw [Finset.mem_filter, base_coordsV]
  exact ⟨fun h => h.2, fun h => ⟨Finset.mem_univ _, h⟩⟩

theorem oRows_disjoint (a b : Fin 2 × Fin 16) (hab : a ≠ b) : Disjoint (oRows (coordsV a.1 a.2)) (oRows (coordsV b.1 b.2)) := by
  rw [Finset.disjoint_left]
  intro j hja hjb
  rw [mem_oRows_coordsV] at hja hjb
  -- the tiles' stretches are the 6400-blocks numbered 2 i + c: a common row forces the same block, hence the same tile
  have h1 : a.1.val < 2 := a.1.isLt
  have h2 : b.1.val < 2 := b.1.isLt
  apply hab
  refine Prod.ext (Fin.ext ?_) (Fin.ext ?_) <;> omega

theorem oRows_cover : (Finset.univ : Finset (Fin 2 × Fin 16)).biUnion (fun a => oRows (coordsV a.1 a.2)) = Finset.univ := by
  rw [Finset.eq_univ_iff_forall]
  intro j
  have hj : (j 0).val < 204800 := (j 0).isLt
  -- row r belongs to subcore r / 12800 of SparseCore (r % 12800) / 6400
  refine Finset.mem_biUnion.2 ⟨(⟨(j 0).val % 12800 / 6400, by omega⟩, ⟨(j 0).val / 12800, by omega⟩), Finset.mem_univ _, ?_⟩
  rw [mem_oRows_coordsV]
  show 12800 * ((j 0).val / 12800) + 6400 * ((j 0).val % 12800 / 6400) ≤ (j 0).val
    ∧ (j 0).val < 12800 * ((j 0).val / 12800) + 6400 * ((j 0).val % 12800 / 6400) + 6400
  omega

end Cert.Proof.KB

end
-- ==== Proof.KB.Pay.lean ====
/-
  What the launch of the SparseCore program deals and carries. The read-only arrays (the flattened indices, the table
  array) go to the thirty-two tasks as shares of the full share halved five times; the gathered array goes to them as
  its thirty-two stretches of 6400 rows, which are pairwise disjoint and cover it. A task hands back its rows with the
  fact that their first 64 columns are the table's rows its index words name; the facts join over the cover. The
  launch element funds the handshakes' cells and the TensorCore kernel's staging cells. The host operations of @main
  are stepped over the two arrays each of them names.
-/
import proofs.«206427_g47785806135705_cont_8to1_c_687_25_alg».proof.Proof.KB.Common
import proofs.«206427_g47785806135705_cont_8to1_c_687_25_alg».proof.Proof.KB.Value

noncomputable section

namespace Cert.Proof.KB

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}
local notation "𝕄" => MT nD τ sig (HIx 1) (Elt F) ℕ UU ℕ

/-! ## Shares: the full share halved -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- The share of the read-only arrays that subcore `i` of SparseCore `c` holds. -/
abbrev xq (c : Fin 2) (i : Fin 16) : PosShare TreeShare := leaf 4 (leaf 1 fullShare c) i

variable [FloatOps F]

/-! ## What the handshakes carry -/

variable (m : (ℓ : Loc nD τ sig) → Buf (Elt F) ℓ)

/-- The flattened indices and the transposed table on device `d`, as @main's first two operations leave them. -/
abbrev xfOf (d : Dev nD) : Buf (Elt F) (v0Loc d) := flatOf (m (xLoc d))
abbrev f1Of (d : Dev nD) : Buf (Elt F) (v1Loc d) := transOf (F := F) (m (tLoc d))

/-- What a task starts from: its shares of the flattened indices and of the table array (whose first 64 columns are
    the table), its own rows of the gathered array as the launch left them; -/
def goRes (d : Dev nD) (c : Fin 2) (i : Fin 16) : sProp 𝕄 :=
  iprop(∃ t2, ⌜TransposedIn (f1Of m d) t2⌝ ∗ (v0Loc d ↦{xq c i} xfOf m d) ∗ (v2Loc d ↦{xq c i} t2)
    ∗ (v3Loc d ↦[oRows (coordsV c i)]{fullShare} m (v3Loc d)))
/-- and what it hands back: its rows gathered. -/
def tdRes (d : Dev nD) (c : Fin 2) (i : Fin 16) : sProp 𝕄 :=
  iprop(∃ h, ⌜GatheredOn (xfOf m d) (f1Of m d) (oRows (coordsV c i)) h⌝ ∗ (v3Loc d ↦[oRows (coordsV c i)]{fullShare} h))

def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdRes m d (Fin.cast nCore_zero c) i
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance goRes_storable (d : Dev nD) (c : Fin 2) (i : Fin 16) : BI.Storable (upEmb : UEmb _ 𝕄) (goRes m d c i) := by
  unfold goRes; infer_instance
instance tdRes_storable (d : Dev nD) (c : Fin 2) (i : Fin 16) : BI.Storable (upEmb : UEmb _ 𝕄) (tdRes m d c i) := by
  unfold tdRes; infer_instance

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-- What the proof asks of the launch memory: every index word names a row of the table. -/
def PreOK : Prop := ∀ d : Dev nD, Cert.Proof.Spec.InRange (m (xLoc d))

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from besides what the launch deals: the TensorCore kernel's staging cells' launch state and
    its transfers' tokens. -/
abbrev G (d : Dev nD) : sProp 𝕄 :=
  iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have h0 : (BI.own ((embR : Emb (UP × Counters) 𝕄) (initOf (Pipeline.cells (nD := nD) (τ := τ) cfgs cellOf_inj) (Pipeline.launchToks (nD := nD) (τ := τ) cfgs cellOf_inj), (1 : Counters))) : sProp 𝕄)
      ⊢ BI.own (EP (F := F) (initOf (Pipeline.cells (nD := nD) (τ := τ) cfgs cellOf_inj) (Pipeline.launchToks (nD := nD) (τ := τ) cfgs cellOf_inj))) :=
    (own_pair_emb (embR : Emb (UP × Counters) 𝕄) _ _).trans sep_elim_left
  have h1 : (ownU (u₀ (F := F)) : sProp 𝕄) ⊢ iprop(BI.own (EH (F := F) (initOf (K (F := F)).hsCells (K (F := F)).hsToks))
      ∗ BI.own (EP (F := F) (initOf (Pipeline.cells (nD := nD) (τ := τ) cfgs cellOf_inj) (Pipeline.launchToks (nD := nD) (τ := τ) cfgs cellOf_inj)))) :=
    (ownU_pair _ _).trans (sep_mono .rfl h0)
  have h2 := Pipeline.fund_ghost (nD := nD) (τ := τ) cfgs (EP (F := F)) cellOf_inj
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c :=
    bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c :=
    bigSep_congr fun c _ => bigSep_univ_of_subsingleton (0 : Fin 1)
  rw [e1, e2] at h2
  iintro Hu
  ihave H := h1 $$ Hu
  icases H with ⟨HH, Hq⟩
  imod h2 $$ Hq with Hq
  icases Hq with ⟨Hg, Ht⟩
  imodintro
  isplitl [HH]; · iexact HH
  isplitl [Hg Ht]
  · simp only [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)
abbrev w4' : DevRef τ sig := Proc.devRef .tc (main_v4 : Ref sig .tc)
abbrev w5' : DevRef τ sig := Proc.devRef .tc (main_v5 : Ref sig .tc)

abbrev opR0 : HloOp τ sig (Elt F) := StableHlo.reshape main_arg0 main_v0 rfl shapeCasts_S4096x50_S204800
abbrev opT1 : HloOp τ sig (Elt F) := StableHlo.unary main_arg1 main_v1 ((transpose S64x1000000 [1, 0] · transposes_S1000000x64_S64x1000000_1_0) : (⟨S1000000x64, .f32⟩ : BufTy).Contents (Elt F) → (⟨S64x1000000, .f32⟩ : BufTy).Contents (Elt F))
abbrev opS4 : HloOp τ sig (Elt F) := StableHlo.unary main_v3 main_v4 ((extractStridedSlice S204800x64 ![0, 0] · slices_S204800x128_S204800x64_0_0) : (⟨S204800x128, .f32⟩ : BufTy).Contents (Elt F) → (⟨S204800x64, .f32⟩ : BufTy).Contents (Elt F))
abbrev opR5 : HloOp τ sig (Elt F) := StableHlo.reshape main_v4 main_v5 rfl shapeCasts_S204800x64_S4096x50x64

omit [FloatOps F] in
theorem held_pair (d : Dev nD) (a b : DevRef τ sig) (hab : a ∉ ({b} : Finset (DevRef τ sig))) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' hab, bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (v0Loc d ↦{fullShare} W main_v0)
          ∗ (v1Loc d ↦{fullShare} W main_v1) ∗ (v2Loc d ↦{fullShare} W main_v2) ∗ (v3Loc d ↦{fullShare} W main_v3)
          ∗ (v4Loc d ↦{fullShare} W main_v4) ∗ (v5Loc d ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

omit [FloatOps F] in
theorem tcSt_open (d : Dev nD) (n : ℕ) :
    ((K (F := F)).tcSt (EH (F := F)) d n : sProp 𝕄)
      ⊢ iprop((∃ W, ⌜(K (F := F)).WBelow (T d) W (8 * n)⌝ ∗ owes (T d) ((K (F := F)).Otc d n) W)
          ∗ ((∃ W, ⌜(K (F := F)).WBelow (T d) W (8 * n)⌝ ∗ owes (T d) ((K (F := F)).Otc d n) W) -∗ (K (F := F)).tcSt (EH (F := F)) d n)) := by
  unfold SparseCore.Cfg.tcSt
  iintro ⟨H1, H2⟩
  isplitl [H1]; · iexact H1
  iintro H1
  isplitl [H1]; · iexact H1
  iexact H2

section HloSteps
variable {Λ' : Labels} {defs' : Defs nD τ sig (Elt F) Λ'} {α : Type}

/-- A host operation `y = f x` stepped over the two arrays held whole: `x` kept, `y` at `f` of `x`'s contents. -/
theorem unary_step (d : Dev nD) (x y : Ref sig .tc) (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (hxy : (Proc.devRef .tc x : DevRef τ sig) ∉ ({(Proc.devRef .tc y : DevRef τ sig)} : Finset (DevRef τ sig)))
    (fx : Buf (Elt F) ((SparseCore.T d).loc x)) (fy : Buf (Elt F) ((SparseCore.T d).loc y))
    {k : ((b : (StableHlo.unary (τ := τ) x y f hx hy).writes) → b.1.ty.Contents (Elt F)) → Prog (TpuEff nD τ sig (Elt F) Λ' .tc) α} {Q : α → sProp 𝕄} :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx) ∗ ((SparseCore.T d).loc y ↦{fullShare} f fx))
            -∗ wp frame (wpE defs' 𝒱 (SparseCore.T d) none) Set.univ (k ((StableHlo.unary (τ := τ) x y f hx hy).fn fun b => (Function.update (Function.update (V0 m d) (Proc.devRef .tc x) fx) (Proc.devRef .tc y) fy) b.1)) Q)
        -∗ wp frame (wpE defs' 𝒱 (SparseCore.T d) none) Set.univ (hlo rfl (StableHlo.unary (τ := τ) x y f hx hy) k) Q) := by
  have hne : (Proc.devRef .tc y : DevRef τ sig) ≠ Proc.devRef .tc x := fun e => hxy (Finset.mem_singleton.mpr e.symm)
  have epre : (held (SparseCore.T d) {(Proc.devRef .tc x : DevRef τ sig), (Proc.devRef .tc y : DevRef τ sig)} (Function.update (Function.update (V0 m d) (Proc.devRef .tc x) fx) (Proc.devRef .tc y) fy) : sProp 𝕄)
      = iprop(((SparseCore.T d).loc x ↦{fullShare} fx) ∗ ((SparseCore.T d).loc y ↦{fullShare} fy)) := by
    rw [held_pair d _ _ hxy, Function.update_self, Function.update_of_ne hne.symm, Function.update_self]
  have epost : (held (SparseCore.T d) {(Proc.devRef .tc x : DevRef τ sig), (Proc.devRef .tc y : DevRef τ sig)} ((StableHlo.unary (τ := τ) x y f hx hy).result (Function.update (Function.update (V0 m d) (Proc.devRef .tc x) fx) (Proc.devRef .tc y) fy)) : sProp 𝕄)
      = iprop(((SparseCore.T d).loc x ↦{fullShare} fx) ∗ ((SparseCore.T d).loc y ↦{fullShare} f fx)) := by
    rw [held_pair d _ _ hxy, StableHlo.unary_result, (StableHlo.unary (τ := τ) x y f hx hy).result_of_not_mem _ hxy,
      Function.update_of_ne hne.symm, Function.update_self]
  iintro ⟨Hb, Hx, Hy⟩ Hk
  iapply (wp_hlo_within 𝒱 (SparseCore.T d) none Set.univ (op := StableHlo.unary (τ := τ) x y f hx hy) (S := {(Proc.devRef .tc x : DevRef τ sig), (Proc.devRef .tc y : DevRef τ sig)})
      (Finset.Subset.refl _) (V := Function.update (Function.update (V0 m d) (Proc.devRef .tc x) fx) (Proc.devRef .tc y) fy)) $$ [Hb Hx Hy]
  · isplitl [Hb]; · iexact Hb
    iapply (Entails.of_eq epre.symm)
    isplitl [Hx] <;> iassumption
  iintro ⟨Hb, Hh⟩
  iapply Hk
  isplitl [Hb]; · iexact Hb
  iapply (Entails.of_eq epost); iexact Hh

/-- A host reshape stepped over the two arrays held whole. -/
theorem reshape_step (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : (Proc.devRef .tc x : DevRef τ sig) ∉ ({(Proc.devRef .tc y : DevRef τ sig)} : Finset (DevRef τ sig)))
    (fx : Buf (Elt F) ((SparseCore.T d).loc x)) (fy : Buf (Elt F) ((SparseCore.T d).loc y))
    {k : ((b : (StableHlo.reshape (τ := τ) (Val := Elt F) x y he hn hx hy).writes) → b.1.ty.Contents (Elt F)) → Prog (TpuEff nD τ sig (Elt F) Λ' .tc) α} {Q : α → sProp 𝕄} :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx) ∗ ((SparseCore.T d).loc y ↦{fullShare} fun i => he ▸ shapeCast y.ty.shape fx hn i))
            -∗ wp frame (wpE defs' 𝒱 (SparseCore.T d) none) Set.univ (k ((StableHlo.reshape (τ := τ) (Val := Elt F) x y he hn hx hy).fn fun b => (Function.update (Function.update (V0 m d) (Proc.devRef .tc x) fx) (Proc.devRef .tc y) fy) b.1)) Q)
        -∗ wp frame (wpE defs' 𝒱 (SparseCore.T d) none) Set.univ (hlo rfl (StableHlo.reshape (τ := τ) (Val := Elt F) x y he hn hx hy) k) Q) := by
  have hne : (Proc.devRef .tc y : DevRef τ sig) ≠ Proc.devRef .tc x := fun e => hxy (Finset.mem_singleton.mpr e.symm)
  have epre : (held (SparseCore.T d) {(Proc.devRef .tc x : DevRef τ sig), (Proc.devRef .tc y : DevRef τ sig)} (Function.update (Function.update (V0 m d) (Proc.devRef .tc x) fx) (Proc.devRef .tc y) fy) : sProp 𝕄)
      = iprop(((SparseCore.T d).loc x ↦{fullShare} fx) ∗ ((SparseCore.T d).loc y ↦{fullShare} fy)) := by
    rw [held_pair d _ _ hxy, Function.update_self, Function.update_of_ne hne.symm, Function.update_self]
  have epost : (held (SparseCore.T d) {(Proc.devRef .tc x : DevRef τ sig), (Proc.devRef .tc y : DevRef τ sig)} ((StableHlo.reshape (τ := τ) (Val := Elt F) x y he hn hx hy).result (Function.update (Function.update (V0 m d) (Proc.devRef .tc x) fx) (Proc.devRef .tc y) fy)) : sProp 𝕄)
      = iprop(((SparseCore.T d).loc x ↦{fullShare} fx) ∗ ((SparseCore.T d).loc y ↦{fullShare} fun i => he ▸ shapeCast y.ty.shape fx hn i)) := by
    rw [held_pair d _ _ hxy, StableHlo.reshape_result, (StableHlo.reshape (τ := τ) (Val := Elt F) x y he hn hx hy).result_of_not_mem _ hxy,
      Function.update_of_ne hne.symm, Function.update_self]
  iintro ⟨Hb, Hx, Hy⟩ Hk
  iapply (wp_hlo_within 𝒱 (SparseCore.T d) none Set.univ (op := StableHlo.reshape (τ := τ) (Val := Elt F) x y he hn hx hy) (S := {(Proc.devRef .tc x : DevRef τ sig), (Proc.devRef .tc y : DevRef τ sig)})
      (Finset.Subset.refl _) (V := Function.update (Function.update (V0 m d) (Proc.devRef .tc x) fx) (Proc.devRef .tc y) fy)) $$ [Hb Hx Hy]
  · isplitl [Hb]; · iexact Hb
    iapply (Entails.of_eq epre.symm)
    isplitl [Hx] <;> iassumption
  iintro ⟨Hb, Hh⟩
  iapply Hk
  isplitl [Hb]; · iexact Hb
  iapply (Entails.of_eq epost); iexact Hh
end HloSteps

/-! ## The arrays dealt to the thirty-two tasks, and their rows gathered back -/

omit [FloatOps F] in
theorem share_split (ℓ : Loc nD τ sig) (f : Buf (Elt F) ℓ) :
    (ℓ ↦{fullShare} f : sProp 𝕄) = bigSep Finset.univ fun c : Fin 2 => bigSep Finset.univ fun i : Fin 16 => ℓ ↦{xq c i} f := by
  rw [pointsTo_leaves Finset.univ f 1 fullShare]
  exact bigSep_congr fun c _ => pointsTo_leaves Finset.univ f 4 (leaf 1 fullShare c)

omit [FloatOps F] in
theorem rows_split (d : Dev nD) (f : Buf (Elt F) (v3Loc d)) :
    (v3Loc d ↦{fullShare} f : sProp 𝕄)
      = bigSep Finset.univ fun c : Fin 2 => bigSep Finset.univ fun i : Fin 16 => v3Loc d ↦[oRows (coordsV c i)]{fullShare} f := by
  rw [← bigSep_univ_prod (fun a : Fin 2 × Fin 16 => (v3Loc d ↦[oRows (coordsV a.1 a.2)]{fullShare} f : sProp 𝕄)),
    ← pointsTo_biUnion Finset.univ (ℓ := v3Loc d) (fun a : Fin 2 × Fin 16 => oRows (coordsV a.1 a.2))
      (fun a _ b _ hab => oRows_disjoint a b hab), oRows_cover]

/-- The call's operands, from the three arrays whole: every task its shares and its rows. -/
theorem st_intro (d : Dev nD) (t2 : Buf (Elt F) (v2Loc d)) (ht2 : TransposedIn (f1Of m d) t2) :
    iprop((v0Loc d ↦{fullShare} xfOf m d) ∗ (v2Loc d ↦{fullShare} t2) ∗ (v3Loc d ↦{fullShare} m (v3Loc d)))
      ⊢ bigSep Finset.univ fun c : Fin ((K (F := F)).nCore 0) => (P m).st 0 d c := by
  show _ ⊢ bigSep (Finset.univ : Finset (Fin 2)) fun c => bigSep Finset.univ fun i : Fin 16 => goRes m d c i
  rw [share_split (v0Loc d), share_split (v2Loc d), rows_split d, ← bigSep_sep', ← bigSep_sep']
  refine bigSep_mono fun c _ => ?_
  rw [← bigSep_sep', ← bigSep_sep']
  refine bigSep_mono fun i _ => ?_
  unfold goRes
  show iprop((v0Loc d ↦{xq c i} xfOf m d) ∗ (v2Loc d ↦{xq c i} t2) ∗ (v3Loc d ↦[oRows (coordsV c i)]{fullShare} m (v3Loc d))) ⊢ iprop(∃ t2, ⌜TransposedIn (f1Of m d) t2⌝ ∗ (v0Loc d ↦{xq c i} xfOf m d) ∗ (v2Loc d ↦{xq c i} t2)
    ∗ (v3Loc d ↦[oRows (coordsV c i)]{fullShare} m (v3Loc d)))
  iintro ⟨H0, H2, H3⟩
  iexists t2
  isplitr; · ipureintro; exact ht2
  isplitl [H0]; · iexact H0
  isplitl [H2] <;> iassumption

/-- The call's results: the gathered array whole, every row gathered. -/
theorem dn_elim (d : Dev nD) :
    (bigSep Finset.univ fun c : Fin ((K (F := F)).nCore 0) => (P m).dn 0 d c)
      ⊢ (iprop(∃ h, ⌜GatheredOn (xfOf m d) (f1Of m d) Finset.univ h⌝ ∗ (v3Loc d ↦{fullShare} h)) : sProp 𝕄) := by
  show (bigSep (Finset.univ : Finset (Fin 2)) fun c => bigSep Finset.univ fun i : Fin 16 => tdRes m d c i) ⊢ _
  rw [← bigSep_univ_prod (fun a : Fin 2 × Fin 16 => tdRes m d a.1 a.2)]
  unfold tdRes
  refine (bigSep_exists_pi Finset.univ (fun (a : Fin 2 × Fin 16) (h : Buf (Elt F) (v3Loc d)) =>
    iprop(⌜GatheredOn (xfOf m d) (f1Of m d) (oRows (coordsV a.1 a.2)) h⌝ ∗ (v3Loc d ↦[oRows (coordsV a.1 a.2)]{fullShare} h)))).trans ?_
  iintro ⟨%hs, H⟩
  ihave H' := (bigSep_pure_sep Finset.univ (fun a : Fin 2 × Fin 16 => GatheredOn (xfOf m d) (f1Of m d) (oRows (coordsV a.1 a.2)) (hs a))
    (fun a : Fin 2 × Fin 16 => (v3Loc d ↦[oRows (coordsV a.1 a.2)]{fullShare} hs a : sProp 𝕄))) $$ H
  icases H' with ⟨%hg, H⟩
  ihave H'' := (pointsTo_biUnion_join (ℓ := v3Loc d) (q := fullShare) (Val := Elt F) Finset.univ (fun a : Fin 2 × Fin 16 => oRows (coordsV a.1 a.2)) hs (hs (0, 0))
    (fun a _ b _ hab => oRows_disjoint a b hab)) $$ H
  icases H'' with ⟨%g, %hgg, Hg⟩
  rw [oRows_cover]
  iexists g
  isplitr
  · ipureintro
    have := gatheredOn_biUnion (xfOf m d) (f1Of m d) Finset.univ (fun a : Fin 2 × Fin 16 => oRows (coordsV a.1 a.2)) hs g hgg hg
    rwa [oRows_cover] at this
  · iexact Hg

end Cert.Proof.KB

end
-- ==== Proof.KB.RegionBody.lean ====
/-
  The TensorCore kernel that transposes the table back, block by block: its body at one grid point, the windows'
  geometry in closed form, the relational proof data of its pipeline, and what that data says of the result array.

  Grid point `t` (of 31) stages columns `32768 t …` of the 64 × 1000000 transposed table — all 64 rows; at the
  last point only the 16960 columns that lie inside the array, the staging block's other columns keeping whatever
  they held —, the body transposes the WHOLE staged block and stores it over columns 0‥63 of the 32768 × 128 output
  staging block (columns 64‥127 are never written), and the write-back of point `t` puts the rows of that block
  that lie inside the 1000000 × 128 result onto its rows `32768 t …`. So a row `v` of the result, with
  `t = v / 32768`, ends in its first 64 columns at
      result (v, k) = staged_out_t (v − 32768 t, k) = staged_in_t (k, v − 32768 t) = table_T (k, v),
  because `v` lies inside the array and so inside the part the fetch filled. The output staging block is only
  partly overwritten per point, so the pipeline's proof data is relational: per point it says of the output block
  only that, on the rows inside the array, its first 64 columns are the input block transposed (`OutRel`); the
  result array then has, after the write-backs of the points below `n`, its rows below `32768 n` done
  (`arrAt_done`), and the 31 points cover every row.
-/
import proofs.«206427_g47785806135705_cont_8to1_c_687_25_alg».proof.Proof.KB.Common
import Idealize.ShloMosaic.Lib.Pipeline.Value

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

namespace Tp

/-! ## The body at one grid point -/

/-- The staged output block's first 64 columns are the staged input block transposed. -/
def TrBlock {α : Type} (Y : S64x32768.Idx → α) (X : S32768x128.Idx → α) : Prop :=
  ∀ (r : Fin 32768) (k : Fin 64), X (ix2 r ⟨k.val, by omega⟩) = Y (ix2 k r)

/-- Storing the transposed input block over the leading 64 columns of an output block leaves those columns at the
    transpose, whatever the block held. -/
theorem trBlock_updateSlice (f0 : S64x32768.Idx → Elt F .f32) (f1 : S32768x128.Idx → Elt F .f32)
    (h : S32768x128.Slices ![0, 0] S32768x64) : TrBlock f0 (updateSlice f1 (k0_pay1 f0) ![0, 0] h) := by
  intro r k
  unfold updateSlice
  rw [dif_pos (fun a => by
    match a with
    | ⟨0, _⟩ => exact ⟨Nat.zero_le _, by show r.val < 0 + 32768; omega⟩
    | ⟨1, _⟩ => exact ⟨Nat.zero_le _, by show k.val < 0 + 64; omega⟩)]
  unfold k0_pay1
  refine (transpose_apply [1, 0] _ _ _ (ix2 k r) fun b => ?_).trans ?_
  · match b with
    | ⟨0, _⟩ => rfl
    | ⟨1, _⟩ => rfl
  · rw [shapeCast_self]

/-- One case of the body's run: the input block staged in buffer `b0`, the output block in buffer `b1`. -/
local macro "tp_case " b0:term ", " b1:term : tactic => `(tactic| (
  have hz : (![0, 0] : Fin 2 → Nat) = fun _ => 0 := funext fun a => by fin_cases a <;> rfl
  simp only [owns_whole_eq, cc0__tp_body_eq_skeleton]; unfold cc0__tp_body_skel
  simp only [Prog.lift, Prog.bind_op, Prog.bind_ret]
  iintro ⟨⟨⟨%f0, %hf0, H0⟩, ⟨%f1, %hf1, H1⟩⟩, Hk⟩
  sl_steps
  iapply Hk
  have hr0 : (Memref.whole $b0 : Memref sig .tc _ _ _).view.readAt (Elt F) (Rect.unit (s := S64x32768) ![0, 0] S64x32768.size
      inb_S64x32768_S64x32768_0_0).toLoadRect = id := funext (Memref.readAt_unit_zero (Elt F) $b0 hz _)
  have hw1 : ∀ f w, (((Memref.whole $b1).access (Rect.unit (s := S32768x128) ![0, 0] S32768x64.size inb_S32768x128_S32768x64_0_0)) :
      View sig .tc _ _ _).write (Elt F) f w Finset.univ = updateSlice f w ![0, 0] ⟨rfl, inb_S32768x128_S32768x64_0_0⟩ :=
    fun f w => View.write_whole_slice_unit $b1 ![0, 0] S32768x64.size inb_S32768x128_S32768x64_0_0 f w
  rw [hr0, hw1]
  isplitl [H0]
  · iexists f0; isplitr; · ipureintro; exact hf0
    iexact H0
  · iexists (updateSlice f1 (k0_pay1 (id f0)) ![0, 0] ⟨rfl, inb_S32768x128_S32768x64_0_0⟩)
    isplitr; · ipureintro; rw [← hf0]; exact trBlock_updateSlice f0 f1 _
    iexists _; isplitr; · ipureintro; rfl
    iexact H1))

theorem sound_body (c : Dev nD) (E : Set ℕ) (i : grid0.Coords) (s0 s1 : Fin 2)
    (Y0 : S64x32768.Idx → Elt F .f32) (Y1 : S32768x128.Idx → Elt F .f32) (K : PUnit → sProp 𝕄) :
    iprop((owns (T c) (stage0_0 s0) fullShare Y0 ∗ owns (T c) (stage0_1 s1) fullShare Y1)
          ∗ (iprop(owns (T c) (stage0_0 s0) fullShare Y0 ∗ ∃ X, ⌜TrBlock Y0 X⌝ ∗ owns (T c) (stage0_1 s1) fullShare X) -∗ K ⟨⟩))
      ⊢ wp frame (wpE (defs₀ (F := F)) 𝒱₀ (T c) none) E
          (cc0__tp_body i (stage0_0 s0) (hstage0_0 s0) (stage0_1 s1) (hstage0_1 s1)) K := by
  fin_cases s0 <;> fin_cases s1
  · tp_case cc0_stg0_0, cc0_stg1_0
  · tp_case cc0_stg0_0, cc0_stg1_1
  · tp_case cc0_stg0_1, cc0_stg1_0
  · tp_case cc0_stg0_1, cc0_stg1_1

/-! ## The windows' geometry in closed form -/

theorem coords0 (t : Fin grid0.N) : ((grid0.coords t) 0).val = t.val := by
  revert t; decide +kernel

theorem geo_in (t : Fin grid0.N) :
    win0_0.index t 0 = 0 ∧ win0_0.index t 1 = t.val ∧ win0_0.xsize (grid0.coords t) 0 = 64
      ∧ win0_0.xsize (grid0.coords t) 1 = min 32768 (1000000 - 32768 * t.val) := by
  revert t; decide +kernel

theorem geo_out (t : Fin grid0.N) :
    win0_1.index t 0 = t.val ∧ win0_1.index t 1 = 0 ∧ win0_1.xsize (grid0.coords t) 0 = min 32768 (1000000 - 32768 * t.val)
      ∧ win0_1.xsize (grid0.coords t) 1 = 128 := by
  revert t; decide +kernel

/-! ## The proof data -/

/-- The pairs the core's waits may have recorded during the region: those recorded before it, and any at the index
    of a thread's own transfers. -/
def recB (W : Waits sig (HIx 1)) : Set (SemLoc sig × HIx 1) := {p | p ∈ W ∨ p.2 = none}

/-- What the output staging block holds after the body at point `t`: on the rows that lie inside the array, its
    first 64 columns are the table's columns `32768 t …` transposed. -/
def OutRel {α : Type} (f1 : S64x1000000.Idx → α) (t : Nat) (X : S32768x128.Idx → α) : Prop :=
  ∀ (r : Fin 32768) (k : Fin 64) (h : 32768 * t + r.val < 1000000),
    X (ix2 r ⟨k.val, by omega⟩) = f1 (ix2 k ⟨32768 * t + r.val, h⟩)

/-- The proof data of the transposing pipeline on device `d`: the transposed table at `f1` and the result array at
    `f2` on entry; the body leaves its input block as it found it and its output block at `OutRel`; no invariant;
    the core owes `O` throughout. -/
def rdat (d : Dev nD) (f1 : Buf (Elt F) (v1Loc d)) (f2 : Buf (Elt F) (v2Loc d)) (O : CellTallies nD τ sig (HIx 1))
    (W : Waits sig (HIx 1)) : Pipeline.RDat τ (Elt F) (HIx 1) ℕ UU ℕ cfg0 d where
  A w := match w with
    | ⟨0, _⟩ => f1
    | ⟨1, _⟩ => f2
  after w t Y X := match w with
    | ⟨0, _⟩ => X = Y
    | ⟨1, _⟩ => OutRel f1 t.val X
  Φ _ := iprop(emp)
  q _ := fullShare
  owed _ := O
  recorded _ := recB W

variable (d : Dev nD) (f1 : Buf (Elt F) (v1Loc d)) (f2 : Buf (Elt F) (v2Loc d)) (O : CellTallies nD τ sig (HIx 1))
  (W : Waits sig (HIx 1))

/-- What the body finds in the input staging block at point `t`: on the columns inside the array, the table's. -/
theorem finds_in (t : Fin cfg0.N) (Y : S64x32768.Idx → Elt F .f32) (h : (rdat d f1 f2 O W).Finds (0 : Fin 2) t Y)
    (k : Fin 64) (r : Fin 32768) (hr : 32768 * t.val + r.val < 1000000) :
    Y (ix2 k r) = f1 (ix2 k ⟨32768 * t.val + r.val, hr⟩) := by
  rw [Pipeline.RDat.finds_of_fetch _ (fetch0_0 t)] at h
  obtain ⟨dd, rfl⟩ := h
  have hm : win0_0.moved (grid0.coords t) (ix2 k r) = true := (win0_0.moved_iff _ _).mpr fun a => by
    match a with
    | ⟨0, _⟩ => show k.val < win0_0.xsize (grid0.coords t) 0; rw [(geo_in t).2.2.1]; omega
    | ⟨1, _⟩ => show r.val < win0_0.xsize (grid0.coords t) 1; rw [(geo_in t).2.2.2]; omega
  unfold Pipeline.RDat.fetched
  show win0_0.fill (grid0.coords t) dd _ (ix2 k r) = _
  unfold Pipeline.Window.fill
  rw [dif_pos hm]
  unfold Pipeline.RDat.blockOf
  rw [View.read_apply]
  refine (show _ = f1 _ from rfl).trans (congrArg f1 (funext fun a => Fin.ext ?_))
  refine (Pipeline.Window.rect_emb_val win0_0 t _ a).trans ?_
  match a with
  | ⟨0, _⟩ => show win0_0.index t 0 * 64 + k.val = k.val; rw [(geo_in t).1]; omega
  | ⟨1, _⟩ => show win0_0.index t 1 * 32768 + r.val = 32768 * t.val + r.val; rw [(geo_in t).2.1]; omega

/-- Rows of the result array below `32768 n` hold, in their first 64 columns, the table transposed. -/
def DoneBelow {α : Type} (f1 : S64x1000000.Idx → α) (n : Nat) (G : S1000000x128.Idx → α) : Prop :=
  ∀ (v : Fin 1000000) (k : Fin 64), v.val < 32768 * n → G (ix2 v ⟨k.val, by omega⟩) = f1 (ix2 k v)

/-- After the write-backs of the points below `n` the rows below `32768 n` are done: point `n`'s write-back puts
    rows `32768 n …` of the array (those inside it) at the output block's rows, which `OutRel` names, and leaves
    the rows before them as they were. -/
theorem arrAt_done : ∀ (n : Nat) (G : S1000000x128.Idx → Elt F .f32), (rdat d f1 f2 O W).ArrAt (1 : Fin 2) n G → DoneBelow f1 n G
  | 0, _, _ => fun v k h => absurd h (by omega)
  | n + 1, G, h => by
    by_cases hn : n < cfg0.N
    · have h' : (rdat d f1 f2 O W).ArrStep (1 : Fin 2) ⟨n, hn⟩ ((rdat d f1 f2 O W).ArrAt (1 : Fin 2) n) G := by
        simpa only [Pipeline.RDat.ArrAt, dif_pos hn, if_pos (flush0_1 ⟨n, hn⟩)] using h
      obtain ⟨G₀, X, hG₀, ⟨Y, -, hX⟩, rfl⟩ := h'
      have ih := arrAt_done n G₀ hG₀
      have hX' : OutRel f1 n X := hX
      intro v k hv
      have e0 : win0_1.index ⟨n, hn⟩ 0 = n := (geo_out ⟨n, hn⟩).1
      have e1 : win0_1.index ⟨n, hn⟩ 1 = 0 := (geo_out ⟨n, hn⟩).2.1
      have x0 : win0_1.xsize (grid0.coords ⟨n, hn⟩) 0 = min 32768 (1000000 - 32768 * n) := (geo_out ⟨n, hn⟩).2.2.1
      have x1 : win0_1.xsize (grid0.coords ⟨n, hn⟩) 1 = 128 := (geo_out ⟨n, hn⟩).2.2.2
      have hvlt : v.val < 1000000 := v.isLt
      have hw := View.write_whole_slice_unit (Val := Elt F) main_v2 (fun a => win0_1.index ⟨n, hn⟩ a * win0_1.size a)
        (win0_1.xsize (grid0.coords ⟨n, hn⟩)) (fun a => Pipeline.Clip.inb (win0_1.hclip (grid0.coords ⟨n, hn⟩) a)) G₀
        (win0_1.cut (grid0.coords ⟨n, hn⟩) X)
      refine (congrFun hw _).trans ?_
      unfold updateSlice
      by_cases hvn : 32768 * n ≤ v.val
      · rw [dif_pos (fun a => by
          match a with
          | ⟨0, _⟩ =>
            show win0_1.index ⟨n, hn⟩ 0 * 32768 ≤ v.val ∧ v.val < win0_1.index ⟨n, hn⟩ 0 * 32768 + win0_1.xsize (grid0.coords ⟨n, hn⟩) 0
            rw [e0, x0]; omega
          | ⟨1, _⟩ =>
            show win0_1.index ⟨n, hn⟩ 1 * 128 ≤ k.val ∧ k.val < win0_1.index ⟨n, hn⟩ 1 * 128 + win0_1.xsize (grid0.coords ⟨n, hn⟩) 1
            rw [e1, x1]; omega)]
        have hr : v.val - 32768 * n < 32768 := by omega
        have hrow : 32768 * n + (⟨v.val - 32768 * n, hr⟩ : Fin 32768).val < 1000000 := by show 32768 * n + (v.val - 32768 * n) < 1000000; omega
        refine Eq.trans (congrArg X (funext fun a => Fin.ext ?_)) ((hX' ⟨v.val - 32768 * n, hr⟩ k hrow).trans (congrArg f1 (funext fun a => Fin.ext ?_)))
        · match a with
          | ⟨0, _⟩ => show v.val - win0_1.index ⟨n, hn⟩ 0 * 32768 = v.val - 32768 * n; rw [e0]; omega
          | ⟨1, _⟩ => show k.val - win0_1.index ⟨n, hn⟩ 1 * 128 = k.val; rw [e1]; omega
        · match a with
          | ⟨0, _⟩ => rfl
          | ⟨1, _⟩ => show 32768 * n + (v.val - 32768 * n) = v.val; omega
      · rw [dif_neg (fun hin => hvn (by
          have h0 := (hin ⟨0, by decide⟩).1
          have h0' : win0_1.index ⟨n, hn⟩ 0 * 32768 ≤ v.val := h0
          rw [e0] at h0'; omega))]
        exact ih v k (by omega)
    · have h' : (rdat d f1 f2 O W).ArrAt (1 : Fin 2) n G := by
        simpa only [Pipeline.RDat.ArrAt, dif_neg hn] using h
      have ih := arrAt_done n G h'
      have hN : cfg0.N = 31 := N_0
      intro v k _
      exact ih v k (by have := v.isLt; omega)

end Tp

end Cert.Proof.KB

end
-- ==== Proof.KB.Region.lean ====
/-
  The TensorCore transposing kernel as ONE region rule: from the region boundary, the transposed table whole at
  `f1`, the result array whole at anything, what the TensorCore then owes (nothing at the index of a thread's own
  transfers), the level facts and the pipeline's staging cells' launch ghost state and duty tokens, the custom call
  runs, and its continuation receives the boundary back, the table unchanged, the result array at some contents
  whose first 64 columns are the table transposed — `result (v, k) = f1 (k, v)` for every row `v` and `k < 64`;
  columns 64‥127 are whatever the staging buffers held, since the body never writes them —, and the core owing the
  same, with only waits at the index of its own transfers recorded besides.

  The pipeline's proof data is relational (the module imported here): the body leaves the input block as it found it
  and the output block's first 64 columns, on the rows inside the array, at the table's columns transposed. The body
  obligation joins the body's run at one point with what the fetch put in the input block; the wait evidence is that
  the pipeline's waits sit at the index of a thread's own transfers, below everything the core owes the SparseCores;
  and at the exit the result array's contents after all 31 write-backs have every row done, since the points' blocks
  cover the rows.
-/
import proofs.«206427_g47785806135705_cont_8to1_c_687_25_alg».proof.Proof.KB.RegionBody

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

namespace Tp

section Data

variable (d : Dev nD) (f1 : Buf (Elt F) (v1Loc d)) (f2 : Buf (Elt F) (v2Loc d)) (O : CellTallies nD τ sig (HIx 1))
  (W : Waits sig (HIx 1))

/-- The library's body obligation: the input block arrives just fetched, the output block holding anything; the body
    leaves the first as it was and the second at the transpose, which on the rows inside the array is the table's
    columns (`finds_in`). Nothing is owed anew and no wait is recorded. -/
theorem body_obligation : (rdat d f1 f2 O W).BodyObligation (defs₀ (F := F)) 𝒱₀ none Set.univ := fun t Y hY => by
  rw [bigSep_W0, bigSep_W0]
  rw [show (rdat d f1 f2 O W).Φ t.succ = (rdat d f1 f2 O W).Φ t.castSucc from rfl,
    show (rdat d f1 f2 O W).owesAt none t.succ = (rdat d f1 f2 O W).owesAt none t.castSucc from rfl]
  iintro ⟨HΦ, Ho, H0, H1⟩
  iapply (sound_body (F := F) d Set.univ (grid0.coords t) (cfg0.slots t 0) (cfg0.slots t 1) (Y 0) (Y 1) _)
  isplitl [H0 H1]
  · isplitl [H0]
    · iexact H0
    · iexact H1
  iintro ⟨H0, ⟨%X, %hX, H1⟩⟩
  isplitl [HΦ]; · iexact HΦ
  isplitl [Ho]; · iexact Ho
  isplitl [H0]
  · iexists (Y 0); isplitr; · ipureintro; exact (rfl : Y 0 = Y 0)
    iexact H0
  · iexists X; isplitr
    · ipureintro
      show OutRel f1 t.val X
      intro r k h
      exact (hX r k).trans (finds_in d f1 f2 O W t (Y 0) (hY 0) k r h)
    iexact H1

/-! ## The region -/

/-- The pipeline has no prefetched table: its one admissible table contents. -/
abbrev adm : (p : Fin 1) → (pcfgs (F := F) p).Adm := fun q => (cfgs q).toPCfg_adm

/-- What the region is entered from, on device `d`: the transposed table and the result array whole, and what the
    core owes. -/
def preAt : sProp 𝕄 := iprop((v1Loc d ↦{fullShare} f1) ∗ (v2Loc d ↦{fullShare} f2) ∗ owes (T d) O W)

/-- What it leaves: the table unchanged, the result array's first 64 columns the table transposed, and the core owing
    the same with only waits at the index of its own transfers recorded besides. -/
def postAt : sProp 𝕄 :=
  iprop((v1Loc d ↦{fullShare} f1) ∗ (∃ g, ⌜TransposedIn f1 g⌝ ∗ (v2Loc d ↦{fullShare} g))
    ∗ ∃ W', ⌜∀ p ∈ W', p ∈ W ∨ p.2 = none⌝ ∗ owes (T d) O W')

theorem share_full (w : Fin cfg0.W) : (rdat d f1 f2 O W).share w = fullShare :=
  Pipeline.RDat.share_full _ (fun _ => rfl) w

theorem entry_at :
    iprop(preAt d f1 f2 O W ∗ Pipeline.ownSems0 (fun k : PEmpty => k.elim) d ∗ levAts (K (F := F)).L (K (F := F)).lev)
      ⊢ |={Set.univ}=> iprop((rdat d f1 f2 O W).arrays (rdat d f1 f2 O W).A
          ∗ Pipeline.prefHeld (pcfgs (F := F) 0).pre d (fun _ => fullShare) (adm (F := F) 0).1
          ∗ (rdat d f1 f2 O W).owesAt none 0 ∗ (BI.emp : sProp 𝕄) ∗ (BI.emp : sProp 𝕄)) := by
  unfold preAt Pipeline.RDat.arrays
  rw [bigSep_W0, share_full, share_full, (launch0.arr_whole 0).set_eq_univ, (launch0.arr_whole 1).set_eq_univ]
  iintro ⟨⟨H1, H2, Ho⟩, -, -⟩
  imodintro
  isplitl [H1 H2]
  · isplitl [H1]
    · iexact H1
    · iexact H2
  isplitr
  · unfold Pipeline.prefHeld; rw [show (Finset.univ : Finset (Fin 0)) = ∅ from rfl, BI.bigSep_empty]; iempintro
  isplitl [Ho]
  · unfold Pipeline.RDat.owesAt Pipeline.owesWithin
    iexists W; isplitr
    · ipureintro; exact fun p hp => Or.inl (Or.inl (Finset.mem_coe.mp hp))
    iexact Ho
  isplitr <;> iempintro

theorem exit_at :
    iprop((rdat d f1 f2 O W).arraysAt cfg0.N ∗ (rdat d f1 f2 O W).owesAt none (Fin.last cfg0.N) ∗ (BI.emp : sProp 𝕄) ∗ (BI.emp : sProp 𝕄))
      ⊢ |={Set.univ}=> postAt d f1 O W := by
  unfold postAt Pipeline.RDat.arraysAt
  rw [bigSep_W0, share_full, share_full, (launch0.arr_whole 0).set_eq_univ, (launch0.arr_whole 1).set_eq_univ]
  unfold Pipeline.RDat.owesAt Pipeline.owesWithin
  iintro ⟨⟨⟨%F0, %hF0, H1⟩, ⟨%F1, %hF1, H2⟩⟩, ⟨%W', %hW', Ho⟩, -, -⟩
  imodintro
  have e0 : F0 = f1 := by rw [(rdat d f1 f2 O W).ArrAt_in (0 : Fin 2) rfl] at hF0; exact hF0
  subst e0
  isplitl [H1]; · iexact H1
  isplitl [H2]
  · iexists F1; isplitr
    · ipureintro
      intro v k
      exact arrAt_done d _ f2 O W cfg0.N F1 hF1 v k (by have := v.isLt; have hN : cfg0.N = 31 := N_0; rw [hN]; omega)
    iexact H2
  · iexists W'; isplitr
    · ipureintro
      intro p hp
      rcases hW' (Finset.mem_coe.mpr hp) with h | ⟨w, s, rfl⟩
      · exact h
      · exact Or.inr rfl
    iexact Ho

/-- The mesh has one device. -/
theorem dev_eq (d c : Dev nD) : d = c := Subsingleton.elim d c

/-- The table's and the result array's entry contents, named on whichever device is asked for. -/
def f1At (c : Dev nD) : Buf (Elt F) (v1Loc c) := dev_eq d c ▸ f1
def f2At (c : Dev nD) : Buf (Elt F) (v2Loc c) := dev_eq d c ▸ f2

/-- The proof data of the program's one pipeline, per device. -/
def rdats : (p : Fin 1) → (c : Dev nD) → Pipeline.RDat τ (Elt F) (HIx 1) ℕ UU ℕ (Pipeline.pin (pcfgs (F := F)) adm p) c :=
  fun _ c => rdat c (f1At d f1 c) (f2At d f2 c) O W

set_option backward.isDefEq.respectTransparency.types false in
/-- The region's record: the generated layout, no semaphore of the kernel's own, the body obligation, the wait evidence
    (the pipeline's waits are at the index of a thread's own transfers, below everything the core owes the
    SparseCores), and the four entailments around `preAt` / `postAt`. -/
def reg (hO : ∀ g, O g none = 0) :
    Pipeline.RDat.RegionSeg (pcfgs (F := F)) adm (rdats d f1 f2 O W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation c (f1At d f1 c) (f2At d f2 c) O W
  hwaits c := Pipeline.RDat.cellsWaits_intro _ _ none 0 c fun _ _ _ => (K (F := F)).mayWait_none _ hO
  pre c := preAt c (f1At d f1 c) (f2At d f2 c) O W
  post c := postAt c (f1At d f1 c) O W
  X _ := BI.emp
  Y _ := BI.emp
  Z _ := BI.emp
  hentry c := entry_at c (f1At d f1 c) (f2At d f2 c) O W
  hin c := by
    rw [scopedRest0_eq]; iintro ⟨-, -, -⟩; iempintro
  hout c := by
    rw [Pipeline.ownSems0_none, scopedRest0_eq]; iintro -
    isplitr; · iempintro
    isplitr <;> iempintro
  hexit c := exit_at c (f1At d f1 c) (f2At d f2 c) O W

end Data

end Tp

open Tp

set_option backward.isDefEq.respectTransparency.types false in
theorem region_wp [∀ e, Nonempty (Elt F e)] (d : Dev nD) (f1 : Buf (Elt F) (v1Loc d))
    (O : CellTallies nD τ sig (HIx 1)) (W : Waits sig (HIx 1)) (hO : ∀ g, O g none = 0)
    {α : Type} (k : PUnit → Prog (TpuEff nD τ sig (Elt F) (ΛP (F := F)) .tc) α) (Q : α → sProp 𝕄) :
    iprop((iprop(boundary (T d) ∗ (v1Loc d ↦{fullShare} f1) ∗ (∃ g, ⌜TransposedIn f1 g⌝ ∗ (v2Loc d ↦{fullShare} g))
            ∗ ∃ W', ⌜∀ p ∈ W', p ∈ W ∨ p.2 = none⌝ ∗ owes (T d) O W')
          -∗ wp frame (wpE (D (F := F)) 𝒱 (T d) none) Set.univ (k ⟨⟩) Q)
        ∗ boundary (T d) ∗ (v1Loc d ↦{fullShare} f1) ∗ (∃ f2, v2Loc d ↦{fullShare} f2) ∗ owes (T d) O W
        ∗ levAts (K (F := F)).L (K (F := F)).lev
        ∗ Pipeline.cellsGhost (cfgs) (EP (F := F)) 0 d ∗ Pipeline.toksInit (cfgs) (EP (F := F)) 0 d)
      ⊢ wp frame (wpE (D (F := F)) 𝒱 (T d) none) Set.univ (.op (.customCall (Pipeline.entry 0) ()) k) Q := by
  iintro ⟨Hk, Hb, H1, ⟨%f2, H2⟩, Ho, Hlv, Hg, Ht⟩
  iapply (Pipeline.RDat.RegionSeg.wp (pcfgs (F := F)) adm (rdats d f1 f2 O W) none cellOf_inj (EP (F := F)) defs₀ 𝒱₀
    (K (F := F)).L (K (F := F)).lev (reg d f1 f2 O W hO) d none (fun _ h => nomatch h) k Q)
  rw [show (reg d f1 f2 O W hO).post d = postAt d f1 O W from rfl,
    show (reg d f1 f2 O W hO).pre d = preAt d f1 f2 O W from rfl]
  unfold preAt postAt
  isplitl [Hk]
  · iintro ⟨Hb, Hpost⟩
    iapply Hk
    isplitl [Hb]; · iexact Hb
    iexact Hpost
  isplitl [Hb]; · iexact Hb
  isplitl [H1 H2 Ho]
  · isplitl [H1]; · iexact H1
    isplitl [H2]; · iexact H2
    iexact Ho
  isplitl [Hlv]; · iexact Hlv
  isplitl [Hg]; · iexact Hg
  iexact Ht

end Cert.Proof.KB
end
-- ==== Proof.KB.Main.lean ====
/-
  @main on the TensorCore of a device, step by step: the host flattens the index array and transposes the table; the
  TensorCore kernel's region writes the table back, row by row, into the first 64 of the 128 columns of a wider array;
  the SparseCore call hands every vector subcore its shares of those two arrays and its 6400 rows of the gathered
  array and gets the rows back gathered; the host keeps the first 64 columns and folds the 204800 rows back to
  4096 × 50. What is left is the two arguments as launched and the result at the lookup.
-/
import proofs.«206427_g47785806135705_cont_8to1_c_687_25_alg».proof.Proof.KB.Pay
import proofs.«206427_g47785806135705_cont_8to1_c_687_25_alg».proof.Proof.KB.Region

noncomputable section

namespace Cert.Proof.KB

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}
local notation "𝕄" => MT nD τ sig (HIx 1) (Elt F) ℕ UU ℕ

variable [FloatOps F]
variable (m : (ℓ : Loc nD τ sig) → Buf (Elt F) ℓ) (ρ : Dev nD → PrngReg)

/-- What @main leaves the claim: the arguments as launched, the result at the lookup. -/
abbrev FIN (d : Dev nD) : sProp 𝕄 :=
  iprop((xLoc d ↦{fullShare} m (xLoc d)) ∗ (tLoc d ↦{fullShare} m (tLoc d))
    ∗ (v5Loc d ↦{fullShare} Cert.Proof.Spec.lookup (m (xLoc d)) (m (tLoc d))))

omit [FloatOps F] in
theorem lift_entry :
    (SparseCore.liftProg (Q := 1) (Prog.lift (TpuEff.customCall (nD := nD) (τ := τ) (sig := sig) (Val := Elt F) (Λ := ΛP (F := F)) (p := .tc) (Pipeline.entry 0) ()))
      : Prog (TpuEff nD τ sig (Elt F) (SparseCore.Sig (ΛP (F := F)) 1) .tc) PUnit)
      = Prog.lift (.customCall (SparseCore.inner (Pipeline.entry 0)) ()) := rfl

/-- The TensorCore kernel's region as @main meets it, in the SparseCore program's own signature. -/
theorem region_step [∀ e, Nonempty (Elt F e)] (d : Dev nD) (f1 : Buf (Elt F) (v1Loc d))
    (O : CellTallies nD τ sig (HIx 1)) (W : Waits sig (HIx 1)) (hO : ∀ g, O g none = 0) (Φ : PUnit.{1} → sProp 𝕄) :
    iprop((iprop(boundary (SparseCore.T d) ∗ (v1Loc d ↦{fullShare} f1) ∗ (∃ g, ⌜TransposedIn f1 g⌝ ∗ (v2Loc d ↦{fullShare} g))
            ∗ ∃ W', ⌜∀ p ∈ W', p ∈ W ∨ p.2 = none⌝ ∗ owes (SparseCore.T d) O W') -∗ Φ PUnit.unit)
        ∗ boundary (SparseCore.T d) ∗ (v1Loc d ↦{fullShare} f1) ∗ (∃ f2, v2Loc d ↦{fullShare} f2) ∗ owes (SparseCore.T d) O W
        ∗ levAts (K (F := F)).L (K (F := F)).lev
        ∗ Pipeline.cellsGhost (cfgs) (EP (F := F)) 0 d ∗ Pipeline.toksInit (cfgs) (EP (F := F)) 0 d)
      ⊢ wp frame (wpE ((K (F := F)).defs (D (F := F))) 𝒱 (SparseCore.T d) none) Set.univ
          (Prog.lift (.customCall (SparseCore.inner (Pipeline.entry 0)) ())) Φ := by
  rw [← lift_entry]
  refine BI.Entails.trans ?_ ((K (F := F)).wp_liftProg (D (F := F)) 𝒱 (SparseCore.T d) Set.univ none _ Φ)
  refine BI.Entails.trans ?_ (region_wp (F := F) d f1 O W hO (α := PUnit) (fun _ => .ret PUnit.unit) Φ)
  show (_ : sProp 𝕄) ⊢ _
  iintro ⟨Hk, H⟩
  isplitl [Hk]
  · iintro Hres
    rw [wp_ret]; imodintro
    iapply Hk; iexact Hres
  · iexact H

set_option maxHeartbeats 1600000 in
/-- @main on device `d`'s TensorCore: the two host operations, the TensorCore kernel's region, the SparseCore call,
    the two host operations after it. -/
theorem hmain [∀ e, Nonempty (Elt F e)] (hpre : PreOK m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4, Hv5⟩, -, -⟩, ⟨Hcg, Hti⟩⟩
  -- the indices flattened
  iapply (reshape_step m d main_arg0 main_v0 rfl shapeCasts_S4096x50_S204800 ⟨by decide, rfl⟩ ⟨by decide, rfl⟩ (by decide) (m (xLoc d)) (m (v0Loc d))) $$ [Hb Ha0 Hv0]
  · isplitl [Hb]; · iexact Hb
    isplitl [Ha0] <;> iassumption
  iintro ⟨Hb, Ha0, Hv0⟩
  rw [wp_ret]; imodintro
  -- the table transposed
  iapply (unary_step m d main_arg1 main_v1 _ ⟨by decide, rfl⟩ ⟨by decide, rfl⟩ (by decide) (m (tLoc d)) (m (v1Loc d))) $$ [Hb Ha1 Hv1]
  · isplitl [Hb]; · iexact Hb
    isplitl [Ha1] <;> iassumption
  iintro ⟨Hb, Ha1, Hv1⟩
  rw [wp_ret]; imodintro
  -- the TensorCore kernel: the table transposed back into the first 64 of 128 columns
  ihave Hlv := (show (K (F := F)).ctx EH (P m) κ ⊢ levAts (K (F := F)).L (K (F := F)).lev from by unfold SparseCore.Cfg.ctx; exact sep_elim_left) $$ Hctx
  ihave Hst' := (tcSt_open (F := F) d 0) $$ Hst
  icases Hst' with ⟨⟨%W, %hW, HO⟩, Hclose⟩
  iapply (region_step (F := F) d (f1Of m d) ((K (F := F)).Otc d 0) W (Otc_none d 0) _) $$ [Hb Hv1 Hv2 HO Hlv Hcg Hti Hclose Ha0 Ha1 Hv0 Hv3 Hv4 Hv5]
  isplitr [Hb Hv1 Hv2 HO Hlv Hcg Hti]
  swap
  · isplitl [Hb]; · iexact Hb
    isplitl [Hv1]; · iexact Hv1
    isplitl [Hv2]; · iexists _; iexact Hv2
    isplitl [HO]; · iexact HO
    isplitl [Hlv]; · iexact Hlv
    isplitl [Hcg] <;> iassumption
  iintro ⟨Hb, Hv1, ⟨%t2, %ht2, Hv2⟩, %W', %hW', HO⟩
  -- the SparseCore call: every task its shares and rows; the rows back, gathered
  ihave Hst := Hclose $$ [HO]
  · iexists W'; isplitr
    · ipureintro; intro p hp
      rcases hW' p hp with h | h
      · exact hW p h
      · rw [h, SparseCore.Cfg.lev_none]
    · iexact HO
  iapply ((K (F := F)).wp_run (D (F := F)) 𝒱 (EH := EH) (P := P m) κ d 0) $$ [Hst Hv0 Hv2 Hv3 Hb Ha0 Ha1 Hv1 Hv4 Hv5]
  isplitr; · iexact Hctx
  isplitl [Hst]; · iexact Hst
  isplitl [Hv0 Hv2 Hv3]
  · iapply (st_intro m d t2 ht2)
    isplitl [Hv0]; · iexact Hv0
    isplitl [Hv2] <;> iassumption
  iintro ⟨Hst, Hdn⟩
  ihave Hdn' := (dn_elim m d) $$ Hdn
  icases Hdn' with ⟨%h, %hh, Hv3⟩
  -- the first 64 columns kept, the rows folded back
  iapply (unary_step m d main_v3 main_v4 _ ⟨by decide, rfl⟩ ⟨by decide, rfl⟩ (by decide) h (m (v4Loc d))) $$ [Hb Hv3 Hv4]
  · isplitl [Hb]; · iexact Hb
    isplitl [Hv3] <;> iassumption
  iintro ⟨Hb, Hv3, Hv4⟩
  rw [wp_ret]; imodintro
  iapply (reshape_step m d main_v4 main_v5 rfl shapeCasts_S204800x64_S4096x50x64 ⟨by decide, rfl⟩ ⟨by decide, rfl⟩ (by decide) _ (m (v5Loc d))) $$ [Hb Hv4 Hv5]
  · isplitl [Hb]; · iexact Hb
    isplitl [Hv4] <;> iassumption
  iintro ⟨Hb, Hv4, Hv5⟩
  rw [wp_ret]; imodintro; imodintro
  isplitl [Hst]; · iexact Hst
  isplitl [Ha0]; · iexact Ha0
  isplitl [Ha1]; · iexact Ha1
  iapply (Entails.of_eq (congrArg (fun f => (v5Loc d ↦{fullShare} f : sProp 𝕄)) (result_eq (F := F) (m (xLoc d)) (m (tLoc d)) h (hpre d) hh)))
  iexact Hv5

def fq (d : Dev nD) (s' : Phys nD τ sig (Elt F)) : Prop :=
  s'.mem.mem (v5Loc d) = Cert.Proof.Spec.lookup (m (xLoc d)) (m (tLoc d)) ∧ s'.mem.mem (xLoc d) = m (xLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := v5Loc d) (I := Finset.univ) (q := fullShare) (f := Cert.Proof.Spec.lookup (m (xLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.Proof.KB

end
-- ==== Proof.KB.Tile.lean ====
/-
  One vector subcore's task of the lookup, at a symbolic grid point: it copies its 6400 index words into its index
  scratch, then, sixteen times, gathers the 400 rows of the table those words name into one of two row scratches and
  copies that scratch out to its 400 rows of the result, the next gather already under way while a chunk is copied out.
  Everything is generic in the float instance: the task only moves numbers.
-/
import proofs.«206427_g47785806135705_cont_8to1_c_687_25_alg».proof.Proof.KB.Common

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S204800 EltTy.i32)
local notation "tV" => (Memref.whole Cert.Kernel.main_v2_scv : Memref Cert.Kernel.sig Kind.scVector Space.hbm Cert.Kernel.S1000000x128 EltTy.f32)
local notation "oV" => (Memref.whole Cert.Kernel.main_v3_scv : Memref Cert.Kernel.sig Kind.scVector Space.hbm Cert.Kernel.S204800x128 EltTy.f32)
local notation "sV" => (Memref.whole Cert.Kernel.cc1_scratch0 : Memref Cert.Kernel.sig Kind.scVector Space.vmem Cert.Kernel.S6400 EltTy.i32)
local notation "rA" => (Memref.whole Cert.Kernel.cc1_scratch1 : Memref Cert.Kernel.sig Kind.scVector Space.vmem Cert.Kernel.S400x128 EltTy.f32)
local notation "rB" => (Memref.whole Cert.Kernel.cc1_scratch2 : Memref Cert.Kernel.sig Kind.scVector Space.vmem Cert.Kernel.S400x128 EltTy.f32)

/-! Everything but the task's theorem lives in the sub-namespace `Tl`. -/
namespace Tl

section Tile

variable (d : Dev nD) (L : grid1.Coords)

/-- The five DMA semaphores of the subcore: the two gathers', the two write-backs', the index fetch's. -/
abbrev gAcell (d : Dev nD) (c : Fin τ.nSC) (i : Fin τ.nSub) : GSem nD τ sig := (V d c i, .dma cc1_scratch3.sem)
abbrev gBcell (d : Dev nD) (c : Fin τ.nSC) (i : Fin τ.nSub) : GSem nD τ sig := (V d c i, .dma cc1_scratch4.sem)
abbrev wAcell (d : Dev nD) (c : Fin τ.nSC) (i : Fin τ.nSub) : GSem nD τ sig := (V d c i, .dma cc1_scratch5.sem)
abbrev wBcell (d : Dev nD) (c : Fin τ.nSC) (i : Fin τ.nSub) : GSem nD τ sig := (V d c i, .dma cc1_scratch6.sem)
abbrev fcell (d : Dev nD) (c : Fin τ.nSC) (i : Fin τ.nSub) : GSem nD τ sig := (V d c i, .dma cc1_scoped0.sem)

theorem ownSems0_V :
    (ownSems0 (V d (cV L) (jV L)) : sProp 𝕄)
      = iprop(semVal (gAcell d (cV L) (jV L)) 0 ∗ semVal (gBcell d (cV L) (jV L)) 0 ∗ semVal (wAcell d (cV L) (jV L)) 0
          ∗ semVal (wBcell d (cV L) (jV L)) 0 ∗ semVal (fcell d (cV L) (jV L)) 0
          ∗ bigSep (((((ownCells (V d (cV L) (jV L))).erase (gAcell d (cV L) (jV L))).erase (gBcell d (cV L) (jV L))).erase (wAcell d (cV L) (jV L))).erase
              (wBcell d (cV L) (jV L)) |>.erase (fcell d (cV L) (jV L))) fun g => semVal g 0) := by
  unfold SparseCore.Cfg.ownSems0
  rw [SparseCore.bigSep_erase' ((mem_ownCells (g := gAcell d (cV L) (jV L))).mpr ⟨rfl, by
      show (SemLoc.dma cc1_scratch3.sem : SemLoc sig).isScoped .scVector = true; decide⟩),
    SparseCore.bigSep_erase' (Finset.mem_erase.mpr ⟨by simp [gAcell, gBcell]; decide, (mem_ownCells (g := gBcell d (cV L) (jV L))).mpr ⟨rfl, by
      show (SemLoc.dma cc1_scratch4.sem : SemLoc sig).isScoped .scVector = true; decide⟩⟩),
    SparseCore.bigSep_erase' (Finset.mem_erase.mpr ⟨by simp [gBcell, wAcell]; decide, Finset.mem_erase.mpr ⟨by simp [gAcell, wAcell]; decide,
      (mem_ownCells (g := wAcell d (cV L) (jV L))).mpr ⟨rfl, by show (SemLoc.dma cc1_scratch5.sem : SemLoc sig).isScoped .scVector = true; decide⟩⟩⟩),
    SparseCore.bigSep_erase' (Finset.mem_erase.mpr ⟨by simp [wAcell, wBcell]; decide, Finset.mem_erase.mpr ⟨by simp [gBcell, wBcell]; decide,
      Finset.mem_erase.mpr ⟨by simp [gAcell, wBcell]; decide,
      (mem_ownCells (g := wBcell d (cV L) (jV L))).mpr ⟨rfl, by show (SemLoc.dma cc1_scratch6.sem : SemLoc sig).isScoped .scVector = true; decide⟩⟩⟩⟩),
    SparseCore.bigSep_erase' (Finset.mem_erase.mpr ⟨by simp [wBcell, fcell]; decide, Finset.mem_erase.mpr ⟨by simp [wAcell, fcell]; decide,
      Finset.mem_erase.mpr ⟨by simp [gBcell, fcell]; decide, Finset.mem_erase.mpr ⟨by simp [gAcell, fcell]; decide,
      (mem_ownCells (g := fcell d (cV L) (jV L))).mpr ⟨rfl, by show (SemLoc.dma cc1_scoped0.sem : SemLoc sig).isScoped .scVector = true; decide⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The views the task addresses -/

/-- The subcore's 6400 words of the flattened indices, as the task slices them. -/
abbrev xWin (L : grid1.Coords) : Memref sig .scVector .hbm S6400 .i32 :=
  (xV).slice (Rect.unit (s := S204800) (k1_off1 L) S6400.size (k1_off1_inb L)) (fun _ => rfl)
/-- The 400 words of the index scratch from word `o` on. -/
abbrev sWin (o : ℕ) (ho : ∀ a, (![o] : Fin 1 → ℕ) a + S400.size a ≤ S6400.size a) : Memref sig .scVector .vmem S400 .i32 :=
  (sV).slice (Rect.unit (s := S6400) ![o] S400.size ho) (fun _ => rfl)
/-- All of the table, as the task slices it. -/
abbrev tAll : Memref sig .scVector .hbm S1000000x128 .f32 :=
  (tV).slice (Rect.unit (s := S1000000x128) ![0, 0] S1000000x128.size inb_S1000000x128_S1000000x128_0_0) (fun _ => rfl)
/-- The 400 rows of the result the chunk at word offset `c` is copied out to. -/
abbrev oWin (L : grid1.Coords) (c : BitVec 32) (hc : ∀ a, (k1_off2 L c) a + S400x128.size a ≤ S204800x128.size a) :
    Memref sig .scVector .hbm S400x128 .f32 :=
  (oV).slice (Rect.unit (s := S204800x128) (k1_off2 L c) S400x128.size hc) (fun _ => rfl)

local notation "θ" => (V d (cV L) (jV L))

section Steps

variable (xf : Buf (Elt F) (v0Loc d))

/-- What the index fetch leaves in the index scratch: the subcore's stretch of the flattened indices. -/
def idxBuf : Buf (Elt F) ((V d (cV L) (jV L)).loc cc1_scratch0) := (xWin L).view.read (Elt F) xf

theorem xf_read (j : S6400.Idx) : (xWin L).view.read (Elt F) xf j = xf ((xWin L).view.emb j) := (View.read_apply _ _).trans (cast_eq _ _)

/-- Every word of a window of the index scratch names a row of the table. -/
theorem idx_inb (hxf : FlatInRange xf) (o : ℕ) (ho : ∀ a, (![o] : Fin 1 → ℕ) a + S400.size a ≤ S6400.size a) :
    ∀ x, ((sWin o ho).view.read (Elt F) (idxBuf d L xf) x).toNat < S1000000x128.size gathers_S1000000x128_S400x128.axis := by
  intro x
  rw [show (sWin o ho).view.read (Elt F) (idxBuf d L xf) x = idxBuf d L xf ((sWin o ho).view.emb x) from (View.read_apply _ _).trans (cast_eq _ _)]
  unfold idxBuf
  rw [xf_read]
  exact hxf _

variable [FloatOps F] (t2 : Buf (Elt F) (v2Loc d))

/-- What a gather over the window at word `o` lands in its row scratch: row `r` is the table's row named by word `o + r`
    of the subcore's stretch. -/
def rowsBuf (hxf : FlatInRange xf) (o : ℕ) (ho : ∀ a, (![o] : Fin 1 → ℕ) a + S400.size a ≤ S6400.size a) : S400x128.Idx → Elt F .f32 :=
  SparseCore.gatherPayload gathers_S1000000x128_S400x128 ((tAll).view.read (Elt F) t2)
    (SparseCore.rows ((sWin o ho).view.read (Elt F) (idxBuf d L xf)) rfl (idx_inb d L xf hxf o ho))

/-- A gather under way: what its wait will deliver, and the parts of the table's and the index scratch's shares it did
    not borrow. -/
def GFl (hxf : FlatInRange xf) (dst : Memref sig .scVector .vmem S400x128 .f32) (sem : DmaSem sig) (o : ℕ)
    (ho : ∀ a, (![o] : Fin 1 → ℕ) a + S400.size a ≤ S6400.size a) (qt qs : PosShare TreeShare)
    (fd' : Buf (Elt F) (dst.view.loc θ)) : sProp 𝕄 :=
  iprop(Transfers.Flight countersEmb θ (.dma sem) (default : HIx 1) dst.view.dmaCredit
          iprop((dst.view.loc θ ↦{fullShare} fd') ∗ ((tV).view.loc θ ↦[(tAll).view.set]{qt} t2)
            ∗ ((sV).view.loc θ ↦[(sWin o ho).view.set]{qs} idxBuf d L xf))
        ∗ ((tV).view.loc θ ↦[Finset.univ \ (tAll).view.set]{qt} t2)
        ∗ ((sV).view.loc θ ↦[Finset.univ \ (sWin o ho).view.set]{qs} idxBuf d L xf))

theorem gather_issue (hxf : FlatInRange xf) (dst : Memref sig .scVector .vmem S400x128 .f32) (hdst : dst.view.set = Finset.univ) (sem : DmaSem sig)
    (o : ℕ) (ho : ∀ a, (![o] : Fin 1 → ℕ) a + S400.size a ≤ S6400.size a) (qt qs : PosShare TreeShare)
    (fd fd' : Buf (Elt F) (dst.view.loc θ))
    (hfd' : dst.view.write (Elt F) fd (rowsBuf d L xf t2 hxf o ho) Finset.univ = fd')
    {α : Type} (k : PUnit → Prog (TpuEff nD τ sig (Elt F) Λ₀ (.scVector (cV L) (jV L))) α) (Q : α → sProp 𝕄)
    (hp : (Proc.scVector (τ := τ) (cV L) (jV L)).kind = .scVector) (hn : S400.numel = S400x128.size gathers_S1000000x128_S400x128.axis')
    (hsrc : (tAll).view.WordExact) (he : EltTy.f32.bits = 32) (hsp : Space.hbm = .hbm ∨ Space.hbm = .shared) (hr : S1000000x128.StreamRows 0) :
    iprop(((tV).view.loc θ ↦{qt} t2) ∗ (dst.view.loc θ ↦{fullShare} fd) ∗ ((sV).view.loc θ ↦{qs} idxBuf d L xf) ∗ semVal (θ, SemLoc.dma sem) 0)
      ⊢ iprop((GFl d L xf t2 hxf dst sem o ho qt qs fd' -∗ wp frame (wpE (defs₀ (F := F)) 𝒱₀ θ none) Set.univ (k ⟨⟩) Q)
          -∗ wp frame (wpE (defs₀ (F := F)) 𝒱₀ θ none) Set.univ
          (SparseCore.enqueueIndirectGather hp tAll dst gathers_S1000000x128_S400x128 (sWin o ho) hn sem hsrc he hsp hr >>= k) Q) := by
  subst hfd'
  iintro ⟨Ht, Hd, Hs, Hv⟩ Hk
  ihave Hts := (pointsTo_split_subset (q := qt) (f := t2) (S := Finset.univ) (Finset.subset_univ (tAll).view.set)).1 $$ Ht
  icases Hts with ⟨Hts, Htr⟩
  ihave Hss := (pointsTo_split_subset (q := qs) (f := idxBuf d L xf) (S := Finset.univ) (Finset.subset_univ (sWin o ho).view.set)).1 $$ Hs
  icases Hss with ⟨Hss, Hsr⟩
  ihave Hd' := (Entails.of_eq (show (dst.view.loc θ ↦{fullShare} fd : sProp 𝕄) = dst.view.loc θ ↦[dst.view.set]{fullShare} fd by rw [hdst])) $$ Hd
  iapply (SparseCore.wp_indirectGatherLocal countersEmb 𝒱₀ θ none (hg := gathers_S1000000x128_S400x128) (default : HIx 1)
      dst.view.dmaCredit (SparseCore.sum_rowCredit_eq_dmaCredit dst _ (fun _ => rfl)) (by decide) (idx_inb d L xf hxf o ho)) $$ [Hts Hd' Hss Hv]
  · isplitl [Hts]; · iexact Hts
    isplitl [Hd']; · iexact Hd'
    isplitl [Hss]; · iexact Hss
    iexact Hv
  iintro Hfl
  iapply Hk
  unfold GFl
  isplitl [Hfl]
  · iapply (Transfers.Flight_mono countersEmb θ (by
      iintro ⟨Hd, Hs, Ho⟩
      isplitl [Hd]
      · iapply (Entails.of_eq (show (dst.view.loc θ ↦[dst.view.set]{fullShare} _ : sProp 𝕄) = dst.view.loc θ ↦{fullShare} _ by rw [hdst])); iexact Hd
      isplitl [Hs]; · iexact Hs
      iexact Ho)) $$ Hfl
  isplitl [Htr]; · iexact Htr
  iexact Hsr

theorem gather_wait (hxf : FlatInRange xf) (dst : Memref sig .scVector .vmem S400x128 .f32) (sem : DmaSem sig)
    (o : ℕ) (ho : ∀ a, (![o] : Fin 1 → ℕ) a + S400.size a ≤ S6400.size a) (qt qs : PosShare TreeShare)
    (fd' : Buf (Elt F) (dst.view.loc θ)) (O : CellTallies nD τ sig (HIx 1)) (W : Waits sig (HIx 1))
    {α : Type} (k : PUnit → Prog (TpuEff nD τ sig (Elt F) Λ₀ (.scVector (cV L) (jV L))) α) (Q : α → sProp 𝕄)
    {s' : Shape} {e' : EltTy} {sp' : Space} (srcw : Memref sig .scVector sp' s' e') (hsrc : srcw.view.WordExact) (hdstw : dst.view.WordExact) :
    iprop(GFl d L xf t2 hxf dst sem o ho qt qs fd' ∗ owes θ O W ∗ Transfers.MayWaits θ (default : HIx 1) O)
      ⊢ iprop((iprop((dst.view.loc θ ↦{fullShare} fd') ∗ ((tV).view.loc θ ↦{qt} t2) ∗ ((sV).view.loc θ ↦{qs} idxBuf d L xf)
            ∗ semVal (θ, SemLoc.dma sem) 0 ∗ owes θ O (insert (SemLoc.dma sem, (default : HIx 1)) W))
          -∗ wp frame (wpE (defs₀ (F := F)) 𝒱₀ θ none) Set.univ (k ⟨⟩) Q)
        -∗ wp frame (wpE (defs₀ (F := F)) 𝒱₀ θ none) Set.univ (.op (.waitDma2 sem srcw dst hsrc hdstw) k) Q) := by
  unfold GFl
  iintro ⟨⟨Hfl, Htr, Hsr⟩, HO, #Hmw⟩ Hk
  iapply (Transfers.wp_waitLocalO countersEmb 𝒱₀ θ none (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hts, Hss⟩, Hv, HO⟩
  iapply Hk
  isplitl [Hd]; · iexact Hd
  isplitl [Hts Htr]
  · iapply (pointsTo_split_subset (q := qt) (f := t2) (S := Finset.univ) (Finset.subset_univ (tAll).view.set)).2
    isplitl [Hts]; · iexact Hts
    iexact Htr
  isplitl [Hss Hsr]
  · iapply (pointsTo_split_subset (q := qs) (f := idxBuf d L xf) (S := Finset.univ) (Finset.subset_univ (sWin o ho).view.set)).2
    isplitl [Hss]; · iexact Hss
    iexact Hsr
  isplitl [Hv]; · iexact Hv
  iexact HO

end Steps

section Split

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-- The elements of the result chunk `r` of the subcore is copied out to. -/
abbrev oSet (L : grid1.Coords) (r : Fin 16) : Finset S204800x128.Idx :=
  (oWin L (BitVec.ofNat 32 (400 * r.val)) (k1_off2_inb L r)).view.set

theorem oSet_eq (r : Fin 16) :
    oSet L r = (Rect.unit (s := S204800x128) (k1_off2 L (BitVec.ofNat 32 (400 * r.val))) S400x128.size (k1_off2_inb L r)).set := by
  show ((View.whole (main_v3_scv : Ref sig .scVector)).slice _).set = _
  exact View.set_slice_whole _ _

/-- Chunk `r`'s elements are the rows `base L + 400 r` … `base L + 400 r + 399`, whole. -/
theorem mem_oSet (r : Fin 16) (j : S204800x128.Idx) :
    j ∈ oSet L r ↔ base L + 400 * r.val ≤ (j 0).val ∧ (j 0).val < base L + 400 * r.val + 400 := by
  rw [oSet_eq, Rect.mem_set_unit, k1_off2_eq L r, Fin.forall_fin_two]
  have h1 : ((j 1 : Fin _) : ℕ) < 128 := (j 1).isLt
  simp only [base, Matrix.cons_val_zero, Matrix.cons_val_one, Matrix.head_cons]
  constructor
  · rintro ⟨⟨a, b⟩, -⟩; exact ⟨a, b⟩
  · rintro ⟨a, b⟩; exact ⟨⟨a, b⟩, Nat.zero_le _, by omega⟩

theorem oRows_cover : oRows L = Finset.univ.biUnion (oSet L) := by
  ext j
  simp only [oRows, Finset.mem_filter, Finset.mem_univ, true_and, Finset.mem_biUnion, mem_oSet]
  constructor
  · rintro ⟨h1, h2⟩
    refine ⟨⟨((j 0).val - base L) / 400, by omega⟩, ?_, ?_⟩ <;> simp only [] <;> omega
  · rintro ⟨r, h1, h2⟩
    have := r.isLt
    constructor <;> omega

theorem oSet_disjoint : ∀ r ∈ (Finset.univ : Finset (Fin 16)), ∀ r' ∈ (Finset.univ : Finset (Fin 16)), r ≠ r' → Disjoint (oSet L r) (oSet L r') := by
  intro r _ r' _ h
  rw [Finset.disjoint_left]
  intro j hj hj'
  rw [mem_oSet] at hj hj'
  have : r.val ≠ r'.val := fun e => h (Fin.ext e)
  omega

/-- The subcore's rows of the result are the sixteen chunks' rows. -/
theorem oRows_split (f : Buf (Elt F) (v3Loc d)) :
    (v3Loc d ↦[oRows L]{fullShare} f : sProp 𝕄)
      = iprop(((oWin L 0#32 (k1_off2_inb L 0)).view.loc θ ↦[(oWin L 0#32 (k1_off2_inb L 0)).view.set]{fullShare} f)
          ∗ ((oWin L 400#32 (k1_off2_inb L 1)).view.loc θ ↦[(oWin L 400#32 (k1_off2_inb L 1)).view.set]{fullShare} f)
          ∗ ((oWin L 800#32 (k1_off2_inb L 2)).view.loc θ ↦[(oWin L 800#32 (k1_off2_inb L 2)).view.set]{fullShare} f)
          ∗ ((oWin L 1200#32 (k1_off2_inb L 3)).view.loc θ ↦[(oWin L 1200#32 (k1_off2_inb L 3)).view.set]{fullShare} f)
          ∗ ((oWin L 1600#32 (k1_off2_inb L 4)).view.loc θ ↦[(oWin L 1600#32 (k1_off2_inb L 4)).view.set]{fullShare} f)
          ∗ ((oWin L 2000#32 (k1_off2_inb L 5)).view.loc θ ↦[(oWin L 2000#32 (k1_off2_inb L 5)).view.set]{fullShare} f)
          ∗ ((oWin L 2400#32 (k1_off2_inb L 6)).view.loc θ ↦[(oWin L 2400#32 (k1_off2_inb L 6)).view.set]{fullShare} f)
          ∗ ((oWin L 2800#32 (k1_off2_inb L 7)).view.loc θ ↦[(oWin L 2800#32 (k1_off2_inb L 7)).view.set]{fullShare} f)
          ∗ ((oWin L 3200#32 (k1_off2_inb L 8)).view.loc θ ↦[(oWin L 3200#32 (k1_off2_inb L 8)).view.set]{fullShare} f)
          ∗ ((oWin L 3600#32 (k1_off2_inb L 9)).view.loc θ ↦[(oWin L 3600#32 (k1_off2_inb L 9)).view.set]{fullShare} f)
          ∗ ((oWin L 4000#32 (k1_off2_inb L 10)).view.loc θ ↦[(oWin L 4000#32 (k1_off2_inb L 10)).view.set]{fullShare} f)
          ∗ ((oWin L 4400#32 (k1_off2_inb L 11)).view.loc θ ↦[(oWin L 4400#32 (k1_off2_inb L 11)).view.set]{fullShare} f)
          ∗ ((oWin L 4800#32 (k1_off2_inb L 12)).view.loc θ ↦[(oWin L 4800#32 (k1_off2_inb L 12)).view.set]{fullShare} f)
          ∗ ((oWin L 5200#32 (k1_off2_inb L 13)).view.loc θ ↦[(oWin L 5200#32 (k1_off2_inb L 13)).view.set]{fullShare} f)
          ∗ ((oWin L 5600#32 (k1_off2_inb L 14)).view.loc θ ↦[(oWin L 5600#32 (k1_off2_inb L 14)).view.set]{fullShare} f)
          ∗ ((oWin L 6000#32 (k1_off2_inb L 15)).view.loc θ ↦[(oWin L 6000#32 (k1_off2_inb L 15)).view.set]{fullShare} f)) := by
  rw [oRows_cover L, pointsTo_biUnion Finset.univ (ℓ := v3Loc d) (oSet L) (oSet_disjoint L), bigSep_fin16]
  rfl
end Split

section Value

variable (xf : Buf (Elt F) (v0Loc d)) [FloatOps F] (t2 : Buf (Elt F) (v2Loc d))

omit d in
theorem ix2_at0 {n0 n1 : ℕ} (a : Fin n0) (b : Fin n1) : ix2 a b 0 = a := rfl
omit d in
theorem ix2_at1 {n0 n1 : ℕ} (a : Fin n0) (b : Fin n1) : ix2 a b 1 = b := rfl
omit d in
theorem idx1_ext {n : ℕ} (A B : (⟨1, ![n]⟩ : Shape).Idx) (h : (A 0).val = (B 0).val) : A = B :=
  funext fun a => match a with | 0 => Fin.ext h
omit d in
theorem idx2_ext {n0 n1 : ℕ} (A B : (⟨2, ![n0, n1]⟩ : Shape).Idx) (h0 : (A 0).val = (B 0).val) (h1 : (A 1).val = (B 1).val) : A = B :=
  funext fun a => match a with | 0 => Fin.ext h0 | 1 => Fin.ext h1

omit [FloatOps F] in
/-- The row a window's word `k` names: the word at position `base L + o + k` of the flattened indices. -/
theorem rows_val (hxf : FlatInRange xf) (o : ℕ) (ho : ∀ a, (![o] : Fin 1 → ℕ) a + S400.size a ≤ S6400.size a)
    (hn : S400.numel = S400x128.size gathers_S1000000x128_S400x128.axis')
    (k : Fin (S400x128.size gathers_S1000000x128_S400x128.axis')) :
    ∃ j : S204800.Idx, (j 0).val = base L + o + k.val ∧
      (SparseCore.rows ((sWin o ho).view.read (Elt F) (idxBuf d L xf)) hn (idx_inb d L xf hxf o ho) k).val = (xf j).toNat := by
  refine ⟨(xWin L).view.emb ((sWin o ho).view.emb (S400.rowMajor.symm (k.cast hn.symm))), ?_, ?_⟩
  · have hz : ((S400.rowMajor.symm (k.cast hn.symm)) 0).val = k.val := by
      have h1 := Shape.rowMajor_val_one (d := ![400]) (S400.rowMajor.symm (k.cast hn.symm))
      rw [Equiv.apply_symm_apply] at h1
      exact h1.symm
    have e1 : ∀ w : S6400.Idx, (((xWin L).view.emb w 0 : Fin _) : ℕ) = k1_off1 L 0 + 1 * (w 0).val := fun w => rfl
    have e2 : ∀ z : S400.Idx, (((sWin o ho).view.emb z 0 : Fin _) : ℕ) = o + 1 * (z 0).val := fun z => rfl
    rw [e1, e2, hz, k1_off1_eq]
    simp only [base, Matrix.cons_val_zero]
    omega
  · unfold SparseCore.rows
    show ((sWin o ho).view.read (Elt F) (idxBuf d L xf) (S400.rowMajor.symm (k.cast hn.symm))).toNat = _
    rw [show (sWin o ho).view.read (Elt F) (idxBuf d L xf) (S400.rowMajor.symm (k.cast hn.symm))
        = idxBuf d L xf ((sWin o ho).view.emb (S400.rowMajor.symm (k.cast hn.symm))) from (View.read_apply _ _).trans (cast_eq _ _)]
    unfold idxBuf
    rw [xf_read]

/-- What chunk `r`'s write-back leaves in its rows of the result is the gathered rows. -/
theorem wb_value (hxf : FlatInRange xf) (r : Fin 16) (ho : ∀ a, (![400 * r.val] : Fin 1 → ℕ) a + S400.size a ≤ S6400.size a)
    (f3 : Buf (Elt F) (v3Loc d)) :
    ∀ i ∈ oSet L r, (oWin L (BitVec.ofNat 32 (400 * r.val)) (k1_off2_inb L r)).view.writes (Elt F) f3
        [⟨Rect.whole S400x128, rowsBuf d L xf t2 hxf (400 * r.val) ho⟩] i = gatherRows xf t2 i := by
  intro i hi
  obtain ⟨x, -, rfl⟩ := Finset.mem_map.mp hi
  have hr : ∀ (g : Buf (Elt F) (v3Loc d)) (y : S400x128.Idx), g ((oWin L (BitVec.ofNat 32 (400 * r.val)) (k1_off2_inb L r)).view.emb y) = (oWin L (BitVec.ofNat 32 (400 * r.val)) (k1_off2_inb L r)).view.read (Elt F) g y :=
    fun g y => ((View.read_apply (v := (oWin L (BitVec.ofNat 32 (400 * r.val)) (k1_off2_inb L r)).view) g y).trans (cast_eq _ _)).symm
  refine (hr _ x).trans ?_
  have e := View.read_writes_cons_emb (oWin L (BitVec.ofNat 32 (400 * r.val)) (k1_off2_inb L r)).view f3 (Rect.whole S400x128)
    (rowsBuf d L xf t2 hxf (400 * r.val) ho) [] x
  rw [Rect.emb_whole_apply] at e
  rw [e]
  unfold rowsBuf SparseCore.gatherPayload gatherRows
  rw [show ∀ y, (tAll).view.read (Elt F) t2 y = t2 ((tAll).view.emb y) from fun y => (View.read_apply _ _).trans (cast_eq _ _)]
  obtain ⟨j, hj0, hj⟩ := rows_val d L xf hxf (400 * r.val) ho rfl (x gathers_S1000000x128_S400x128.axis')
  have hax : ((gathers_S1000000x128_S400x128.idx
      (SparseCore.rows ((sWin (400 * r.val) ho).view.read (Elt F) (idxBuf d L xf)) rfl (idx_inb d L xf hxf (400 * r.val) ho)) x 0 : Fin _) : ℕ)
      = (xf j).toNat :=
    (congrArg Fin.val (Shape.Gathers.idx_axis gathers_S1000000x128_S400x128
      (SparseCore.rows ((sWin (400 * r.val) ho).view.read (Elt F) (idxBuf d L xf)) rfl (idx_inb d L xf hxf (400 * r.val) ho)) x)).trans hj
  have hj0' : (j 0).val = base L + 400 * r.val + (x 0).val := hj0
  have eo : ∀ (y : S400x128.Idx) (a : Fin 2), (((oWin L (BitVec.ofNat 32 (400 * r.val)) (k1_off2_inb L r)).view.emb y a : Fin _) : ℕ)
      = k1_off2 L (BitVec.ofNat 32 (400 * r.val)) a + 1 * (y a).val := fun y a => rfl
  have et : ∀ (Y : S1000000x128.Idx) (a : Fin 2), (((tAll).view.emb Y a : Fin _) : ℕ) = (![0, 0] : Fin 2 → ℕ) a + 1 * (Y a).val := fun Y a => rfl
  have hx0 : (((oWin L (BitVec.ofNat 32 (400 * r.val)) (k1_off2_inb L r)).view.emb x 0 : Fin _) : ℕ) = base L + 400 * r.val + (x 0).val := by
    rw [eo, k1_off2_eq L r]
    simp only [base, Matrix.cons_val_zero]
    omega
  have hjx : j = ix1 ((oWin L (BitVec.ofNat 32 (400 * r.val)) (k1_off2_inb L r)).view.emb x 0) := idx1_ext (n := 204800) _ _ (hj0'.trans hx0.symm)
  refine congrArg t2 (idx2_ext (n0 := 1000000) (n1 := 128) _ _ ?_ ?_)
  · rw [et, hax]
    refine Eq.trans ?_ (show (xf j).toNat % 1000000 = _ from congrArg (fun z : S204800.Idx => (xf z).toNat % 1000000) hjx)
    rw [Nat.mod_eq_of_lt (hxf j)]
    simp only [Matrix.cons_val_zero]
    omega
  · rw [et]
    refine Eq.trans ?_ (eo x 1).symm
    rw [k1_off2_eq L r, Shape.Gathers.idx_of_ne gathers_S1000000x128_S400x128 _ x 1 (by decide)]
    simp only [Matrix.cons_val_one, Matrix.cons_val_zero, Matrix.head_cons]
    rfl

end Value

section WbPts
variable (xf : Buf (Elt F) (v0Loc d)) [FloatOps F] (t2 : Buf (Elt F) (v2Loc d))
/-- Chunk `r`'s rows of the result, once written back, are held at the gathered rows. -/
theorem wb_pts (hxf : FlatInRange xf) (r : Fin 16) (c : BitVec 32) (hc : ∀ a, (k1_off2 L c) a + S400x128.size a ≤ S204800x128.size a)
    (hcr : c = BitVec.ofNat 32 (400 * r.val)) (o : ℕ) (ho : ∀ a, (![o] : Fin 1 → ℕ) a + S400.size a ≤ S6400.size a) (hor : o = 400 * r.val)
    (f3 : Buf (Elt F) (v3Loc d)) :
    ((oWin L c hc).view.loc θ ↦[(oWin L c hc).view.set]{fullShare}
        (oWin L c hc).view.writes (Elt F) f3 [⟨Rect.whole S400x128, rowsBuf d L xf t2 hxf o ho⟩] : sProp 𝕄)
      = ((oWin L c hc).view.loc θ ↦[(oWin L c hc).view.set]{fullShare} gatherRows xf t2) := by
  subst hcr hor
  exact pointsTo_congr (wb_value d L xf t2 hxf r ho f3)
end WbPts

end Tile

end Tl

open Tl

variable [FloatOps F]

set_option maxHeartbeats 4000000 in
/-- The task on vector subcore `(L 0, L 1)` of device `d`: from shares of the flattened indices and of the table, its own
    6400 rows of the result, its scratch and its semaphores at zero, the body runs and gives all of it back, its rows of
    the result at the gathered rows, every wait it recorded at the launch's own index. -/
theorem tile_body (hF : (K (F := F)).Facts) (d : Dev nD) (L : grid1.Coords) (xf : Buf (Elt F) (v0Loc d)) (hxf : FlatInRange xf) (t2 : Buf (Elt F) (v2Loc d)) (f3 : Buf (Elt F) (v3Loc d))
    (q0 q2 : PosShare TreeShare)
    (O : CellTallies nD τ sig (HIx 1)) (W : Waits sig (HIx 1)) (hO : ∀ g, O g none = 0) :
    (iprop(levAts (K (F := F)).L (K (F := F)).lev ∗ emp
        ∗ ((v0Loc d ↦{q0} xf) ∗ (v2Loc d ↦{q2} t2) ∗ (v3Loc d ↦[oRows L]{fullShare} f3))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__emb_body L (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            cc1_scratch3 cc1_scratch4 cc1_scratch5 cc1_scratch6 cc1_scoped0)
          fun _ => iprop(((v0Loc d ↦{q0} xf) ∗ (v2Loc d ↦{q2} t2) ∗ (v3Loc d ↦[oRows L]{fullShare} gatherRows xf t2))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__emb_body_eq_skeleton]; unfold cc1__emb_body_skel
  rw [(K (F := F)).scopedBufs_V hF d (cV L) (jV L), SparseCore.Cfg.scopedSems0_V (Val := Elt F) d (cV L) (jV L), ownSems0_V, ownBufs_V,
    oRows_split d L f3, oRows_split d L (gatherRows xf t2)]
  iintro ⟨#Hlv, -, ⟨Hx, Ht, Ho0, Ho1, Ho2, Ho3, Ho4, Ho5, Ho6, Ho7, Ho8, Ho9, Ho10, Ho11, Ho12, Ho13, Ho14, Ho15⟩, ⟨⟨%fs, Hs⟩, ⟨%fa, Ha⟩, ⟨%fb, Hb⟩, Hbufs⟩, ⟨HgA, HgB, HwA, HwB, Hf, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (v0Loc d ↦{q0} xf : sProp 𝕄) = ((xV).view.loc (V d (cV L) (jV L)) ↦{q0} xf) from rfl)) $$ Hx
  ihave Ht' := (Entails.of_eq (show (v2Loc d ↦{q2} t2 : sProp 𝕄) = ((tV).view.loc (V d (cV L) (jV L)) ↦{q2} t2) from rfl)) $$ Ht
  ihave Hs' := (Entails.of_eq (show ((V d (cV L) (jV L)).loc cc1_scratch0 ↦{fullShare} fs : sProp 𝕄) = ((sV).view.loc (V d (cV L) (jV L)) ↦{fullShare} fs) from rfl)) $$ Hs
  ihave Ha' := (Entails.of_eq (show ((V d (cV L) (jV L)).loc cc1_scratch1 ↦{fullShare} fa : sProp 𝕄) = ((rA).view.loc (V d (cV L) (jV L)) ↦{fullShare} fa) from rfl)) $$ Ha
  ihave Hb' := (Entails.of_eq (show ((V d (cV L) (jV L)).loc cc1_scratch2 ↦{fullShare} fb : sProp 𝕄) = ((rB).view.loc (V d (cV L) (jV L)) ↦{fullShare} fb) from rfl)) $$ Hb
  sl_exec
  -- the index scratch now holds the subcore's stretch of the flattened indices; its share and the table's are halved, one
  -- half for the gathers into each row scratch
  ihave Hs1 := (Entails.of_eq (show ((sV).view.loc (V d (cV L) (jV L)) ↦{fullShare} View.write (Elt F) (sV).view fs (tile_body.sl.dma0 d L xf) Finset.univ : sProp 𝕄)
      = ((sV).view.loc (V d (cV L) (jV L)) ↦{fullShare} idxBuf d L xf) by rw [View.write_whole_univ]; rfl)) $$ Hs'
  ihave Hs2 := (pointsTo_share (PosShare.mem_left_op_right (fullShare : PosShare TreeShare))).1 $$ Hs1
  icases Hs2 with ⟨HsL, HsR⟩
  ihave Ht2 := (pointsTo_share (PosShare.mem_left_op_right q2)).1 $$ Ht'
  icases Ht2 with ⟨HtL, HtR⟩
  -- the gather of chunk 0 is issued, over words 0 … 399 of the index scratch
  iapply (gather_issue d L xf t2 hxf rA (View.set_whole _) _ 0 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the gather of chunk 1 is issued, over words 400 … 799 of the index scratch
  iapply (gather_issue d L xf t2 hxf rB (View.set_whole _) _ 400 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 0's gather: its row scratch holds the rows its window's words name
  iapply (gather_wait d L xf t2 hxf rA _ 0 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 2 is issued, over words 800 … 1199 of the index scratch
  iapply (gather_issue d L xf t2 hxf rA (View.set_whole _) _ 800 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 1's gather: its row scratch holds the rows its window's words name
  iapply (gather_wait d L xf t2 hxf rB _ 400 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 3 is issued, over words 1200 … 1599 of the index scratch
  iapply (gather_issue d L xf t2 hxf rB (View.set_whole _) _ 1200 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 2's gather: its row scratch holds the rows its window's words name
  iapply (gather_wait d L xf t2 hxf rA _ 800 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 4 is issued, over words 1600 … 1999 of the index scratch
  iapply (gather_issue d L xf t2 hxf rA (View.set_whole _) _ 1600 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 3's gather: its row scratch holds the rows its window's words name
  iapply (gather_wait d L xf t2 hxf rB _ 1200 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 5 is issued, over words 2000 … 2399 of the index scratch
  iapply (gather_issue d L xf t2 hxf rB (View.set_whole _) _ 2000 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 4's gather: its row scratch holds the rows its window's words name
  iapply (gather_wait d L xf t2 hxf rA _ 1600 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 6 is issued, over words 2400 … 2799 of the index scratch
  iapply (gather_issue d L xf t2 hxf rA (View.set_whole _) _ 2400 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 5's gather: its row scratch holds the rows its window's words name
  iapply (gather_wait d L xf t2 hxf rB _ 2000 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 7 is issued, over words 2800 … 3199 of the index scratch
  iapply (gather_issue d L xf t2 hxf rB (View.set_whole _) _ 2800 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 6's gather: its row scratch holds the rows its window's words name
  iapply (gather_wait d L xf t2 hxf rA _ 2400 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 8 is issued, over words 3200 … 3599 of the index scratch
  iapply (gather_issue d L xf t2 hxf rA (View.set_whole _) _ 3200 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 7's gather: its row scratch holds the rows its window's words name
  iapply (gather_wait d L xf t2 hxf rB _ 2800 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 9 is issued, over words 3600 … 3999 of the index scratch
  iapply (gather_issue d L xf t2 hxf rB (View.set_whole _) _ 3600 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 8's gather: its row scratch holds the rows its window's words name
  iapply (gather_wait d L xf t2 hxf rA _ 3200 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 10 is issued, over words 4000 … 4399 of the index scratch
  iapply (gather_issue d L xf t2 hxf rA (View.set_whole _) _ 4000 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 9's gather: its row scratch holds the rows its window's words name
  iapply (gather_wait d L xf t2 hxf rB _ 3600 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 11 is issued, over words 4400 … 4799 of the index scratch
  iapply (gather_issue d L xf t2 hxf rB (View.set_whole _) _ 4400 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 10's gather: its row scratch holds the rows its window's words name
  iapply (gather_wait d L xf t2 hxf rA _ 4000 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 12 is issued, over words 4800 … 5199 of the index scratch
  iapply (gather_issue d L xf t2 hxf rA (View.set_whole _) _ 4800 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 11's gather: its row scratch holds the rows its window's words name
  iapply (gather_wait d L xf t2 hxf rB _ 4400 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 13 is issued, over words 5200 … 5599 of the index scratch
  iapply (gather_issue d L xf t2 hxf rB (View.set_whole _) _ 5200 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 12's gather: its row scratch holds the rows its window's words name
  iapply (gather_wait d L xf t2 hxf rA _ 4800 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the gather of chunk 14 is issued, over words 5600 … 5999 of the index scratch
  iapply (gather_issue d L xf t2 hxf rA (View.set_whole _) _ 5600 _ q2.left (fullShare : PosShare TreeShare).left _ _ (View.write_whole_univ _ _ _) _ _ _ _ _ _ _ _) $$ [HtL Ha' HsL HgA]
  · isplitl [HtL]; · iexact HtL
    isplitl [Ha']; · iexact Ha'
    isplitl [HsL]; · iexact HsL
    iexact HgA
  iintro HflA
  sl_exec
  -- the wait for chunk 13's gather: its row scratch holds the rows its window's words name
  iapply (gather_wait d L xf t2 hxf rB _ 5200 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  -- the gather of chunk 15 is issued, over words 6000 … 6399 of the index scratch
  iapply (gather_issue d L xf t2 hxf rB (View.set_whole _) _ 6000 _ q2.right (fullShare : PosShare TreeShare).right _ _ (View.write_whole_univ _ _ _) _ _ _ _ _ _ _ _) $$ [HtR Hb' HsR HgB]
  · isplitl [HtR]; · iexact HtR
    isplitl [Hb']; · iexact Hb'
    isplitl [HsR]; · iexact HsR
    iexact HgB
  iintro HflB
  sl_exec
  -- the wait for chunk 14's gather: its row scratch holds the rows its window's words name
  iapply (gather_wait d L xf t2 hxf rA _ 5600 _ q2.left (fullShare : PosShare TreeShare).left _ O _ _ _ _ _ _) $$ [HflA HO]
  · isplitl [HflA]; · iexact HflA
    isplitl [HO]; · iexact HO
    iexact Hmw
  iintro ⟨Ha', HtL, HsL, HgA, HO⟩
  sl_exec
  -- the wait for chunk 15's gather: its row scratch holds the rows its window's words name
  iapply (gather_wait d L xf t2 hxf rB _ 6000 _ q2.right (fullShare : PosShare TreeShare).right _ O _ _ _ _ _ _) $$ [HflB HO]
  · isplitl [HflB]; · iexact HflB
    isplitl [HO]; · iexact HO
    iexact Hmw
  iintro ⟨Hb', HtR, HsR, HgB, HO⟩
  sl_exec
  sl_step
  -- the halves of the table's and the index scratch's shares rejoin
  ihave Ht' := (pointsTo_share (PosShare.mem_left_op_right q2)).2 $$ [HtL HtR]
  · isplitl [HtL]; · iexact HtL
    iexact HtR
  ihave Hs1 := (pointsTo_share (PosShare.mem_left_op_right (fullShare : PosShare TreeShare))).2 $$ [HsL HsR]
  · isplitl [HsL]; · iexact HsL
    iexact HsR
  isplitl [Hx' Ht' Ho0 Ho1 Ho2 Ho3 Ho4 Ho5 Ho6 Ho7 Ho8 Ho9 Ho10 Ho11 Ho12 Ho13 Ho14 Ho15]
  · isplitl [Hx']; · iexact Hx'
    isplitl [Ht']; · iexact Ht'
    isplitl [Ho0]; · iapply (Entails.of_eq (wb_pts d L xf t2 hxf 0 0#32 _ rfl 0 _ rfl f3)); iexact Ho0
    isplitl [Ho1]; · iapply (Entails.of_eq (wb_pts d L xf t2 hxf 1 400#32 _ rfl 400 _ rfl f3)); iexact Ho1
    isplitl [Ho2]; · iapply (Entails.of_eq (wb_pts d L xf t2 hxf 2 800#32 _ rfl 800 _ rfl f3)); iexact Ho2
    isplitl [Ho3]; · iapply (Entails.of_eq (wb_pts d L xf t2 hxf 3 1200#32 _ rfl 1200 _ rfl f3)); iexact Ho3
    isplitl [Ho4]; · iapply (Entails.of_eq (wb_pts d L xf t2 hxf 4 1600#32 _ rfl 1600 _ rfl f3)); iexact Ho4
    isplitl [Ho5]; · iapply (Entails.of_eq (wb_pts d L xf t2 hxf 5 2000#32 _ rfl 2000 _ rfl f3)); iexact Ho5
    isplitl [Ho6]; · iapply (Entails.of_eq (wb_pts d L xf t2 hxf 6 2400#32 _ rfl 2400 _ rfl f3)); iexact Ho6
    isplitl [Ho7]; · iapply (Entails.of_eq (wb_pts d L xf t2 hxf 7 2800#32 _ rfl 2800 _ rfl f3)); iexact Ho7
    isplitl [Ho8]; · iapply (Entails.of_eq (wb_pts d L xf t2 hxf 8 3200#32 _ rfl 3200 _ rfl f3)); iexact Ho8
    isplitl [Ho9]; · iapply (Entails.of_eq (wb_pts d L xf t2 hxf 9 3600#32 _ rfl 3600 _ rfl f3)); iexact Ho9
    isplitl [Ho10]; · iapply (Entails.of_eq (wb_pts d L xf t2 hxf 10 4000#32 _ rfl 4000 _ rfl f3)); iexact Ho10
    isplitl [Ho11]; · iapply (Entails.of_eq (wb_pts d L xf t2 hxf 11 4400#32 _ rfl 4400 _ rfl f3)); iexact Ho11
    isplitl [Ho12]; · iapply (Entails.of_eq (wb_pts d L xf t2 hxf 12 4800#32 _ rfl 4800 _ rfl f3)); iexact Ho12
    isplitl [Ho13]; · iapply (Entails.of_eq (wb_pts d L xf t2 hxf 13 5200#32 _ rfl 5200 _ rfl f3)); iexact Ho13
    isplitl [Ho14]; · iapply (Entails.of_eq (wb_pts d L xf t2 hxf 14 5600#32 _ rfl 5600 _ rfl f3)); iexact Ho14
    iapply (Entails.of_eq (wb_pts d L xf t2 hxf 15 6000#32 _ rfl 6000 _ rfl f3)); iexact Ho15
  isplitl [Hs1 Ha' Hb' Hbufs]
  · isplitl [Hs1]; · iexists _; iexact Hs1
    isplitl [Ha']; · iexists _; iexact Ha'
    isplitl [Hb']; · iexists _; iexact Hb'
    iexact Hbufs
  isplitl [HgA HgB HwA HwB Hf Hsems]
  · isplitl [HgA]; · iexact HgA
    isplitl [HgB]; · iexact HgB
    isplitl [HwA]; · iexact HwA
    isplitl [HwB]; · iexact HwB
    isplitl [Hf]; · iexact Hf
    iexact Hsems
  iexists _; isplitr
  swap; · iexact HO
  ipureintro; intro p hp
  repeat (rcases Finset.mem_insert.mp hp with hp | hp; · exact .inr (hp ▸ rfl))
  exact .inl hp

end Cert.Proof.KB

end
-- ==== Proof.KB.Launch.lean ====
/-
  The kernel's run. A vector subcore's task is the body's run from its operands (the existential table array opened,
  the gathered rows read through the transposed table); the call's operands are already the tasks' side by side; the
  launch theorem of the SparseCore program turns the tasks' proofs and @main's into the run of all thirty-five
  threads: every weakly fair execution ends, the arguments unchanged, the result at the lookup.
-/
import proofs.«206427_g47785806135705_cont_8to1_c_687_25_alg».proof.Proof.KB.Main
import proofs.«206427_g47785806135705_cont_8to1_c_687_25_alg».proof.Proof.KB.Tile

noncomputable section

namespace Cert.Proof.KB

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}
local notation "𝕄" => MT nD τ sig (HIx 1) (Elt F) ℕ UU ℕ

variable [FloatOps F]
variable (m : (ℓ : Loc nD τ sig) → Buf (Elt F) ℓ) (ρ : Dev nD → PrngReg)

/-! ## The task's obligation -/

section Tile

variable (d : Dev nD)

theorem defs₀_vector (c : Fin τ.nSC) (s : Fin τ.nSub) :
    defs₀ (F := F) (.scVector c s) 1 ()
      = SparseCore.onTile hcore1 hsub1 (fun c s => cc1__emb_body (fun | 0 => c | 1 => s | ⟨_ + 2, h⟩ => absurd h (Nat.not_lt.2 (Nat.le_add_left _ _)))
          (Memref.whole main_v0_scv) (Memref.isWhole_whole _) (Memref.whole main_v2_scv) (Memref.isWhole_whole _)
          (Memref.whole main_v3_scv) (Memref.isWhole_whole _) (Memref.whole cc1_scratch0) (Memref.isWhole_whole _)
          (Memref.whole cc1_scratch1) (Memref.isWhole_whole _) (Memref.whole cc1_scratch2) (Memref.isWhole_whole _)
          cc1_scratch3 cc1_scratch4 cc1_scratch5 cc1_scratch6 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task at grid point (c, i): the body from the task's operands, its post the task's results. -/
theorem tile_task (hF : (K (F := F)).Facts) (hpre : PreOK m) (c : Fin 2) (i : Fin 16)
    (O : CellTallies nD τ sig (HIx 1)) (W : Waits sig (HIx 1)) (hO : ∀ g, O g none = 0) :
    (iprop(levAts (K (F := F)).L (K (F := F)).lev ∗ emp ∗ goRes m d c i
        ∗ scopedBufs (V d (cV (coordsV c i)) (jV (coordsV c i))) ∗ scopedSems0 (V d (cV (coordsV c i)) (jV (coordsV c i)))
        ∗ owes (V d (cV (coordsV c i)) (jV (coordsV c i))) O W) : sProp 𝕄)
      ⊢ wp frame (wpE (defs₀ (F := F)) 𝒱₀ (V d (cV (coordsV c i)) (jV (coordsV c i))) none) Set.univ
          (cc1__emb_body (coordsV c i) (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            cc1_scratch3 cc1_scratch4 cc1_scratch5 cc1_scratch6 cc1_scoped0)
          fun _ => iprop(tdRes m d c i
            ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  unfold goRes
  iintro ⟨#Hlv, -, ⟨%t2, %ht2, H0, H2, H3⟩, Hsb, Hss, HO⟩
  iapply (wp_wand_r frame _ Set.univ)
  isplitl [H0 H2 H3 Hsb Hss HO]
  · iapply (tile_body (F := F) hF d (coordsV c i) (xfOf m d) (flatInRange_of_inRange _ (hpre d)) t2 (m (v3Loc d)) (xq c i) (xq c i) O W hO)
    isplitr; · iexact Hlv
    isplitr; · iempintro
    isplitl [H0 H2 H3]
    · isplitl [H0]; · iexact H0
      isplitl [H2]; · iexact H2
      iexact H3
    isplitl [Hsb]; · iexact Hsb
    isplitl [Hss]; · iexact Hss
    iexact HO
  · iintro %_ ⟨⟨-, -, H3⟩, Hsb, Hss, HO⟩
    isplitl [H3]
    · unfold tdRes
      iexists (gatherRows (xfOf m d) t2)
      isplitr
      · ipureintro; exact gatheredOn_of_transposedIn _ _ _ ht2 _
      · iexact H3
    isplitl [Hsb]; · iexact Hsb
    isplitl [Hss]; · iexact Hss
    iexact HO

end Tile

section Obl
set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d hF hpre (Fin.cast nCore_zero c) (Fin.cast nSub_zero i) O W hO).trans (wp_mono frame _ _ fun _ => obl_post)

theorem vecSplit : (K (F := F)).VecSplit' (P m) 0 := by
  intro d c
  show (bigSep Finset.univ fun i : Fin 16 => goRes m d (Fin.cast nCore_zero c) i) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun i : Fin 16 => tdRes m d (Fin.cast nCore_zero c) i))
  iintro H; imodintro
  isplitl [H]; · iexact H
  iintro H; iexact H
end Obl

/-! ## The program's run -/

/-- Every final memory has the result array at the lookup and the two arguments as launched. -/
def QC : PUnit × MemSt nD τ sig (Elt F) → Prop := fun r => ∀ c : Dev nD,
  r.2.mem (v5Loc c) = Cert.Proof.Spec.lookup (m (xLoc c)) (m (tLoc c)) ∧ r.2.mem (xLoc c) = m (xLoc c) ∧ r.2.mem (tLoc c) = m (tLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ hpre) (fq m) (hfin m) (QC m) (fun _ h => h)

end Cert.Proof.KB

end
-- ==== Proof.PreRange.lean ====
/-
  The precondition gives the index range. The printed precondition computes, over the index array and the table,
  one truth value: every table entry is finite, and every index word w satisfies 0 ≤ w ≤ 999999 as a signed
  32-bit word. Where that truth value is 1, every index word, read as a natural number, is below 1000000: a word
  that is non-negative as a signed word is its own value, and that value is at most 999999.
-/
import proofs.«206427_g47785806135705_cont_8to1_c_687_25_alg».proof.Proof.Spec
import proofs.«206427_g47785806135705_cont_8to1_c_687_25_alg».proof.Proof.Gen.Pre_input_domain
import Idealize.ShloMosaic.Lib.ReduceAll

noncomputable section

namespace Cert.Proof.PreRange

open Idealize.ShloMosaic

/-- The rank-0 shape has one index. -/
instance : Subsingleton Cert.Pre_input_domain.S_.Idx := ⟨fun a b => funext fun d => d.elim0⟩

/-- A 32-bit word that is at least 0 and at most 999999 as a signed word is, as a natural number, below 1000000. -/
theorem word_lt (v : BitVec 32) (h0 : IntOp.cmpi .sge v 0#32 = 1#1) (h1 : IntOp.cmpi .sle v 999999#32 = 1#1) :
    v.toNat < 1000000 := by
  rw [IntOp.cmpi_sge] at h0
  rw [IntOp.cmpi_sle] at h1
  simp only [BitVec.toInt_eq_toNat_cond, BitVec.toNat_ofNat, Nat.reducePow, Nat.reduceMod] at h0 h1
  omega

/-- Where the precondition's truth value is 1, every index word names a row of the table. -/
theorem inRange_of_pre {F : FTy → Type} [FloatOps F] [Cert.Pre_input_domain.Facts]
    (x : IVec Cert.Pre_input_domain.S4096x50 32) (t : FVec F Cert.Pre_input_domain.S1000000x64 .f32)
    (h : Cert.Pre_input_domain.fn (F := F) x t = fun _ => 1#1) : Cert.Proof.Spec.InRange x := by
  intro j
  have e := congrFun h (fun d => d.elim0)
  dsimp only [Cert.Pre_input_domain.fn] at e
  -- the last conjunction: the table's half and the index array's half
  obtain ⟨-, e9⟩ := IntOp.andi_eq_one.1 e
  -- the reduction by "and" over every position of the index array
  have ej := Host.reduce_andi_all _ _ _ _ _ e9 j
  -- the element: (0 ≤ w) and (w ≤ 999999)
  obtain ⟨e5, e7⟩ := IntOp.andi_eq_one.1 ej
  exact word_lt _ e5 e7

end Cert.Proof.PreRange

end
-- ==== Proof.RefRun.lean ====
/-
  The reference's run and its value. The reference is the table lookup written with a gather: the index words are
  first normalised (a negative word has the number of rows, 1000000, added), given a trailing axis of size one, and
  used as the start indices of a gather of whole rows of the table, which clamps each start index into the table's
  rows; beside it a bounds mask (0 ≤ start index ≤ 999999, reduced by "and" over the trailing axis) selects between
  the gathered entry and a fixed constant. Where every index word names a row, the normalisation changes nothing, the
  clamp changes nothing, the mask is 1 everywhere and the constant is never selected: the result at (b, s, k) is the
  table's entry (x[b, s], k), which is the specification's lookup.

  The run itself: @main is a straight line of twenty-three host operations (its two calls unfolded), so every weakly
  fair execution terminates with each buffer at the fold of the operations over the launch contents; the arguments are
  written by no operation.
-/
import proofs.«206427_g47785806135705_cont_8to1_c_687_25_alg».proof.Proof.Spec
import proofs.«206427_g47785806135705_cont_8to1_c_687_25_alg».proof.Proof.Gen.ReferenceIdeal
import Idealize.ShloMosaic.Lib.StableHlo.Run
import Idealize.ShloMosaic.Lib.ValueIdx
import Idealize.ShloMosaic.Lib.ReduceAll

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo Idealize.ShloMosaic.ValueIdx

/-! ## A reduction by "and" of ones -/

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by "and", from an initial value of ones, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A broadcast along axes reads, at each result index, some index of its operand. -/
theorem broadcastInDim_reads {s t : Shape} {α : Type} (dims : Fin s.rank → Fin t.rank) (h : s.BroadcastsInDim t dims)
    (x : s.Idx → α) (j : t.Idx) : ∃ i, broadcastInDim t dims h x j = x i := ⟨_, rfl⟩

/-! ## An index word that names a row -/

section Word
variable (v : BitVec 32) (hv : v.toNat < 1000000)
include hv

theorem word_not_neg : IntOp.cmpi .slt v 0#32 = 0#1 := by
  have : ¬ (IntOp.cmpi .slt v 0#32 = 1#1) := by
    rw [IntOp.cmpi_slt]
    simp only [BitVec.toInt_eq_toNat_cond, BitVec.toNat_ofNat, Nat.reducePow, Nat.reduceMod]
    omega
  exact eq_zero_of_ne_one this

theorem word_ge_zero : IntOp.cmpi .sge v 0#32 = 1#1 := by
  rw [IntOp.cmpi_sge]
  simp only [BitVec.toInt_eq_toNat_cond, BitVec.toNat_ofNat, Nat.reducePow, Nat.reduceMod]
  omega

theorem word_le_last : IntOp.cmpi .sle v 999999#32 = 1#1 := by
  rw [IntOp.cmpi_sle]
  simp only [BitVec.toInt_eq_toNat_cond, BitVec.toNat_ofNat, Nat.reducePow, Nat.reduceMod]
  omega

theorem word_clamp : min v.toInt.toNat 999999 = v.toNat := by
  simp only [BitVec.toInt_eq_toNat_cond, Nat.reducePow]
  omega

end Word

/-! ## The gather of rows, read at an index -/

section Gather
variable [Cert.ReferenceIdeal.Facts₀] {α : Type}

local notation "gd" => gather_S1000000x64_S4096x50x1_S4096x50x64_2_0_n_n_0_2_164

/-- The gather with one offset axis (the row's entries), the operand's leading axis collapsed and named by the one
    component of the start index: the result at (b, s, k) is the operand at (the start index at (b, s, 0), read signed
    and clamped into the operand's rows; k). -/
theorem gather_rows_apply (x : S1000000x64.Idx → α) (idx : IVec S4096x50x1 32) (b : Fin 4096) (s : Fin 50) (k : Fin 64) :
    Host.gather gd x idx (ix3 b s k)
      = x (ix2 ⟨min (idx (ix3 b s 0)).toInt.toNat 999999, by omega⟩ k) := by
  unfold Host.gather
  congr 1
  funext a
  refine Fin.ext ?_
  show (gd).start (ix3 b s k) idx a + (gd).batchCoord (ix3 b s k) a + (gd).offCoord (ix3 b s k) a = _
  rw [GatherDims.batchCoord_eq_zero _ _ _ List.not_mem_nil]
  match a with
  | ⟨0, h0⟩ =>
    have hm : (⟨0, h0⟩ : Fin S1000000x64.rank) ∈ (gd).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm]
    have hsi : (gd).siIdx (ix3 b s k) ⟨List.idxOf (⟨0, h0⟩ : Fin S1000000x64.rank) (gd).startIndexMap,
        List.idxOf_lt_length_iff.2 hm⟩ = ix3 b s 0 := by
      funext c; refine Fin.ext ?_
      match c with
      | ⟨0, _⟩ => rfl
      | ⟨1, _⟩ => rfl
      | ⟨2, _⟩ => rfl
    rw [hsi]
    rfl
  | ⟨1, h1⟩ =>
    have hn : (⟨1, h1⟩ : Fin S1000000x64.rank) ∉ (gd).startIndexMap :=
      fun h => Nat.one_ne_zero (congrArg Fin.val (List.mem_singleton.mp h))
    have hk : (⟨1, h1⟩ : Fin S1000000x64.rank) ∈ (gd).sKept :=
      (GatherDims.mem_sKept _ _).mpr ⟨fun h => Nat.one_ne_zero (congrArg Fin.val (List.mem_singleton.mp h)), List.not_mem_nil⟩
    unfold GatherDims.start
    rw [dif_neg hn]
    unfold GatherDims.offCoord
    rw [dif_pos hk, Nat.zero_add]
    rfl

end Gather

/-! ## The composed term and its value -/

section Term
variable [Cert.ReferenceIdeal.Facts]

/-- The index array after the normalisation of negative words: a negative word has the number of rows added. -/
def normIdx (x : IVec S4096x50 32) : IVec S4096x50 32 :=
  select (cmpi .slt x (broadcastInDim S4096x50 ![] bcast_S_S4096x50 (constantI S_ 32 0#32)))
    (addi x (broadcastInDim S4096x50 ![] bcast_S_S4096x50 (constantI S_ 32 1000000#32))) x

/-- The gather's start indices: the normalised index array with a trailing axis of size one. -/
def startIdx (x : IVec S4096x50 32) : IVec S4096x50x1 32 :=
  broadcastInDim S4096x50x1 ![0, 1] bcast_S4096x50_S4096x50x1_0_1 (normIdx x)

/-- The bounds mask: at (b, s), whether 0 ≤ start index ≤ 999999, reduced by "and" over the trailing axis. -/
def mask (x : IVec S4096x50 32) : IVec S4096x50 1 :=
  Host.reduce IntOp.andi
    (andi (cmpi .sge (startIdx x) (broadcastInDim S4096x50x1 ![] bcast_S_S4096x50x1 (constantI S_ 32 0#32)))
      (cmpi .sle (startIdx x) (broadcastInDim S4096x50x1 ![0, 1, 2] bcast_S1x1x1_S4096x50x1_0_1_2
        (broadcastInDim S1x1x1 ![2] bcast_S1_S1x1x1_2 (constantI S1 32 999999#32)))))
    (constantI S_ 1 1#1) reducesTo_S4096x50x1_S4096x50_d2 h_S_

variable {F : FTy → Type} [FloatOps F]

/-- The operations' composed term of the two arguments: the gathered rows where the mask is 1, the constant elsewhere. -/
def refTerm (x : IVec S4096x50 32) (t : FVec F S1000000x64 .f32) : FVec F S4096x50x64 .f32 :=
  select (broadcastInDim S4096x50x64 ![0, 1] bcast_S4096x50_S4096x50x64_0_1 (mask x))
    (Host.gather gather_S1000000x64_S4096x50x1_S4096x50x64_2_0_n_n_0_2_164 t (startIdx x))
    (broadcastInDim S4096x50x64 ![] bcast_S_S4096x50x64 (constant S_ .f32 0x7FC00000#32))

variable {x : IVec S4096x50 32} (hx : Cert.Proof.Spec.InRange x)
include hx

/-- A word that names a row is not negative: the normalisation keeps it. -/
theorem normIdx_apply (i : S4096x50.Idx) : normIdx x i = x i := by
  show Scalar.select (IntOp.cmpi .slt (x i) 0#32) _ (x i) = x i
  rw [word_not_neg _ (hx i), select_zero]

/-- Every start index is an index word, so it names a row. -/
theorem startIdx_lt (i : S4096x50x1.Idx) : (startIdx x i).toNat < 1000000 := by
  show (normIdx x _).toNat < 1000000
  rw [normIdx_apply hx]
  exact hx _

/-- The start index at (b, s, 0) is the index word at (b, s). -/
theorem startIdx_apply (b : Fin 4096) (s : Fin 50) : startIdx x (ix3 b s 0) = x (ix2 b s) := by
  show normIdx x _ = _
  rw [normIdx_apply hx]
  congr 1
  funext a
  match a with
  | ⟨0, _⟩ => rfl
  | ⟨1, _⟩ => rfl

/-- The mask is 1 everywhere. -/
theorem mask_apply (i : S4096x50.Idx) : mask x i = 1#1 := by
  unfold mask
  refine reduce_andi_ones _ _ _ _ (fun i => ?_) (fun _ => rfl) _
  show IntOp.andi (IntOp.cmpi .sge (startIdx x i) 0#32) (IntOp.cmpi .sle (startIdx x i) 999999#32) = 1#1
  rw [word_ge_zero _ (startIdx_lt hx i), word_le_last _ (startIdx_lt hx i)]
  decide

/-- The composed term at (b, s, k), where every index word names a row: the table's entry (x[b, s], k). -/
theorem refTerm_apply (t : FVec F S1000000x64 .f32) (b : Fin 4096) (s : Fin 50) (k : Fin 64) :
    refTerm x t (ix3 b s k) = t (ix2 (Cert.Proof.Spec.rowOf x b s) k) := by
  unfold refTerm
  rw [select_apply]
  obtain ⟨i, hi⟩ := broadcastInDim_reads ![0, 1] bcast_S4096x50_S4096x50x64_0_1 (mask x) (ix3 b s k)
  rw [hi, mask_apply hx, select_one, gather_rows_apply]
  -- the clamped start index is the row the specification names
  have hrow : ∀ h : min (startIdx x (ix3 b s 0)).toInt.toNat 999999 < 1000000,
      (⟨min (startIdx x (ix3 b s 0)).toInt.toNat 999999, h⟩ : Fin 1000000) = Cert.Proof.Spec.rowOf x b s := by
    intro h
    refine Fin.ext ?_
    show min (startIdx x (ix3 b s 0)).toInt.toNat 999999 = (Cert.Proof.Spec.rowOf x b s).val
    rw [word_clamp _ (startIdx_lt hx _), startIdx_apply hx, Cert.Proof.Spec.rowOf_val hx]
  rw [hrow]

/-- THE VALUE: where every index word names a row, the composed term is the lookup. -/
theorem refTerm_eq_lookup (t : FVec F S1000000x64 .f32) : refTerm x t = Cert.Proof.Spec.lookup x t := by
  funext j
  obtain ⟨b, s, k, rfl⟩ : ∃ (b : Fin 4096) (s : Fin 50) (k : Fin 64), j = ix3 b s k := ⟨j 0, j 1, j 2, eq_ix3 j⟩
  exact refTerm_apply hx t b s k

end Term

/-! ## The run -/

section Run
variable {F : FTy → Type} [FloatOps F] [Cert.ReferenceIdeal.Facts]

/-- @main's operations in order, the two calls unfolded. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 1000000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 999999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S1000000x64_S4096x50x1_S4096x50x64_2_0_n_n_0_2_164 x i),
    TRef.unary main_call0.v12 main_call0.v14 (broadcastInDim S4096x50x64 ![0, 1] bcast_S4096x50_S4096x50x64_0_1),
    TRef.nullary main_call0.cst (constant S_ .f32 0x7FC00000#32),
    TRef.unary main_call0.cst main_call0.v15 (broadcastInDim S4096x50x64 ![] bcast_S_S4096x50x64),
    TRef.ternary main_call0.v14 main_call0.v13 main_call0.v15 main_call0.v16 select ]

set_option maxRecDepth 1024 in
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
set_option maxHeartbeats 400000 in
/-- The fold at the result buffer is the composed term of the arguments' contents. -/
theorem out_eq (V : Valuation τ sig (Elt F)) :
    after ops V (main_v0 : DevRef τ sig) = refTerm (V (main_arg0 : DevRef τ sig)) (V (main_arg1 : DevRef τ sig)) := by
  after_results
  unfold refTerm mask startIdx normIdx
  rfl

/-- No operation writes the index array. -/
theorem arg0_eq (V : Valuation τ sig (Elt F)) : after ops V (main_arg0 : DevRef τ sig) = V (main_arg0 : DevRef τ sig) := by
  simp only [after_cons, after_nil]
  rfl

/-- No operation writes the table. -/
theorem arg1_eq (V : Valuation τ sig (Elt F)) : after ops V (main_arg1 : DevRef τ sig) = V (main_arg1 : DevRef τ sig) := by
  simp only [after_cons, after_nil]
  rfl

/-- From any memory with zero counters: every weakly fair execution of @main terminates with each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- At any float values: where every index word names a row, every weakly fair execution of @main terminates with the
    result the lookup of the arguments and the arguments unchanged. -/
theorem run_of_inRange (m : (ℓ : Loc nD τ sig) → Buf (Elt F) ℓ) (ρ : Dev nD → PrngReg)
    (hx : ∀ c : Dev nD, Cert.Proof.Spec.InRange (m ((c.tc : Thread nD τ).loc main_arg0))) :
    θ_run (defs (F := F)) (onTc (τ := τ) (main (F := F))) ⟨m, fun _ => 0, ρ⟩ (fun r => ∀ c : Dev nD,
      r.2.mem ((c.tc : Thread nD τ).loc main_v0)
          = Cert.Proof.Spec.lookup (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
      ⟨(h c main_v0).trans ((out_eq _).trans (refTerm_eq_lookup (hx c) _)),
        (h c main_arg0).trans (arg0_eq _), (h c main_arg1).trans (arg1_eq _)⟩)
    (run_main m ρ)

end Run

/-- The reference's run at the ideal instance. -/
theorem run [Cert.ReferenceIdeal.Facts] (m : (ℓ : Loc Cert.ReferenceIdeal.nD Cert.ReferenceIdeal.τ Cert.ReferenceIdeal.sig) → Buf (Elt Ideal) ℓ) (ρ : Dev Cert.ReferenceIdeal.nD → PrngReg)
    (hx : ∀ c : Dev Cert.ReferenceIdeal.nD, Cert.Proof.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread _ _).loc Cert.ReferenceIdeal.main_v0) = Cert.Proof.Spec.lookup (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  run_of_inRange (F := Ideal) m ρ hx

end Cert.ReferenceIdeal.RefValue

end
-- ==== Proof.lean ====
/-
  The certificate's five claims, assembled. The kernel's result and the reference's are both the lookup
  table[x[b, s], k] — the specification's `lookup` — of the same arguments. For the kernel this is the run of its
  thirty-five threads: the host flattens the indices and transposes the table, a TensorCore kernel transposes it back
  into the first 64 of 128 columns, the thirty-two vector subcores gather rows, and the host keeps 64 columns. For the
  reference it is its host operations read at an index under the precondition's index range. The precondition says
  that every index word w has 0 ≤ w ≤ 999999 as a signed word, so every index word names a row of the table; each
  frame claim is its program's run with the result forgotten, and the two programs' results, from memories that agree
  on the arguments, are one and the same lookup.
-/
import proofs.«206427_g47785806135705_cont_8to1_c_687_25_alg».proof.Defs
import proofs.«206427_g47785806135705_cont_8to1_c_687_25_alg».proof.Proof.Gen.Kernel
import proofs.«206427_g47785806135705_cont_8to1_c_687_25_alg».proof.Proof.Gen.Kernel.Skeleton
import proofs.«206427_g47785806135705_cont_8to1_c_687_25_alg».proof.Proof.Gen.Kernel.Launch
import proofs.«206427_g47785806135705_cont_8to1_c_687_25_alg».proof.Proof.Gen.Kernel.Points
import proofs.«206427_g47785806135705_cont_8to1_c_687_25_alg».proof.Proof.Gen.KernelIdeal
import proofs.«206427_g47785806135705_cont_8to1_c_687_25_alg».proof.Proof.Gen.KernelIdeal.Skeleton
import proofs.«206427_g47785806135705_cont_8to1_c_687_25_alg».proof.Proof.Gen.KernelIdeal.Launch
import proofs.«206427_g47785806135705_cont_8to1_c_687_25_alg».proof.Proof.Gen.KernelIdeal.Points
import proofs.«206427_g47785806135705_cont_8to1_c_687_25_alg».proof.Proof.Gen.ReferenceIdeal
import proofs.«206427_g47785806135705_cont_8to1_c_687_25_alg».proof.Proof.Gen.Pre_input_domain
import proofs.«206427_g47785806135705_cont_8to1_c_687_25_alg».proof.Proof.KI.Launch
import proofs.«206427_g47785806135705_cont_8to1_c_687_25_alg».proof.Proof.KB.Launch
import proofs.«206427_g47785806135705_cont_8to1_c_687_25_alg».proof.Proof.PreRange
import proofs.«206427_g47785806135705_cont_8to1_c_687_25_alg».proof.Proof.RefRun
import Idealize.ShloMosaic.Adequacy
import Idealize.ShloMosaic.Init

noncomputable section

namespace Cert.Proof

open Idealize.ShloMosaic Idealize.SL.Sem

/-- Under the precondition every index word of the kernel's index array names a row. -/
theorem preOK_Kernel (m : (ℓ : Loc Cert.Kernel.nD Cert.Kernel.τ Cert.Kernel.sig) → Buf (Elt Bits) ℓ)
    (h : Cert.Pre_Kernel m) : KB.PreOK (F := Bits) m :=
  fun d => PreRange.inRange_of_pre (F := Bits) _ _ (h d)

/-- The same for the idealized kernel. -/
theorem preOK_KernelIdeal (m : (ℓ : Loc Cert.KernelIdeal.nD Cert.KernelIdeal.τ Cert.KernelIdeal.sig) → Buf (Elt Ideal) ℓ)
    (h : Cert.Pre_KernelIdeal m) : KI.PreOK (F := Ideal) m :=
  fun d => PreRange.inRange_of_pre (F := Ideal) _ _ (h d)

/-- The kernel runs and its arguments end unchanged: its run, the result forgotten. -/
theorem frame_Kernel : Cert.frame_Kernel := fun m ρ hpre =>
  (θ_run (Cert.Kernel.defs (F := Bits)) _ _).mono (fun _ h c => ⟨(h c).2.1, (h c).2.2⟩)
    (KB.run_main (F := Bits) m ρ (preOK_Kernel m hpre))

/-- The idealized kernel runs and its arguments end unchanged. -/
theorem frame_KernelIdeal : Cert.frame_KernelIdeal := fun m ρ hpre =>
  (θ_run (Cert.KernelIdeal.defs (F := Ideal)) _ _).mono (fun _ h c => ⟨(h c).2.1, (h c).2.2⟩)
    (KI.run_main (F := Ideal) m ρ (preOK_KernelIdeal m hpre))

/-- The reference runs and its arguments end unchanged. -/
theorem frame_ReferenceIdeal : Cert.frame_ReferenceIdeal := fun m ρ hpre =>
  (θ_run (Cert.ReferenceIdeal.defs (F := Ideal)) _ _).mono (fun _ h c => ⟨(h c).2.1, (h c).2.2⟩)
    (Cert.ReferenceIdeal.RefValue.run m ρ (fun c => PreRange.inRange_of_pre (F := Ideal) _ _ (hpre c)))

/-- The idealization rewrote no operation. -/
theorem preserves : Cert.preserves_Kernel_KernelIdeal := trivial

/-- From memories that agree on the arguments, the idealized kernel and the reference both end with the lookup of those
    arguments. The reference's index range comes from the kernel's precondition through the agreement. -/
theorem algebraic : Cert.algebraic_KernelIdeal_ReferenceIdeal := fun m ρ m' ρ' hpre hagree =>
  ⟨fun c => Cert.Proof.Spec.lookup (m (KI.xLoc c)) (m (KI.tLoc c)),
    (θ_run (Cert.KernelIdeal.defs (F := Ideal)) _ _).mono (fun _ h c => h c)
      (KI.run_main (F := Ideal) m ρ (preOK_KernelIdeal m hpre)),
    (θ_run (Cert.ReferenceIdeal.defs (F := Ideal)) _ _).mono
      (fun _ h c => ⟨(h c).1.trans (congrArg₂ Cert.Proof.Spec.lookup (hagree c).1 (hagree c).2), (h c).2.1, (h c).2.2⟩)
      (Cert.ReferenceIdeal.RefValue.run m' ρ'
        (fun c => Eq.mpr (congrArg Cert.Proof.Spec.InRange (hagree c).1) (preOK_KernelIdeal m hpre c)))⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
